-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x512 : Shape := ⟨3, ![16, 64, 512]⟩
abbrev S2x16x512 : Shape := ⟨3, ![2, 16, 512]⟩
abbrev S16x128 : Shape := ⟨2, ![16, 128]⟩
abbrev S32000x512 : Shape := ⟨2, ![32000, 512]⟩
abbrev S2x2048x512 : Shape := ⟨3, ![2, 2048, 512]⟩
abbrev S2x2048 : Shape := ⟨2, ![2, 2048]⟩
abbrev S32000 : Shape := ⟨1, ![32000]⟩
abbrev S_ : Shape := ⟨0, ![]⟩

class Facts : Prop where
  bcast_S_S16x64x512 : S_.BroadcastsInDim S16x64x512 (![] : Fin 0 → Fin S16x64x512.rank)
  reducesTo_S16x64x512_S_d0_1_2 : S16x64x512.ReducesTo [0, 1, 2] S_
  h_S_ : 0 < S_.numel
  bcast_S_S2x16x512 : S_.BroadcastsInDim S2x16x512 (![] : Fin 0 → Fin S2x16x512.rank)
  reducesTo_S2x16x512_S_d0_1_2 : S2x16x512.ReducesTo [0, 1, 2] S_
  bcast_S_S32000x512 : S_.BroadcastsInDim S32000x512 (![] : Fin 0 → Fin S32000x512.rank)
  reducesTo_S32000x512_S_d0_1 : S32000x512.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg8 : FVec F S2x2048 .f32) (main_arg9 : FVec F S32000x512 .f32) (main_arg10 : FVec F S32000 .f32) (main_v33 : IVec S_ 1) : IVec S_ 1 :=
  let main_v34 : FVec F S2x2048 .f32 := Host.absf main_arg8
  let main_cst_12 : FVec F S_ .f32 := constant S_ .f32 0x7F800000#32
  let main_v35 : FVec F S2x2048 .f32 := broadcastInDim S2x2048 ![] bcast_S_S2x2048 main_cst_12
  let main_v36 : IVec S2x2048 1 := cmpf .olt main_v34 main_v35
  let main_c_13 : IVec S_ 1 := constantI S_ 1 1#1
  let main_v37 : IVec S_ 1 := (fun x v => Host.reduce IntOp.andi x v reducesTo_S2x2048_S_d0_1 h_S_) main_v36 main_c_13
  let main_v38 : IVec S_ 1 := andi main_v33 main_v37
  let main_v39 : FVec F S32000x512 .f32 := Host.absf main_arg9
  let main_cst_14 : FVec F S_ .f32 := constant S_ .f32 0x7F800000#32
  let main_v40 : FVec F S32000x512 .f32 := broadcastInDim S32000x512 ![] bcast_S_S32000x512 main_cst_14
  let main_v41 : IVec S32000x512 1 := cmpf .olt main_v39 main_v40
  let main_c_15 : IVec S_ 1 := constantI S_ 1 1#1
  let main_v42 : IVec S_ 1 := (fun x v => Host.reduce IntOp.andi x v reducesTo_S32000x512_S_d0_1 h_S_) main_v41 main_c_15
  let main_v43 : IVec S_ 1 := andi main_v38 main_v42
  let main_v44 : FVec F S32000 .f32 := Host.absf main_arg10
  let main_cst_16 : FVec F S_ .f32 := constant S_ .f32 0x7F800000#32
  let main_v45 : FVec F S32000 .f32 := broadcastInDim S32000 ![] bcast_S_S32000 main_cst_16
  let main_v46 : IVec S32000 1 := cmpf .olt main_v44 main_v45
  let main_c_17 : IVec S_ 1 := constantI S_ 1 1#1
  let main_v47 : IVec S_ 1 := (fun x v => Host.reduce IntOp.andi x v reducesTo_S32000_S_d0 h_S_) main_v46 main_c_17
  let main_v48 : IVec S_ 1 := andi main_v43 main_v47
  main_v48

def fn_part1 {F : FTy → Type} [FloatOps F] (main_arg5 : FVec F S2x2048x512 .f32) (main_arg6 : FVec F S2x2048x512 .f32) (main_arg7 : FVec F S2x2048 .f32) (main_arg8 : FVec F S2x2048 .f32) (main_arg9 : FVec F S32000x512 .f32) (main_arg10 : FVec F S32000 .f32) (main_v13 : IVec S_ 1) (main_v16 : IVec S32000x512 1) : IVec S_ 1 :=
  let main_c_5 : IVec S_ 1 := constantI S_ 1 1#1
  let main_v17 : IVec S_ 1 := (fun x v => Host.reduce IntOp.andi x v reducesTo_S32000x512_S_d0_1 h_S_) main_v16 main_c_5
  let main_v18 : IVec S_ 1 := andi main_v13 main_v17
  let main_v19 : FVec F S2x2048x512 .f32 := Host.absf main_arg5
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  let main_v24 : FVec F S2x2048x512 .f32 := Host.absf main_arg6
  let main_cst_8 : FVec F S_ .f32 := constant S_ .f32 0x7F800000#32
  let main_v25 : FVec F S2x2048x512 .f32 := broadcastInDim S2x2048x512 ![] bcast_S_S2x2048x512 main_cst_8
  let main_v26 : IVec S2x2048x512 1 := cmpf .olt main_v24 main_v25
  let main_c_9 : IVec S_ 1 := constantI S_ 1 1#1
  let main_v27 : IVec S_ 1 := (fun x v => Host.reduce IntOp.andi x v reducesTo_S2x2048x512_S_d0_1_2 h_S_) main_v26 main_c_9
  let main_v28 : IVec S_ 1 := andi main_v23 main_v27
  let main_v29 : FVec F S2x2048 .f32 := Host.absf main_arg7
  let main_cst_10 : FVec F S_ .f32 := constant S_ .f32 0x7F800000#32
  let main_v30 : FVec F S2x2048 .f32 := broadcastInDim S2x2048 ![] bcast_S_S2x2048 main_cst_10
  let main_v31 : IVec S2x2048 1 := cmpf .olt main_v29 main_v30
  let main_c_11 : IVec S_ 1 := constantI S_ 1 1#1
  let main_v32 : IVec S_ 1 := (fun x v => Host.reduce IntOp.andi x v reducesTo_S2x2048_S_d0_1 h_S_) main_v31 main_c_11
  let main_v33 : IVec S_ 1 := andi main_v28 main_v32
  fn_part2 (F := F) main_arg8 main_arg9 main_arg10 main_v33

def fn {F : FTy → Type} [FloatOps F] (main_arg0 : FVec F S16x64x512 .f32) (main_arg1 : FVec F S2x16x512 .f32) (main_arg2 : FVec F S2x16x512 .f32) (main_arg3 : IVec S16x128 32) (main_arg4 : FVec F S32000x512 .f32) (main_arg5 : FVec F S2x2048x512 .f32) (main_arg6 : FVec F S2x2048x512 .f32) (main_arg7 : FVec F S2x2048 .f32) (main_arg8 : FVec F S2x2048 .f32) (main_arg9 : FVec F S32000x512 .f32) (main_arg10 : FVec F S32000 .f32) : IVec S_ 1 :=
  let main_v0 : FVec F S16x64x512 .f32 := Host.absf main_arg0
  let main_cst : FVec F S_ .f32 := constant S_ .f32 0x7F800000#32
  let main_v1 : FVec F S16x64x512 .f32 := broadcastInDim S16x64x512 ![] bcast_S_S16x64x512 main_cst
  let main_v2 : IVec S16x64x512 1 := cmpf .olt main_v0 main_v1
  let main_c : IVec S_ 1 := constantI S_ 1 1#1
  let main_v3 : IVec S_ 1 := (fun x v => Host.reduce IntOp.andi x v reducesTo_S16x64x512_S_d0_1_2 h_S_) main_v2 main_c
  let main_v4 : FVec F S2x16x512 .f32 := Host.absf main_arg1
  let main_cst_0 : FVec F S_ .f32 := constant S_ .f32 0x7F800000#32
  let main_v5 : FVec F S2x16x512 .f32 := broadcastInDim S2x16x512 ![] bcast_S_S2x16x512 main_cst_0
  let main_v6 : IVec S2x16x512 1 := cmpf .olt main_v4 main_v5
  let main_c_1 : IVec S_ 1 := constantI S_ 1 1#1
  let main_v7 : IVec S_ 1 := (fun x v => Host.reduce IntOp.andi x v reducesTo_S2x16x512_S_d0_1_2 h_S_) main_v6 main_c_1
  let main_v8 : IVec S_ 1 := andi main_v3 main_v7
  let main_v9 : FVec F S2x16x512 .f32 := Host.absf main_arg2
  let main_cst_2 : FVec F S_ .f32 := constant S_ .f32 0x7F800000#32
  let main_v10 : FVec F S2x16x512 .f32 := broadcastInDim S2x16x512 ![] bcast_S_S2x16x512 main_cst_2
  let main_v11 : IVec S2x16x512 1 := cmpf .olt main_v9 main_v10
  let main_c_3 : IVec S_ 1 := constantI S_ 1 1#1
  let main_v12 : IVec S_ 1 := (fun x v => Host.reduce IntOp.andi x v reducesTo_S2x16x512_S_d0_1_2 h_S_) main_v11 main_c_3
  let main_v13 : IVec S_ 1 := andi main_v8 main_v12
  let main_v14 : FVec F S32000x512 .f32 := Host.absf main_arg4
  let main_cst_4 : FVec F S_ .f32 := constant S_ .f32 0x7F800000#32
  let main_v15 : FVec F S32000x512 .f32 := broadcastInDim S32000x512 ![] bcast_S_S32000x512 main_cst_4
  let main_v16 : IVec S32000x512 1 := cmpf .olt main_v14 main_v15
  fn_part1 (F := F) main_arg5 main_arg6 main_arg7 main_arg8 main_arg9 main_arg10 main_v13 main_v16
-- ==== Kernel.lean ====
abbrev S16x64x512 : Shape := ⟨3, ![16, 64, 512]⟩
abbrev S2x16x512 : Shape := ⟨3, ![2, 16, 512]⟩
abbrev S16x128 : Shape := ⟨2, ![16, 128]⟩
abbrev S32000x512 : Shape := ⟨2, ![32000, 512]⟩
abbrev S2x2048x512 : Shape := ⟨3, ![2, 2048, 512]⟩
abbrev S2x2048 : Shape := ⟨2, ![2, 2048]⟩
abbrev S32000 : Shape := ⟨1, ![32000]⟩
abbrev S_ : Shape := ⟨0, ![]⟩
abbrev S16x1 : Shape := ⟨2, ![16, 1]⟩
abbrev S16x127 : Shape := ⟨2, ![16, 127]⟩
abbrev S16x128x1 : Shape := ⟨3, ![16, 128, 1]⟩
abbrev S16x128x512 : Shape := ⟨3, ![16, 128, 512]⟩
abbrev S2x16x2048 : Shape := ⟨3, ![2, 16, 2048]⟩
abbrev S2x1x2048 : Shape := ⟨3, ![2, 1, 2048]⟩
abbrev S1x2048x512 : Shape := ⟨3, ![1, 2048, 512]⟩
abbrev S2048x512 : Shape := ⟨2, ![2048, 512]⟩
abbrev S1x16x2048 : Shape := ⟨3, ![1, 16, 2048]⟩
abbrev S16x2048 : Shape := ⟨2, ![16, 2048]⟩
abbrev S16x1x2048 : Shape := ⟨3, ![16, 1, 2048]⟩
abbrev S1x16x512 : Shape := ⟨3, ![1, 16, 512]⟩
abbrev S16x512 : Shape := ⟨2, ![16, 512]⟩
abbrev S16x1x512 : Shape := ⟨3, ![16, 1, 512]⟩
abbrev S1x128x512 : Shape := ⟨3, ![1, 128, 512]⟩
abbrev S1x1x2048 : Shape := ⟨3, ![1, 1, 2048]⟩
abbrev S1x1x512 : Shape := ⟨3, ![1, 1, 512]⟩
abbrev S128x512 : Shape := ⟨2, ![128, 512]⟩
abbrev S1x2048 : Shape := ⟨2, ![1, 2048]⟩
abbrev S1x512 : Shape := ⟨2, ![1, 512]⟩
abbrev S128x2048 : Shape := ⟨2, ![128, 2048]⟩
abbrev S1x32000 : Shape := ⟨2, ![1, 32000]⟩
abbrev S2048x32000 : Shape := ⟨2, ![2048, 32000]⟩
abbrev S1280x512 : Shape := ⟨2, ![1280, 512]⟩
abbrev S1x1280 : Shape := ⟨2, ![1, 1280]⟩
abbrev S2048x1280 : Shape := ⟨2, ![2048, 1280]⟩
abbrev S16x128x32000 : Shape := ⟨3, ![16, 128, 32000]⟩

abbrev nBuf : Space → Nat
  | .hbm => 69
  | .vmem => 29
  | .smem => 0
  | _ => 0

abbrev bufTy : (tb : Table) → Fin (tcTables nBuf tb) → BufTy
  | .hbm, ⟨0, _⟩ => ⟨S16x64x512, .f32⟩
  | .hbm, ⟨1, _⟩ => ⟨S2x16x512, .f32⟩
  | .hbm, ⟨2, _⟩ => ⟨S2x16x512, .f32⟩
  | .hbm, ⟨3, _⟩ => ⟨S16x128, .i32⟩
  | .hbm, ⟨4, _⟩ => ⟨S32000x512, .f32⟩
  | .hbm, ⟨5, _⟩ => ⟨S2x2048x512, .f32⟩
  | .hbm, ⟨6, _⟩ => ⟨S2x2048x512, .f32⟩
  | .hbm, ⟨7, _⟩ => ⟨S2x2048, .f32⟩
  | .hbm, ⟨8, _⟩ => ⟨S2x2048, .f32⟩
  | .hbm, ⟨9, _⟩ => ⟨S32000x512, .f32⟩
  | .hbm, ⟨10, _⟩ => ⟨S32000, .f32⟩
  | .hbm, ⟨11, _⟩ => ⟨S_, .i32⟩
  | .hbm, ⟨12, _⟩ => ⟨S16x1, .i32⟩
  | .hbm, ⟨13, _⟩ => ⟨S16x127, .i32⟩
  | .hbm, ⟨14, _⟩ => ⟨S16x128, .i32⟩
  | .hbm, ⟨15, _⟩ => ⟨S_, .i32⟩
  | .hbm, ⟨16, _⟩ => ⟨S16x128, .i32⟩
  | .hbm, ⟨17, _⟩ => ⟨S16x128, .i1⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S16x128, .i32⟩
  | .hbm, ⟨22, _⟩ => ⟨S16x128x1, .i32⟩
  | .hbm, ⟨23, _⟩ => ⟨S16x128x512, .f32⟩
  | .hbm, ⟨24, _⟩ => ⟨S_, .f32⟩
  | .hbm, ⟨25, _⟩ => ⟨S16x128x512, .f32⟩
  | .hbm, ⟨26, _⟩ => ⟨S16x128x512, .f32⟩
  | .hbm, ⟨27, _⟩ => ⟨S2x16x2048, .f32⟩
  | .hbm, ⟨28, _⟩ => ⟨S2x1x2048, .f32⟩
  | .hbm, ⟨29, _⟩ => ⟨S2x16x2048, .f32⟩
  | .hbm, ⟨30, _⟩ => ⟨S2x16x2048, .f32⟩
  | .hbm, ⟨31, _⟩ => ⟨S2x1x2048, .f32⟩
  | .hbm, ⟨32, _⟩ => ⟨S2x16x2048, .f32⟩
  | .hbm, ⟨33, _⟩ => ⟨S2x16x2048, .f32⟩
  | .hbm, ⟨34, _⟩ => ⟨S1x2048x512, .f32⟩
  | .hbm, ⟨35, _⟩ => ⟨S2048x512, .f32⟩
  | .hbm, ⟨36, _⟩ => ⟨S1x2048x512, .f32⟩
  | .hbm, ⟨37, _⟩ => ⟨S2048x512, .f32⟩
  | .hbm, ⟨38, _⟩ => ⟨S1x16x2048, .f32⟩
  | .hbm, ⟨39, _⟩ => ⟨S16x2048, .f32⟩
  | .hbm, ⟨40, _⟩ => ⟨S16x1x2048, .f32⟩
  | .hbm, ⟨41, _⟩ => ⟨S1x16x2048, .f32⟩
  | .hbm, ⟨42, _⟩ => ⟨S16x2048, .f32⟩
  | .hbm, ⟨43, _⟩ => ⟨S16x1x2048, .f32⟩
  | .hbm, ⟨44, _⟩ => ⟨S1x16x512, .f32⟩
  | .hbm, ⟨45, _⟩ => ⟨S16x512, .f32⟩
  | .hbm, ⟨46, _⟩ => ⟨S16x1x512, .f32⟩
  | .hbm, ⟨47, _⟩ => ⟨S1x16x512, .f32⟩
  | .hbm, ⟨48, _⟩ => ⟨S16x512, .f32⟩
  | .hbm, ⟨49, _⟩ => ⟨S16x1x512, .f32⟩
  | .hbm, ⟨50, _⟩ => ⟨S16x128x512, .bf16⟩
  | .hbm, ⟨51, _⟩ => ⟨S16x1x512, .f32⟩
  | .hbm, ⟨52, _⟩ => ⟨S16x1x512, .f32⟩
  | .hbm, ⟨53, _⟩ => ⟨S16x1x512, .f32⟩
  | .hbm, ⟨54, _⟩ => ⟨S16x1x512, .f32⟩
  | .hbm, ⟨55, _⟩ => ⟨S2048x512, .bf16⟩
  | .hbm, ⟨56, _⟩ => ⟨S1x32000, .f32⟩
  | .hbm, ⟨57, _⟩ => ⟨S2048x32000, .f32⟩
  | .hbm, ⟨58, _⟩ => ⟨S16x128x32000, .f32⟩
  | .hbm, ⟨59, _⟩ => ⟨S16x512, .f32⟩
  | .hbm, ⟨60, _⟩ => ⟨S16x512, .f32⟩
  | .hbm, ⟨61, _⟩ => ⟨S1x16x512, .f32⟩
  | .hbm, ⟨62, _⟩ => ⟨S1x16x512, .f32⟩
  | .hbm, ⟨63, _⟩ => ⟨S2x16x512, .f32⟩
  | .hbm, ⟨64, _⟩ => ⟨S16x512, .f32⟩
  | .hbm, ⟨65, _⟩ => ⟨S16x512, .f32⟩
  | .hbm, ⟨66, _⟩ => ⟨S1x16x512, .f32⟩
  | .hbm, ⟨67, _⟩ => ⟨S1x16x512, .f32⟩
  | .hbm, ⟨68, _⟩ => ⟨S2x16x512, .f32⟩
  | .local _ .vmem, ⟨0, _⟩ => ⟨S1x128x512, .f32⟩
  | .local _ .vmem, ⟨1, _⟩ => ⟨S1x128x512, .f32⟩
  | .local _ .vmem, ⟨2, _⟩ => ⟨S2048x512, .f32⟩
  | .local _ .vmem, ⟨3, _⟩ => ⟨S2048x512, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x128x512, .bf16⟩
  | .local _ .vmem, ⟨13, _⟩ => ⟨S1x128x512, .bf16⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S2048x512, .bf16⟩
  | .local _ .vmem, ⟨23, _⟩ => ⟨S1280x512, .f32⟩
  | .local _ .vmem, ⟨24, _⟩ => ⟨S1280x512, .f32⟩
  | .local _ .vmem, ⟨25, _⟩ => ⟨S1x1280, .f32⟩
  | .local _ .vmem, ⟨26, _⟩ => ⟨S1x1280, .f32⟩
  | .local _ .vmem, ⟨27, _⟩ => ⟨S2048x1280, .f32⟩
  | .local _ .vmem, ⟨28, _⟩ => ⟨S2048x1280, .f32⟩
  | _, _ => ⟨S16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev main_v34_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc1_sem0_0 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1280x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S16x1 : S_.BroadcastsInDim S16x1 (![] : Fin 0 → Fin S16x1.rank)
  slices_S16x128_S16x127_0_0 : S16x128.Slices ![0, 0] S16x127
  concatenates_S16x1_S16x127_S16x128_d1 : Shape.Concatenates [S16x1, S16x127] S16x128 1
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  bcast_S_S16x128x512 : S_.BroadcastsInDim S16x128x512 (![] : Fin 0 → Fin S16x128x512.rank)
  bcast_S2x2048_S2x1x2048_0_2 : S2x2048.BroadcastsInDim S2x1x2048 (![0, 2] : Fin 2 → Fin S2x1x2048.rank)
  bcast_S2x1x2048_S2x16x2048_0_1_2 : S2x1x2048.BroadcastsInDim S2x16x2048 (![0, 1, 2] : Fin 3 → Fin S2x16x2048.rank)
  slices_S2x2048x512_S1x2048x512_0_0_0 : S2x2048x512.Slices ![0, 0, 0] S1x2048x512
  shapeCasts_S1x2048x512_S2048x512 : S1x2048x512.ShapeCasts S2048x512
  slices_S2x2048x512_S1x2048x512_1_0_0 : S2x2048x512.Slices ![1, 0, 0] S1x2048x512
  slices_S2x16x2048_S1x16x2048_0_0_0 : S2x16x2048.Slices ![0, 0, 0] S1x16x2048
  shapeCasts_S1x16x2048_S16x2048 : S1x16x2048.ShapeCasts S16x2048
  shapeCasts_S16x2048_S16x1x2048 : S16x2048.ShapeCasts S16x1x2048
  slices_S2x16x2048_S1x16x2048_1_0_0 : S2x16x2048.Slices ![1, 0, 0] S1x16x2048
  slices_S2x16x512_S1x16x512_0_0_0 : S2x16x512.Slices ![0, 0, 0] S1x16x512
  shapeCasts_S1x16x512_S16x512 : S1x16x512.ShapeCasts S16x512
  shapeCasts_S16x512_S16x1x512 : S16x512.ShapeCasts S16x1x512
  slices_S2x16x512_S1x16x512_1_0_0 : S2x16x512.Slices ![1, 0, 0] S1x16x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x2048_S128x2048 : S1x2048.Broadcasts S128x2048
  slices_S128x2048_o0_0_S128x512 : S128x2048.Slices ![0, 0] S128x512
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  broadcasts_S1x512_S128x512 : S1x512.Broadcasts S128x512
  bitsLt_bf16_f32 : FTy.bits .bf16 < FTy.bits .f32
  shapeCasts_S128x512_S1x128x512 : S128x512.ShapeCasts S1x128x512
  packedbf16_S1x128x512_S1x128x512_0_0_0 : (Rect.unit (s := S1x128x512) ![0, 0, 0] S1x128x512.size inb_S1x128x512_S1x128x512_0_0_0).PackedRows (EltTy.packing .bf16)
  slices_S128x512_o127_0_S1x512 : S128x512.Slices ![127, 0] S1x512
  shapeCasts_S1x512_S1x1x512 : S1x512.ShapeCasts S1x1x512
  shapeCasts_S16x128x512_S2048x512 : S16x128x512.ShapeCasts S2048x512
  shapeCasts_S32000_S1x32000 : S32000.ShapeCasts S1x32000
  inb_S1280x512_S1280x512_0_0 : ∀ a, (![0, 0] : Fin 2 → Nat) a + S1280x512.size a ≤ S1280x512.size a
  h_S1280x512 : 0 < S1280x512.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S2048x1280 : S1x1280.Broadcasts S2048x1280
  inb_S2048x1280_S2048x1280_0_0 : ∀ a, (![0, 0] : Fin 2 → Nat) a + S2048x1280.size a ≤ S2048x1280.size a
  h_S2048x1280 : 0 < S2048x1280.numel
  shapeCasts_S2048x32000_S16x128x32000 : S2048x32000.ShapeCasts S16x128x32000
  shapeCasts_S16x1x512_S16x512 : S16x1x512.ShapeCasts S16x512
  bcast_S16x512_S1x16x512_1_2 : S16x512.BroadcastsInDim S1x16x512 (![1, 2] : Fin 2 → Fin S1x16x512.rank)
  concatenates_S1x16x512_S1x16x512_S2x16x512_d0 : Shape.Concatenates [S1x16x512, S1x16x512] S2x16x512 0
  gather_S32000x512_S16x128x1_S16x128x512_2_0_n_n_0_2_1512_wf : GatherDims.WF S32000x512 S16x128x1 S16x128x512 [2] [0] [] [0] [] 2 ![1, 512]
  dot_S2x16x512_S2x2048x512_S2x16x2048_2_2_1_1_0_0_wf : DotDims.WF S2x16x512 S2x2048x512 S2x16x2048 [2] [2] [1] [1] [0] [0]
  dot_S128x512_S2048x512_S128x2048_1_1_0_0_n_n_wf : DotDims.WF S128x512 S2048x512 S128x2048 [1] [1] [0] [0] [] []
  dot_S2048x512_S1280x512_S2048x1280_1_1_0_0_n_n_wf : DotDims.WF S2048x512 S1280x512 S2048x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S16x128x512.size a
  hwx0_0 : ∀ i : grid0.Coords, EltTy.bits .f32 = 32 ∨ (Rect.block (s := S16x128x512) S1x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .f32 = 32 ∨ (Rect.block (s := S2048x512) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S16x1x2048.size a
  hwx0_4 : ∀ i : grid0.Coords, EltTy.bits .f32 = 32 ∨ (Rect.block (s := S16x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S16x1x512.size a
  hwx0_5 : ∀ i : grid0.Coords, EltTy.bits .f32 = 32 ∨ (Rect.block (s := S16x1x512) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S16x1x512.size a
  hwx0_6 : ∀ i : grid0.Coords, EltTy.bits .f32 = 32 ∨ (Rect.block (s := S16x1x512) S1x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x512.size a ≤ S16x128x512.size a
  hwx0_7 : ∀ i : grid0.Coords, EltTy.bits .bf16 = 32 ∨ (Rect.block (s := S16x128x512) S1x128x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S16x1x512.size a
  hwx0_8 : ∀ i : grid0.Coords, EltTy.bits .f32 = 32 ∨ (Rect.block (s := S16x1x512) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x512.size a ≤ S16x1x512.size a
  hwx0_9 : ∀ i : grid0.Coords, EltTy.bits .f32 = 32 ∨ (Rect.block (s := S16x1x512) S1x1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x512.size a ≤ S16x1x512.size a
  hwx0_10 : ∀ i : grid0.Coords, EltTy.bits .f32 = 32 ∨ (Rect.block (s := S16x1x512) S1x1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x512.size a ≤ S16x1x512.size a
  hwx0_11 : ∀ i : grid0.Coords, EltTy.bits .f32 = 32 ∨ (Rect.block (s := S16x1x512) S1x1x512.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S2048x512.size a
  hwx1_0 : ∀ i : grid1.Coords, EltTy.bits .bf16 = 32 ∨ (Rect.block (s := S2048x512) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S32000x512.size a
  hwx1_1 : ∀ i : grid1.Coords, EltTy.bits .f32 = 32 ∨ (Rect.block (s := S32000x512) S1280x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1280.size a ≤ S2048x32000.size a
  hwx1_3 : ∀ i : grid1.Coords, EltTy.bits .f32 = 32 ∨ (Rect.block (s := S2048x32000) S2048x1280.size (cc1_transform_3 i) (hinb1_3 i)).WholeWords (EltTy.packing .f32)

variable [Facts₀]

def gather_S32000x512_S16x128x1_S16x128x512_2_0_n_n_0_2_1512 : GatherDims S32000x512 S16x128x1 S16x128x512 where
  offsetDims := [2]
  collapsedSliceDims := [0]
  operandBatchingDims := []
  startIndicesBatchingDims := []
  startIndexMap := [0]
  indexVectorDim := 2
  sliceSizes := ![1, 512]
  wf := gather_S32000x512_S16x128x1_S16x128x512_2_0_n_n_0_2_1512_wf
def dot_S2x16x512_S2x2048x512_S2x16x2048_2_2_1_1_0_0 : DotDims S2x16x512 S2x2048x512 S2x16x2048 where
  lhsContracting := [2]
  rhsContracting := [2]
  lhsNonContracting := [1]
  rhsNonContracting := [1]
  lhsBatch := [0]
  rhsBatch := [0]
  wf := dot_S2x16x512_S2x2048x512_S2x16x2048_2_2_1_1_0_0_wf
def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S2048x512_S1280x512_S2048x1280_1_1_0_0_n_n : DotDims S2048x512 S1280x512 S2048x1280 where
  lhsContracting := [1]
  rhsContracting := [1]
  lhsNonContracting := [0]
  rhsNonContracting := [0]
  lhsBatch := []
  rhsBatch := []
  wf := dot_S2048x512_S1280x512_S2048x1280_1_1_0_0_n_n_wf

abbrev win0_0 : Pipeline.Window sig grid0 :=
  Pipeline.Window.ofSpec (Memref.whole main_v10) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v34_0) S1x128x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v34_1) S1x1x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v34_2) S1x1x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v34_3) S1x1x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v34_4) S1x1x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v35) S2048x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2048x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x512 : Shape := ⟨3, ![16, 64, 512]⟩
abbrev S2x16x512 : Shape := ⟨3, ![2, 16, 512]⟩
abbrev S16x128 : Shape := ⟨2, ![16, 128]⟩
abbrev S32000x512 : Shape := ⟨2, ![32000, 512]⟩
abbrev S2x2048x512 : Shape := ⟨3, ![2, 2048, 512]⟩
abbrev S2x2048 : Shape := ⟨2, ![2, 2048]⟩
abbrev S32000 : Shape := ⟨1, ![32000]⟩
abbrev S_ : Shape := ⟨0, ![]⟩
abbrev S16x1 : Shape := ⟨2, ![16, 1]⟩
abbrev S16x127 : Shape := ⟨2, ![16, 127]⟩
abbrev S16x128x1 : Shape := ⟨3, ![16, 128, 1]⟩
abbrev S16x128x512 : Shape := ⟨3, ![16, 128, 512]⟩
abbrev S1x16x512 : Shape := ⟨3, ![1, 16, 512]⟩
abbrev S16x512 : Shape := ⟨2, ![16, 512]⟩
abbrev S16x1x512 : Shape := ⟨3, ![16, 1, 512]⟩
abbrev S1x2048x512 : Shape := ⟨3, ![1, 2048, 512]⟩
abbrev S2048x512 : Shape := ⟨2, ![2048, 512]⟩
abbrev S16x128x2048 : Shape := ⟨3, ![16, 128, 2048]⟩
abbrev S1x2048 : Shape := ⟨2, ![1, 2048]⟩
abbrev S2048 : Shape := ⟨1, ![2048]⟩
abbrev S1x1x2048 : Shape := ⟨3, ![1, 1, 2048]⟩
abbrev S16x2048 : Shape := ⟨2, ![16, 2048]⟩
abbrev S16x1x2048 : Shape := ⟨3, ![16, 1, 2048]⟩
abbrev S16x128x32000 : Shape := ⟨3, ![16, 128, 32000]⟩
abbrev S1x1x32000 : Shape := ⟨3, ![1, 1, 32000]⟩

abbrev nBuf : Space → Nat
  | .hbm => 163
  | .vmem => 0
  | .smem => 0
  | _ => 0

abbrev hbmTy0_0 (i : Nat) : BufTy := match i % 128 with
  | 0 => ⟨S16x64x512, .f32⟩
  | 1 => ⟨S2x16x512, .f32⟩
  | 2 => ⟨S2x16x512, .f32⟩
  | 3 => ⟨S16x128, .i32⟩
  | 4 => ⟨S32000x512, .f32⟩
  | 5 => ⟨S2x2048x512, .f32⟩
  | 6 => ⟨S2x2048x512, .f32⟩
  | 7 => ⟨S2x2048, .f32⟩
  | 8 => ⟨S2x2048, .f32⟩
  | 9 => ⟨S32000x512, .f32⟩
  | 10 => ⟨S32000, .f32⟩
  | 11 => ⟨S_, .i32⟩
  | 12 => ⟨S16x1, .i32⟩
  | 13 => ⟨S16x127, .i32⟩
  | 14 => ⟨S16x128, .i32⟩
  | 15 => ⟨S_, .i32⟩
  | 16 => ⟨S16x128, .i32⟩
  | 17 => ⟨S16x128, .i1⟩
  | 18 => ⟨S_, .i32⟩
  | 19 => ⟨S16x128, .i32⟩
  | 20 => ⟨S16x128, .i32⟩
  | 21 => ⟨S16x128, .i32⟩
  | 22 => ⟨S16x128x1, .i32⟩
  | 23 => ⟨S16x128x512, .f32⟩
  | 24 => ⟨S_, .f32⟩
  | 25 => ⟨S16x128x512, .f32⟩
  | 26 => ⟨S16x128x512, .f32⟩
  | 27 => ⟨S1x16x512, .f32⟩
  | 28 => ⟨S16x512, .f32⟩
  | 29 => ⟨S1x16x512, .f32⟩
  | 30 => ⟨S16x512, .f32⟩
  | 31 => ⟨S16x1x512, .f32⟩
  | 32 => ⟨S1x2048x512, .f32⟩
  | 33 => ⟨S2048x512, .f32⟩
  | 34 => ⟨S16x128x2048, .f32⟩
  | 35 => ⟨S1x2048, .f32⟩
  | 36 => ⟨S2048, .f32⟩
  | 37 => ⟨S1x1x2048, .f32⟩
  | 38 => ⟨S16x128x2048, .f32⟩
  | 39 => ⟨S16x128x2048, .f32⟩
  | 40 => ⟨S1x2048x512, .f32⟩
  | 41 => ⟨S2048x512, .f32⟩
  | 42 => ⟨S16x2048, .f32⟩
  | 43 => ⟨S1x2048, .f32⟩
  | 44 => ⟨S2048, .f32⟩
  | 45 => ⟨S1x2048, .f32⟩
  | 46 => ⟨S16x2048, .f32⟩
  | 47 => ⟨S16x2048, .f32⟩
  | 48 => ⟨S16x1x2048, .f32⟩
  | 49 => ⟨S16x128x2048, .f32⟩
  | 50 => ⟨S16x128x2048, .f32⟩
  | 51 => ⟨S16x128x512, .f32⟩
  | 52 => ⟨S16x128x512, .f32⟩
  | 53 => ⟨S16x128x512, .f32⟩
  | 54 => ⟨S16x128x512, .f32⟩
  | 55 => ⟨S16x128x512, .f32⟩
  | 56 => ⟨S16x128x512, .f32⟩
  | 57 => ⟨S_, .f32⟩
  | 58 => ⟨S16x128x512, .f32⟩
  | 59 => ⟨S16x128x512, .f32⟩
  | 60 => ⟨S_, .f32⟩
  | 61 => ⟨S16x128x512, .f32⟩
  | 62 => ⟨S16x128x512, .f32⟩
  | 63 => ⟨S16x128x512, .f32⟩
  | 64 => ⟨S16x128x512, .f32⟩
  | 65 => ⟨S16x128x512, .f32⟩
  | 66 => ⟨S16x128x512, .f32⟩
  | 67 => ⟨S_, .f32⟩
  | 68 => ⟨S16x128x512, .f32⟩
  | 69 => ⟨S16x128x512, .f32⟩
  | 70 => ⟨S_, .f32⟩
  | 71 => ⟨S16x128x512, .f32⟩
  | 72 => ⟨S16x128x512, .f32⟩
  | 73 => ⟨S16x128x512, .f32⟩
  | 74 => ⟨S16x128x512, .f32⟩
  | 75 => ⟨S16x128x512, .f32⟩
  | 76 => ⟨S16x128x512, .f32⟩
  | 77 => ⟨S16x128x512, .f32⟩
  | 78 => ⟨S_, .f32⟩
  | 79 => ⟨S16x128x512, .f32⟩
  | 80 => ⟨S16x128x512, .f32⟩
  | 81 => ⟨S_, .f32⟩
  | 82 => ⟨S16x128x512, .f32⟩
  | 83 => ⟨S16x128x512, .f32⟩
  | 84 => ⟨S16x128x512, .f32⟩
  | 85 => ⟨S16x128x512, .f32⟩
  | 86 => ⟨S16x1x512, .f32⟩
  | 87 => ⟨S16x512, .f32⟩
  | 88 => ⟨S16x1x512, .f32⟩
  | 89 => ⟨S16x512, .f32⟩
  | 90 => ⟨S1x16x512, .f32⟩
  | 91 => ⟨S16x512, .f32⟩
  | 92 => ⟨S1x16x512, .f32⟩
  | 93 => ⟨S16x512, .f32⟩
  | 94 => ⟨S16x1x512, .f32⟩
  | 95 => ⟨S1x2048x512, .f32⟩
  | 96 => ⟨S2048x512, .f32⟩
  | 97 => ⟨S16x128x2048, .f32⟩
  | 98 => ⟨S1x2048, .f32⟩
  | 99 => ⟨S2048, .f32⟩
  | 100 => ⟨S1x1x2048, .f32⟩
  | 101 => ⟨S16x128x2048, .f32⟩
  | 102 => ⟨S16x128x2048, .f32⟩
  | 103 => ⟨S1x2048x512, .f32⟩
  | 104 => ⟨S2048x512, .f32⟩
  | 105 => ⟨S16x2048, .f32⟩
  | 106 => ⟨S1x2048, .f32⟩
  | 107 => ⟨S2048, .f32⟩
  | 108 => ⟨S1x2048, .f32⟩
  | 109 => ⟨S16x2048, .f32⟩
  | 110 => ⟨S16x2048, .f32⟩
  | 111 => ⟨S16x1x2048, .f32⟩
  | 112 => ⟨S16x128x2048, .f32⟩
  | 113 => ⟨S16x128x2048, .f32⟩
  | 114 => ⟨S16x128x512, .f32⟩
  | 115 => ⟨S16x128x512, .f32⟩
  | 116 => ⟨S16x128x512, .f32⟩
  | 117 => ⟨S16x128x512, .f32⟩
  | 118 => ⟨S16x128x512, .f32⟩
  | 119 => ⟨S16x128x512, .f32⟩
  | 120 => ⟨S_, .f32⟩
  | 121 => ⟨S16x128x512, .f32⟩
  | 122 => ⟨S16x128x512, .f32⟩
  | 123 => ⟨S_, .f32⟩
  | 124 => ⟨S16x128x512, .f32⟩
  | 125 => ⟨S16x128x512, .f32⟩
  | 126 => ⟨S16x128x512, .f32⟩
  | 127 => ⟨S16x128x512, .f32⟩
  | _ => ⟨S16x64x512, .f32⟩

abbrev hbmTy0_1 (i : Nat) : BufTy := match i % 128 with
  | 0 => ⟨S16x128x512, .f32⟩
  | 1 => ⟨S16x128x512, .f32⟩
  | 2 => ⟨S_, .f32⟩
  | 3 => ⟨S16x128x512, .f32⟩
  | 4 => ⟨S16x128x512, .f32⟩
  | 5 => ⟨S_, .f32⟩
  | 6 => ⟨S16x128x512, .f32⟩
  | 7 => ⟨S16x128x512, .f32⟩
  | 8 => ⟨S16x128x512, .f32⟩
  | 9 => ⟨S16x128x512, .f32⟩
  | 10 => ⟨S16x128x512, .f32⟩
  | 11 => ⟨S16x128x512, .f32⟩
  | 12 => ⟨S16x128x512, .f32⟩
  | 13 => ⟨S_, .f32⟩
  | 14 => ⟨S16x128x512, .f32⟩
  | 15 => ⟨S16x128x512, .f32⟩
  | 16 => ⟨S_, .f32⟩
  | 17 => ⟨S16x128x512, .f32⟩
  | 18 => ⟨S16x128x512, .f32⟩
  | 19 => ⟨S16x128x512, .f32⟩
  | 20 => ⟨S16x128x512, .f32⟩
  | 21 => ⟨S16x1x512, .f32⟩
  | 22 => ⟨S16x512, .f32⟩
  | 23 => ⟨S16x1x512, .f32⟩
  | 24 => ⟨S16x512, .f32⟩
  | 25 => ⟨S16x128x32000, .f32⟩
  | 26 => ⟨S1x1x32000, .f32⟩
  | 27 => ⟨S16x128x32000, .f32⟩
  | 28 => ⟨S16x128x32000, .f32⟩
  | 29 => ⟨S1x16x512, .f32⟩
  | 30 => ⟨S1x16x512, .f32⟩
  | 31 => ⟨S2x16x512, .f32⟩
  | 32 => ⟨S1x16x512, .f32⟩
  | 33 => ⟨S1x16x512, .f32⟩
  | 34 => ⟨S2x16x512, .f32⟩
  | _ => ⟨S16x64x512, .f32⟩

abbrev hbmTy (i : Nat) : BufTy := match i / 128 with
  | 0 => hbmTy0_0 i
  | 1 => hbmTy0_1 i
  | _ => ⟨S16x64x512, .f32⟩

abbrev bufTy : (tb : Table) → Fin (tcTables nBuf tb) → BufTy
  | .hbm, ⟨i, _⟩ => hbmTy i
  | _, _ => ⟨S16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_v41 : Ref sig .tc := ⟨.hbm, 58, rfl⟩
abbrev main_v42 : Ref sig .tc := ⟨.hbm, 59, rfl⟩
abbrev main_cst_2 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_5 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_7 : Ref sig .tc := ⟨.hbm, 120, rfl⟩
abbrev main_v98 : Ref sig .tc := ⟨.hbm, 121, rfl⟩
abbrev main_v99 : Ref sig .tc := ⟨.hbm, 122, rfl⟩
abbrev main_cst_8 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_9 : Ref sig .tc := ⟨.hbm, 130, rfl⟩
abbrev main_v106 : Ref sig .tc := ⟨.hbm, 131, rfl⟩
abbrev main_v107 : Ref sig .tc := ⟨.hbm, 132, rfl⟩
abbrev main_cst_10 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_11 : Ref sig .tc := ⟨.hbm, 141, rfl⟩
abbrev main_v115 : Ref sig .tc := ⟨.hbm, 142, rfl⟩
abbrev main_v116 : Ref sig .tc := ⟨.hbm, 143, rfl⟩
abbrev main_cst_12 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩

abbrev nD : Nat := 1
abbrev τ : Topo := Topo.v7x

variable {F : FTy → Type} [FloatOps F]

class Facts₀ : Prop where
  bcast_S_S16x1 : S_.BroadcastsInDim S16x1 (![] : Fin 0 → Fin S16x1.rank)
  slices_S16x128_S16x127_0_0 : S16x128.Slices ![0, 0] S16x127
  concatenates_S16x1_S16x127_S16x128_d1 : Shape.Concatenates [S16x1, S16x127] S16x128 1
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  bcast_S_S16x128x512 : S_.BroadcastsInDim S16x128x512 (![] : Fin 0 → Fin S16x128x512.rank)
  slices_S2x16x512_S1x16x512_0_0_0 : S2x16x512.Slices ![0, 0, 0] S1x16x512
  shapeCasts_S1x16x512_S16x512 : S1x16x512.ShapeCasts S16x512
  bcast_S16x512_S16x1x512_0_2 : S16x512.BroadcastsInDim S16x1x512 (![0, 2] : Fin 2 → Fin S16x1x512.rank)
  slices_S2x2048x512_S1x2048x512_0_0_0 : S2x2048x512.Slices ![0, 0, 0] S1x2048x512
  shapeCasts_S1x2048x512_S2048x512 : S1x2048x512.ShapeCasts S2048x512
  slices_S2x2048_S1x2048_0_0 : S2x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S16x128x2048_0_1_2 : S1x1x2048.BroadcastsInDim S16x128x2048 (![0, 1, 2] : Fin 3 → Fin S16x128x2048.rank)
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  bcast_S16x2048_S16x1x2048_0_2 : S16x2048.BroadcastsInDim S16x1x2048 (![0, 2] : Fin 2 → Fin S16x1x2048.rank)
  bcast_S16x1x2048_S16x128x2048_0_1_2 : S16x1x2048.BroadcastsInDim S16x128x2048 (![0, 1, 2] : Fin 3 → Fin S16x128x2048.rank)
  slices_S16x128x2048_S16x128x512_0_0_0 : S16x128x2048.Slices ![0, 0, 0] S16x128x512
  slices_S16x128x2048_S16x128x512_0_0_512 : S16x128x2048.Slices ![0, 0, 512] S16x128x512
  slices_S16x128x2048_S16x128x512_0_0_1024 : S16x128x2048.Slices ![0, 0, 1024] S16x128x512
  slices_S16x128x2048_S16x128x512_0_0_1536 : S16x128x2048.Slices ![0, 0, 1536] S16x128x512
  bcast_S16x1x512_S16x128x512_0_1_2 : S16x1x512.BroadcastsInDim S16x128x512 (![0, 1, 2] : Fin 3 → Fin S16x128x512.rank)
  slices_S16x128x512_S16x1x512_0_127_0 : S16x128x512.Slices ![0, 127, 0] S16x1x512
  shapeCasts_S16x1x512_S16x512 : S16x1x512.ShapeCasts S16x512
  slices_S2x16x512_S1x16x512_1_0_0 : S2x16x512.Slices ![1, 0, 0] S1x16x512
  slices_S2x2048x512_S1x2048x512_1_0_0 : S2x2048x512.Slices ![1, 0, 0] S1x2048x512
  slices_S2x2048_S1x2048_1_0 : S2x2048.Slices ![1, 0] S1x2048
  bcast_S32000_S1x1x32000_2 : S32000.BroadcastsInDim S1x1x32000 (![2] : Fin 1 → Fin S1x1x32000.rank)
  bcast_S1x1x32000_S16x128x32000_0_1_2 : S1x1x32000.BroadcastsInDim S16x128x32000 (![0, 1, 2] : Fin 3 → Fin S16x128x32000.rank)
  bcast_S16x512_S1x16x512_1_2 : S16x512.BroadcastsInDim S1x16x512 (![1, 2] : Fin 2 → Fin S1x16x512.rank)
  concatenates_S1x16x512_S1x16x512_S2x16x512_d0 : Shape.Concatenates [S1x16x512, S1x16x512] S2x16x512 0
  gather_S32000x512_S16x128x1_S16x128x512_2_0_n_n_0_2_1512_wf : GatherDims.WF S32000x512 S16x128x1 S16x128x512 [2] [0] [] [0] [] 2 ![1, 512]
  dot_S16x128x512_S2048x512_S16x128x2048_2_1_01_0_n_n_wf : DotDims.WF S16x128x512 S2048x512 S16x128x2048 [2] [1] [0, 1] [0] [] []
  dot_S16x512_S2048x512_S16x2048_1_1_0_0_n_n_wf : DotDims.WF S16x512 S2048x512 S16x2048 [1] [1] [0] [0] [] []
  dot_S16x128x512_S32000x512_S16x128x32000_2_1_01_0_n_n_wf : DotDims.WF S16x128x512 S32000x512 S16x128x32000 [2] [1] [0, 1] [0] [] []

variable [Facts₀]

def gather_S32000x512_S16x128x1_S16x128x512_2_0_n_n_0_2_1512 : GatherDims S32000x512 S16x128x1 S16x128x512 where
  offsetDims := [2]
  collapsedSliceDims := [0]
  operandBatchingDims := []
  startIndicesBatchingDims := []
  startIndexMap := [0]
  indexVectorDim := 2
  sliceSizes := ![1, 512]
  wf := gather_S32000x512_S16x128x1_S16x128x512_2_0_n_n_0_2_1512_wf
def dot_S16x128x512_S2048x512_S16x128x2048_2_1_01_0_n_n : DotDims S16x128x512 S2048x512 S16x128x2048 where
  lhsContracting := [2]
  rhsContracting := [1]
  lhsNonContracting := [0, 1]
  rhsNonContracting := [0]
  lhsBatch := []
  rhsBatch := []
  wf := dot_S16x128x512_S2048x512_S16x128x2048_2_1_01_0_n_n_wf
def dot_S16x512_S2048x512_S16x2048_1_1_0_0_n_n : DotDims S16x512 S2048x512 S16x2048 where
  lhsContracting := [1]
  rhsContracting := [1]
  lhsNonContracting := [0]
  rhsNonContracting := [0]
  lhsBatch := []
  rhsBatch := []
  wf := dot_S16x512_S2048x512_S16x2048_1_1_0_0_n_n_wf
def dot_S16x128x512_S32000x512_S16x128x32000_2_1_01_0_n_n : DotDims S16x128x512 S32000x512 S16x128x32000 where
  lhsContracting := [2]
  rhsContracting := [1]
  lhsNonContracting := [0, 1]
  rhsNonContracting := [0]
  lhsBatch := []
  rhsBatch := []
  wf := dot_S16x128x512_S32000x512_S16x128x32000_2_1_01_0_n_n_wf

class Facts : Prop extends Facts₀ where

variable [Facts]
-- ==== Proof.GlueRun.lean ====
/-
  The value run of the kernel program: every weakly fair execution of the program on the TensorCores terminates
  and, in every final state, the three result buffers hold the last boundary's contents of the fold through the
  program, and the argument arrays are as launched.
-/
import proofs.«123488_j77790447665279_2_alg».proof.Proof.Gen.KernelIdeal.Frame

set_option maxRecDepth 16384

noncomputable section

namespace Cert.KernelIdeal.Glue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the results kept: the final state has each result buffer at the last boundary's contents and
    each argument array as launched. -/
theorem run_values : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_v43) = W7 m ρ c (Proc.devRef .tc main_v43)
      ∧ r.2.mem ((c.tc : Thread nD τ).loc main_v48) = W7 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       h c _ (mem_uc main_v43 (by decide)),
       h c _ (mem_uc main_v48 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Glue

end
-- ==== Proof.Spec.lean ====
/-
  A two-layer LSTM decoder step bank followed by a vocabulary projection, written once on the extended reals.

  For one batch element the input is a matrix of 128 rows (time steps) by 512 columns.  A layer forms, for every
  row t and every gate column g (2048 of them, four groups of 512: input, forget, cell, output),

      gate t g = (sum over h of xin t h * W g h) + bias g,

  then the new cell state and the new hidden state, column j of 512,

      cell t j = sigma (gate t (512 + j)) * cprev j + sigma (gate t j) * tanh (gate t (1024 + j))
      hid  t j = sigma (gate t (1536 + j)) * tanh (cell t j).

  The previous state is the same for every row, so the rows are independent.  The bias of a layer l for batch
  element b collects the recurrent product and both bias vectors,

      bias g = ((sum over h of eh l b h * Whh l g h) + bih l g) + bhh l g.

  Layer 1 reads layer 0's hidden rows.  The logits are hid1 times the output matrix plus the output bias; the
  returned states are row 127 of each layer.

  The only algebra between the two programs compared is the grouping of three summands of a gate:
  a + ((p + u) + v) = (a + u) + (p + v), which holds in any commutative additive monoid, so at the infinities too.
  The logistic function is 1 / (1 + exp (-x)) by definition here, whichever way a program spells it.
-/
import Idealize.ShloMosaic.PureOps.Ideal
import Idealize.ShloMosaic.Lib.ValueIdx

noncomputable section

namespace Cert.Lstm

open Idealize.ShloMosaic Idealize.ShloMosaic.ValueIdx

/-- Gate column j of group 0 (input gate). -/
def col0 (j : Fin 512) : Fin 2048 := ⟨j.val, by omega⟩
/-- Gate column j of group 1 (forget gate). -/
def col1 (j : Fin 512) : Fin 2048 := ⟨j.val + 512, by omega⟩
/-- Gate column j of group 2 (cell candidate). -/
def col2 (j : Fin 512) : Fin 2048 := ⟨j.val + 1024, by omega⟩
/-- Gate column j of group 3 (output gate). -/
def col3 (j : Fin 512) : Fin 2048 := ⟨j.val + 1536, by omega⟩

/-- The last time step. -/
def tLast : Fin 128 := ⟨127, by omega⟩

/-- A layer's gate pre-activations for one batch element. -/
def gate (xin : Fin 128 → Fin 512 → EReal) (W : Fin 2048 → Fin 512 → EReal) (bias : Fin 2048 → EReal)
    (t : Fin 128) (g : Fin 2048) : EReal :=
  (∑ h : Fin 512, xin t h * W g h) + bias g

/-- The new cell state from the gates and the previous cell state. -/
def cell (gt : Fin 128 → Fin 2048 → EReal) (cp : Fin 512 → EReal) (t : Fin 128) (j : Fin 512) : EReal :=
  Ideal.logistic (gt t (col1 j)) * cp j + Ideal.logistic (gt t (col0 j)) * Ideal.tanh (gt t (col2 j))

/-- The new hidden state. -/
def hid (gt : Fin 128 → Fin 2048 → EReal) (cp : Fin 512 → EReal) (t : Fin 128) (j : Fin 512) : EReal :=
  Ideal.logistic (gt t (col3 j)) * Ideal.tanh (cell gt cp t j)

/-- One projected row entry: a row of 512 against row v of a matrix, plus a bias entry. -/
def proj (xin : Fin 512 → EReal) (W : Fin 512 → EReal) (b : EReal) : EReal :=
  (∑ h : Fin 512, xin h * W h) + b

abbrev A3 (a b c : Nat) := (⟨3, ![a, b, c]⟩ : Shape).Idx → EReal
abbrev A2 (a b : Nat) := (⟨2, ![a, b]⟩ : Shape).Idx → EReal
abbrev A1 (a : Nat) := (⟨1, ![a]⟩ : Shape).Idx → EReal

/-- The weights and states of the decoder: recurrent state eh / ec, input and recurrent matrices, the two bias
    vectors, per layer. -/
structure Params where
  eh : A3 2 16 512
  ec : A3 2 16 512
  Wih : A3 2 2048 512
  Whh : A3 2 2048 512
  bih : A2 2 2048
  bhh : A2 2 2048

/-- The combined bias of layer l for batch element b. -/
def cbias (P : Params) (l : Fin 2) (b : Fin 16) (g : Fin 2048) : EReal :=
  ((∑ h : Fin 512, P.eh (ix3 l b h) * P.Whh (ix3 l g h)) + P.bih (ix2 l g)) + P.bhh (ix2 l g)

def wih (P : Params) (l : Fin 2) (g : Fin 2048) (h : Fin 512) : EReal := P.Wih (ix3 l g h)
def cprev (P : Params) (l : Fin 2) (b : Fin 16) (j : Fin 512) : EReal := P.ec (ix3 l b j)

/-- Layer 0's gates for batch element b, from the embedded inputs x. -/
def g0 (P : Params) (x : A3 16 128 512) (b : Fin 16) : Fin 128 → Fin 2048 → EReal :=
  gate (fun t h => x (ix3 b t h)) (wih P 0) (cbias P 0 b)
def c0 (P : Params) (x : A3 16 128 512) (b : Fin 16) : Fin 128 → Fin 512 → EReal := cell (g0 P x b) (cprev P 0 b)
def h0 (P : Params) (x : A3 16 128 512) (b : Fin 16) : Fin 128 → Fin 512 → EReal := hid (g0 P x b) (cprev P 0 b)
/-- Layer 1's gates: its input rows are layer 0's hidden rows. -/
def g1 (P : Params) (x : A3 16 128 512) (b : Fin 16) : Fin 128 → Fin 2048 → EReal :=
  gate (h0 P x b) (wih P 1) (cbias P 1 b)
def c1 (P : Params) (x : A3 16 128 512) (b : Fin 16) : Fin 128 → Fin 512 → EReal := cell (g1 P x b) (cprev P 1 b)
def h1 (P : Params) (x : A3 16 128 512) (b : Fin 16) : Fin 128 → Fin 512 → EReal := hid (g1 P x b) (cprev P 1 b)

/-- The logits. -/
def logits (P : Params) (x : A3 16 128 512) (Wout : A2 32000 512) (bout : A1 32000) : A3 16 128 32000 :=
  fun i => proj (h1 P x (i 0) (i 1)) (fun h => Wout (ix2 (i 2) h)) (bout (ix1 (i 2)))

/-- The hidden states after the last step, layer by layer. -/
def hLast (P : Params) (x : A3 16 128 512) : A3 2 16 512 :=
  fun i => if (i 0).val = 0 then h0 P x (i 1) tLast (i 2) else h1 P x (i 1) tLast (i 2)

/-- The cell states after the last step, layer by layer. -/
def cLast (P : Params) (x : A3 16 128 512) : A3 2 16 512 :=
  fun i => if (i 0).val = 0 then c0 P x (i 1) tLast (i 2) else c1 P x (i 1) tLast (i 2)

/-- Regrouping the three summands of a gate. -/
theorem regroup (a p u v : EReal) : (a + u) + (p + v) = a + ((p + u) + v) := by
  ac_rfl

/-- The word of 1.0 denotes one. -/
theorem one_word : Ideal.ofBits .f32 0x3F800000#32 = 1 := by
  simp [Ideal.ofBits, Ideal.ieee, -EReal.coe_mul]; norm_num

/-- The word of +0.0 denotes zero. -/
theorem zero_word : Ideal.ofBits .f32 0x00000000#32 = 0 := by
  simp [Ideal.ofBits, Ideal.ieee]

/-- The logistic function spelt with a negation, an exponential, a sum and a quotient. -/
theorem logistic_spelt (x : EReal) :
    Ideal.div (Ideal.ofBits .f32 0x3F800000#32) (Ideal.ofBits .f32 0x3F800000#32 + Ideal.exp (-x)) = Ideal.logistic x := by
  rw [one_word]; rfl

end Cert.Lstm

end
-- ==== Proof.GlueIn.lean ====
/-
  The fused region's seven input arrays as it finds them, read at an index: the two input matrices, the two
  combined biases (the recurrent product plus both bias vectors, computed on the host), the two previous cell states,
  and the embedded inputs.
-/
import proofs.«123488_j77790447665279_2_alg».proof.Proof.Gen.KernelIdeal.Frame
import Idealize.ShloMosaic.Lib.ValueIdx
import Idealize.ShloMosaic.Lib.Pipeline.Value
import proofs.«123488_j77790447665279_2_alg».proof.Proof.Spec
import Idealize.ShloMosaic.PureOps.Ideal.Laws
set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ) (ρ : Dev nD → PrngReg) (c : Dev nD)

/-- The decoder's weights and states: the launched argument arrays. -/
def params : Cert.Lstm.Params where
  eh := m ((c : Thread nD τ).loc main_arg1)
  ec := m ((c : Thread nD τ).loc main_arg2)
  Wih := m ((c : Thread nD τ).loc main_arg5)
  Whh := m ((c : Thread nD τ).loc main_arg6)
  bih := m ((c : Thread nD τ).loc main_arg7)
  bhh := m ((c : Thread nD τ).loc main_arg8)

/-! No host operation before the last stretch writes an argument array. -/

theorem W2_main_arg1 : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg2 : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_main_arg5 : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_main_arg6 : W2 m ρ c (Proc.devRef .tc main_arg6) = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_main_arg7 : W2 m ρ c (Proc.devRef .tc main_arg7) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_main_arg8 : W2 m ρ c (Proc.devRef .tc main_arg8) = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Layer 0's input matrix as the fused region finds it: a slice of the launched matrices along the layer axis,
    the unit axis dropped. -/
theorem V3_v19 (g : Fin 2048) (h : Fin 512) :
    (V3 m ρ c main_v19 : S2048x512.Idx → EReal) (ix2 g h) = Cert.Lstm.wih (params m c) 0 g h := by
  have e : (V3 m ρ c main_v19 : S2048x512.Idx → EReal)
      = shapeCast S2048x512 (extractStridedSlice S1x2048x512 ![0, 0, 0]
          (W2 m ρ c (Proc.devRef .tc main_arg5) : S2x2048x512.Idx → EReal) slices_S2x2048x512_S1x2048x512_0_0_0) shapeCasts_S1x2048x512_S2048x512 := by
    show StableHlo.after hostOps0_2 (W2 m ρ c) (Proc.devRef .tc main_v19) = _
    generalize W2 m ρ c = X
    dsimp only [hostOps0_2]
    after_results
    rfl
  rw [e, W2_main_arg5]
  refine (shapeCast_apply _ _ (ix2 g h) (ix3 (0 : Fin 1) g h) ?_).trans ?_
  · rw [Shape.rowMajor_val_three, Shape.rowMajor_val_two]
    show (0 * 2048 + g.val) * 512 + h.val = g.val * 512 + h.val
    omega
  · exact extractStridedSlice_apply ![0, 0, 0] _ slices_S2x2048x512_S1x2048x512_0_0_0 (ix3 (0 : Fin 1) g h) (ix3 (0 : Fin 2) g h)
      (fun a => match a with
        | ⟨0, _⟩ => rfl
        | ⟨1, _⟩ => by show g.val = 0 + g.val; omega
        | ⟨2, _⟩ => by show h.val = 0 + h.val; omega)

/-- Layer 1's input matrix as the fused region finds it: a slice of the launched matrices along the layer axis,
    the unit axis dropped. -/
theorem V3_v21 (g : Fin 2048) (h : Fin 512) :
    (V3 m ρ c main_v21 : S2048x512.Idx → EReal) (ix2 g h) = Cert.Lstm.wih (params m c) 1 g h := by
  have e : (V3 m ρ c main_v21 : S2048x512.Idx → EReal)
      = shapeCast S2048x512 (extractStridedSlice S1x2048x512 ![1, 0, 0]
          (W2 m ρ c (Proc.devRef .tc main_arg5) : S2x2048x512.Idx → EReal) slices_S2x2048x512_S1x2048x512_1_0_0) shapeCasts_S1x2048x512_S2048x512 := by
    show StableHlo.after hostOps0_2 (W2 m ρ c) (Proc.devRef .tc main_v21) = _
    generalize W2 m ρ c = X
    dsimp only [hostOps0_2]
    after_results
    rfl
  rw [e, W2_main_arg5]
  refine (shapeCast_apply _ _ (ix2 g h) (ix3 (0 : Fin 1) g h) ?_).trans ?_
  · rw [Shape.rowMajor_val_three, Shape.rowMajor_val_two]
    show (0 * 2048 + g.val) * 512 + h.val = g.val * 512 + h.val
    omega
  · exact extractStridedSlice_apply ![1, 0, 0] _ slices_S2x2048x512_S1x2048x512_1_0_0 (ix3 (0 : Fin 1) g h) (ix3 (1 : Fin 2) g h)
      (fun a => match a with
        | ⟨0, _⟩ => rfl
        | ⟨1, _⟩ => by show g.val = 0 + g.val; omega
        | ⟨2, _⟩ => by show h.val = 0 + h.val; omega)

/-- Layer 0's previous cell state as the fused region finds it: a slice of the launched states along the layer
    axis, reshaped to [16,1,512]. -/
theorem V3_v30 (b : Fin 16) (j : Fin 512) :
    (V3 m ρ c main_v30 : S16x1x512.Idx → EReal) (ix3 b (0 : Fin 1) j) = Cert.Lstm.cprev (params m c) 0 b j := by
  have e : (V3 m ρ c main_v30 : S16x1x512.Idx → EReal)
      = shapeCast S16x1x512 (shapeCast S16x512 (extractStridedSlice S1x16x512 ![0, 0, 0]
          (W2 m ρ c (Proc.devRef .tc main_arg2) : S2x16x512.Idx → EReal) slices_S2x16x512_S1x16x512_0_0_0) shapeCasts_S1x16x512_S16x512)
          shapeCasts_S16x512_S16x1x512 := by
    show StableHlo.after hostOps0_2 (W2 m ρ c) (Proc.devRef .tc main_v30) = _
    generalize W2 m ρ c = X
    dsimp only [hostOps0_2]
    after_results
    rfl
  rw [e, W2_main_arg2]
  refine (shapeCast_apply _ _ (ix3 b (0 : Fin 1) j) (ix2 b j) ?_).trans ?_
  · rw [Shape.rowMajor_val_three, Shape.rowMajor_val_two]
    show b.val * 512 + j.val = (b.val * 1 + 0) * 512 + j.val
    omega
  refine (shapeCast_apply _ _ (ix2 b j) (ix3 (0 : Fin 1) b j) ?_).trans ?_
  · rw [Shape.rowMajor_val_three, Shape.rowMajor_val_two]
    show (0 * 16 + b.val) * 512 + j.val = b.val * 512 + j.val
    omega
  · exact extractStridedSlice_apply ![0, 0, 0] _ slices_S2x16x512_S1x16x512_0_0_0 (ix3 (0 : Fin 1) b j) (ix3 (0 : Fin 2) b j)
      (fun a => match a with
        | ⟨0, _⟩ => rfl
        | ⟨1, _⟩ => by show b.val = 0 + b.val; omega
        | ⟨2, _⟩ => by show j.val = 0 + j.val; omega)

/-- Layer 1's previous cell state as the fused region finds it: a slice of the launched states along the layer
    axis, reshaped to [16,1,512]. -/
theorem V3_v33 (b : Fin 16) (j : Fin 512) :
    (V3 m ρ c main_v33 : S16x1x512.Idx → EReal) (ix3 b (0 : Fin 1) j) = Cert.Lstm.cprev (params m c) 1 b j := by
  have e : (V3 m ρ c main_v33 : S16x1x512.Idx → EReal)
      = shapeCast S16x1x512 (shapeCast S16x512 (extractStridedSlice S1x16x512 ![1, 0, 0]
          (W2 m ρ c (Proc.devRef .tc main_arg2) : S2x16x512.Idx → EReal) slices_S2x16x512_S1x16x512_1_0_0) shapeCasts_S1x16x512_S16x512)
          shapeCasts_S16x512_S16x1x512 := by
    show StableHlo.after hostOps0_2 (W2 m ρ c) (Proc.devRef .tc main_v33) = _
    generalize W2 m ρ c = X
    dsimp only [hostOps0_2]
    after_results
    rfl
  rw [e, W2_main_arg2]
  refine (shapeCast_apply _ _ (ix3 b (0 : Fin 1) j) (ix2 b j) ?_).trans ?_
  · rw [Shape.rowMajor_val_three, Shape.rowMajor_val_two]
    show b.val * 512 + j.val = (b.val * 1 + 0) * 512 + j.val
    omega
  refine (shapeCast_apply _ _ (ix2 b j) (ix3 (0 : Fin 1) b j) ?_).trans ?_
  · rw [Shape.rowMajor_val_three, Shape.rowMajor_val_two]
    show (0 * 16 + b.val) * 512 + j.val = b.val * 512 + j.val
    omega
  · exact extractStridedSlice_apply ![1, 0, 0] _ slices_S2x16x512_S1x16x512_1_0_0 (ix3 (0 : Fin 1) b j) (ix3 (1 : Fin 2) b j)
      (fun a => match a with
        | ⟨0, _⟩ => rfl
        | ⟨1, _⟩ => by show b.val = 0 + b.val; omega
        | ⟨2, _⟩ => by show j.val = 0 + j.val; omega)

/-! ## The combined biases

The host forms, for both layers at once, the recurrent product (a batched contraction over the hidden axis, the
layer axis the batch axis) and adds the two bias vectors broadcast over the batch. -/

/-- A bias vector [2,2048] broadcast to [2,1,2048] and then to [2,16,2048], read at an index. -/
theorem bias_bcast_apply (x : S2x2048.Idx → EReal) (l : Fin 2) (b : Fin 16) (g : Fin 2048) :
    broadcastInDim S2x16x2048 ![0, 1, 2] bcast_S2x1x2048_S2x16x2048_0_1_2
        (broadcastInDim S2x1x2048 ![0, 2] bcast_S2x2048_S2x1x2048_0_2 x) (ix3 l b g) = x (ix2 l g) := by
  refine (broadcastInDim_apply ![0, 1, 2] bcast_S2x1x2048_S2x16x2048_0_1_2 _ (ix3 l b g) (ix3 l (0 : Fin 1) g)
    (fun a => match a with
      | ⟨0, _⟩ => rfl
      | ⟨1, _⟩ => rfl
      | ⟨2, _⟩ => rfl)).trans ?_
  exact broadcastInDim_apply ![0, 2] bcast_S2x2048_S2x1x2048_0_2 x (ix3 l (0 : Fin 1) g) (ix2 l g)
    (fun a => match a with
      | ⟨0, _⟩ => rfl
      | ⟨1, _⟩ => rfl)

theorem rec_lhs_0 (i : S2x16x2048.Idx) (q : dot_S2x16x512_S2x2048x512_S2x16x2048_2_2_1_1_0_0.contr.Idx) : (dot_S2x16x512_S2x2048x512_S2x16x2048_2_2_1_1_0_0.lhsIdx i q 0).val = (i 0).val := by
  unfold DotDims.lhsIdx
  rw [dif_pos (show (0 : Fin S2x16x512.rank) ∈ dot_S2x16x512_S2x2048x512_S2x16x2048_2_2_1_1_0_0.lhsBatch by decide)]
  rfl
theorem rec_lhs_1 (i : S2x16x2048.Idx) (q : dot_S2x16x512_S2x2048x512_S2x16x2048_2_2_1_1_0_0.contr.Idx) : (dot_S2x16x512_S2x2048x512_S2x16x2048_2_2_1_1_0_0.lhsIdx i q 1).val = (i 1).val := by
  unfold DotDims.lhsIdx
  rw [dif_neg (show ¬(1 : Fin S2x16x512.rank) ∈ dot_S2x16x512_S2x2048x512_S2x16x2048_2_2_1_1_0_0.lhsBatch by decide),
    dif_pos (show (1 : Fin S2x16x512.rank) ∈ dot_S2x16x512_S2x2048x512_S2x16x2048_2_2_1_1_0_0.lhsNonContracting by decide)]
  rfl
theorem rec_lhs_2 (i : S2x16x2048.Idx) (q : dot_S2x16x512_S2x2048x512_S2x16x2048_2_2_1_1_0_0.contr.Idx) : (dot_S2x16x512_S2x2048x512_S2x16x2048_2_2_1_1_0_0.lhsIdx i q 2).val = (q ⟨0, by decide⟩).val :=
  dot_S2x16x512_S2x2048x512_S2x16x2048_2_2_1_1_0_0.lhsIdx_val_of_single rfl i q
theorem rec_rhs_0 (i : S2x16x2048.Idx) (q : dot_S2x16x512_S2x2048x512_S2x16x2048_2_2_1_1_0_0.contr.Idx) : (dot_S2x16x512_S2x2048x512_S2x16x2048_2_2_1_1_0_0.rhsIdx i q 0).val = (i 0).val := by
  unfold DotDims.rhsIdx
  rw [dif_pos (show (0 : Fin S2x2048x512.rank) ∈ dot_S2x16x512_S2x2048x512_S2x16x2048_2_2_1_1_0_0.rhsBatch by decide)]
  rfl
theorem rec_rhs_1 (i : S2x16x2048.Idx) (q : dot_S2x16x512_S2x2048x512_S2x16x2048_2_2_1_1_0_0.contr.Idx) : (dot_S2x16x512_S2x2048x512_S2x16x2048_2_2_1_1_0_0.rhsIdx i q 1).val = (i 2).val := by
  unfold DotDims.rhsIdx
  rw [dif_neg (show ¬(1 : Fin S2x2048x512.rank) ∈ dot_S2x16x512_S2x2048x512_S2x16x2048_2_2_1_1_0_0.rhsBatch by decide),
    dif_pos (show (1 : Fin S2x2048x512.rank) ∈ dot_S2x16x512_S2x2048x512_S2x16x2048_2_2_1_1_0_0.rhsNonContracting by decide)]
  rfl
theorem rec_rhs_2 (i : S2x16x2048.Idx) (q : dot_S2x16x512_S2x2048x512_S2x16x2048_2_2_1_1_0_0.contr.Idx) : (dot_S2x16x512_S2x2048x512_S2x16x2048_2_2_1_1_0_0.rhsIdx i q 2).val = (q ⟨0, by decide⟩).val :=
  dot_S2x16x512_S2x2048x512_S2x16x2048_2_2_1_1_0_0.rhsIdx_val_of_single rfl i q

/-- The recurrent product read at an index: the sum over the hidden axis, within one layer. -/
theorem rec_apply (x1 : (⟨S2x16x512, .f32⟩ : BufTy).Contents (Elt Ideal)) (x6 : (⟨S2x2048x512, .f32⟩ : BufTy).Contents (Elt Ideal))
    (l : Fin 2) (b : Fin 16) (g : Fin 2048) :
    Host.dotGeneral (F := Ideal) (φ₁ := .f32) (φ₂ := .f32) dot_S2x16x512_S2x2048x512_S2x16x2048_2_2_1_1_0_0 none x1 x6 (ix3 l b g) = ∑ h : Fin 512, x1 (ix3 l b h) * x6 (ix3 l g h) := by
  simp only [Host.dotGeneral]
  rw [Ideal.dotGeneral_apply, ← Equiv.sum_comp (ValueIdx.contrEquiv1 dot_S2x16x512_S2x2048x512_S2x16x2048_2_2_1_1_0_0 512 rfl rfl).symm]
  refine Finset.sum_congr rfl fun k _ => ?_
  have hk := ValueIdx.contrEquiv1_symm_val dot_S2x16x512_S2x2048x512_S2x16x2048_2_2_1_1_0_0 512 rfl rfl k
  have el : dot_S2x16x512_S2x2048x512_S2x16x2048_2_2_1_1_0_0.lhsIdx (ix3 l b g) ((ValueIdx.contrEquiv1 dot_S2x16x512_S2x2048x512_S2x16x2048_2_2_1_1_0_0 512 rfl rfl).symm k) = ix3 l b k := funext fun a => Fin.ext (by
    match a with
    | ⟨0, _⟩ => exact rec_lhs_0 _ _
    | ⟨1, _⟩ => exact rec_lhs_1 _ _
    | ⟨2, _⟩ => exact (rec_lhs_2 _ _).trans hk)
  have er : dot_S2x16x512_S2x2048x512_S2x16x2048_2_2_1_1_0_0.rhsIdx (ix3 l b g) ((ValueIdx.contrEquiv1 dot_S2x16x512_S2x2048x512_S2x16x2048_2_2_1_1_0_0 512 rfl rfl).symm k) = ix3 l g k := funext fun a => Fin.ext (by
    match a with
    | ⟨0, _⟩ => exact rec_rhs_0 _ _
    | ⟨1, _⟩ => exact rec_rhs_1 _ _
    | ⟨2, _⟩ => exact (rec_rhs_2 _ _).trans hk)
  rw [el, er]

/-- The recurrent product plus both bias vectors, for both layers. -/
def biasAll (x1 : (⟨S2x16x512, .f32⟩ : BufTy).Contents (Elt Ideal)) (x6 : (⟨S2x2048x512, .f32⟩ : BufTy).Contents (Elt Ideal))
    (x7 x8 : (⟨S2x2048, .f32⟩ : BufTy).Contents (Elt Ideal)) : (⟨S2x16x2048, .f32⟩ : BufTy).Contents (Elt Ideal) :=
  addf (F := Ideal)
    (addf (F := Ideal) (Host.dotGeneral (F := Ideal) (φ₁ := .f32) (φ₂ := .f32) dot_S2x16x512_S2x2048x512_S2x16x2048_2_2_1_1_0_0 none x1 x6)
      (broadcastInDim S2x16x2048 ![0, 1, 2] bcast_S2x1x2048_S2x16x2048_0_1_2
        (broadcastInDim S2x1x2048 ![0, 2] bcast_S2x2048_S2x1x2048_0_2 x7)))
    (broadcastInDim S2x16x2048 ![0, 1, 2] bcast_S2x1x2048_S2x16x2048_0_1_2
      (broadcastInDim S2x1x2048 ![0, 2] bcast_S2x2048_S2x1x2048_0_2 x8))

theorem biasAll_apply (x1 : (⟨S2x16x512, .f32⟩ : BufTy).Contents (Elt Ideal)) (x6 : (⟨S2x2048x512, .f32⟩ : BufTy).Contents (Elt Ideal))
    (x7 x8 : (⟨S2x2048, .f32⟩ : BufTy).Contents (Elt Ideal)) (l : Fin 2) (b : Fin 16) (g : Fin 2048) :
    biasAll x1 x6 x7 x8 (ix3 l b g)
      = ((∑ h : Fin 512, x1 (ix3 l b h) * x6 (ix3 l g h)) + x7 (ix2 l g)) + x8 (ix2 l g) := by
  unfold biasAll
  rw [addf_apply, addf_apply, rec_apply, bias_bcast_apply, bias_bcast_apply]

/-- Layer 0's combined bias as the fused region finds it. -/
theorem V3_v24 (b : Fin 16) (g : Fin 2048) :
    (V3 m ρ c main_v24 : S16x1x2048.Idx → EReal) (ix3 b (0 : Fin 1) g) = Cert.Lstm.cbias (params m c) 0 b g := by
  have e : (V3 m ρ c main_v24 : S16x1x2048.Idx → EReal)
      = shapeCast S16x1x2048 (shapeCast S16x2048 (extractStridedSlice S1x16x2048 ![0, 0, 0]
          (biasAll (W2 m ρ c (Proc.devRef .tc main_arg1)) (W2 m ρ c (Proc.devRef .tc main_arg6))
            (W2 m ρ c (Proc.devRef .tc main_arg7)) (W2 m ρ c (Proc.devRef .tc main_arg8))) slices_S2x16x2048_S1x16x2048_0_0_0) shapeCasts_S1x16x2048_S16x2048)
          shapeCasts_S16x2048_S16x1x2048 := by
    show StableHlo.after hostOps0_2 (W2 m ρ c) (Proc.devRef .tc main_v24) = _
    generalize W2 m ρ c = X
    dsimp only [hostOps0_2]
    after_results
    rfl
  rw [e, W2_main_arg1, W2_main_arg6, W2_main_arg7, W2_main_arg8]
  refine (shapeCast_apply _ _ (ix3 b (0 : Fin 1) g) (ix2 b g) ?_).trans ?_
  · rw [Shape.rowMajor_val_three, Shape.rowMajor_val_two]
    show b.val * 2048 + g.val = (b.val * 1 + 0) * 2048 + g.val
    omega
  refine (shapeCast_apply _ _ (ix2 b g) (ix3 (0 : Fin 1) b g) ?_).trans ?_
  · rw [Shape.rowMajor_val_three, Shape.rowMajor_val_two]
    show (0 * 16 + b.val) * 2048 + g.val = b.val * 2048 + g.val
    omega
  refine (extractStridedSlice_apply ![0, 0, 0] _ slices_S2x16x2048_S1x16x2048_0_0_0 (ix3 (0 : Fin 1) b g) (ix3 (0 : Fin 2) b g)
      (fun a => match a with
        | ⟨0, _⟩ => rfl
        | ⟨1, _⟩ => by show b.val = 0 + b.val; omega
        | ⟨2, _⟩ => by show g.val = 0 + g.val; omega)).trans ?_
  exact biasAll_apply _ _ _ _ (0 : Fin 2) b g

/-- Layer 1's combined bias as the fused region finds it. -/
theorem V3_v27 (b : Fin 16) (g : Fin 2048) :
    (V3 m ρ c main_v27 : S16x1x2048.Idx → EReal) (ix3 b (0 : Fin 1) g) = Cert.Lstm.cbias (params m c) 1 b g := by
  have e : (V3 m ρ c main_v27 : S16x1x2048.Idx → EReal)
      = shapeCast S16x1x2048 (shapeCast S16x2048 (extractStridedSlice S1x16x2048 ![1, 0, 0]
          (biasAll (W2 m ρ c (Proc.devRef .tc main_arg1)) (W2 m ρ c (Proc.devRef .tc main_arg6))
            (W2 m ρ c (Proc.devRef .tc main_arg7)) (W2 m ρ c (Proc.devRef .tc main_arg8))) slices_S2x16x2048_S1x16x2048_1_0_0) shapeCasts_S1x16x2048_S16x2048)
          shapeCasts_S16x2048_S16x1x2048 := by
    show StableHlo.after hostOps0_2 (W2 m ρ c) (Proc.devRef .tc main_v27) = _
    generalize W2 m ρ c = X
    dsimp only [hostOps0_2]
    after_results
    rfl
  rw [e, W2_main_arg1, W2_main_arg6, W2_main_arg7, W2_main_arg8]
  refine (shapeCast_apply _ _ (ix3 b (0 : Fin 1) g) (ix2 b g) ?_).trans ?_
  · rw [Shape.rowMajor_val_three, Shape.rowMajor_val_two]
    show b.val * 2048 + g.val = (b.val * 1 + 0) * 2048 + g.val
    omega
  refine (shapeCast_apply _ _ (ix2 b g) (ix3 (0 : Fin 1) b g) ?_).trans ?_
  · rw [Shape.rowMajor_val_three, Shape.rowMajor_val_two]
    show (0 * 16 + b.val) * 2048 + g.val = b.val * 2048 + g.val
    omega
  refine (extractStridedSlice_apply ![1, 0, 0] _ slices_S2x16x2048_S1x16x2048_1_0_0 (ix3 (0 : Fin 1) b g) (ix3 (1 : Fin 2) b g)
      (fun a => match a with
        | ⟨0, _⟩ => rfl
        | ⟨1, _⟩ => by show b.val = 0 + b.val; omega
        | ⟨2, _⟩ => by show g.val = 0 + g.val; omega)).trans ?_
  exact biasAll_apply _ _ _ _ (1 : Fin 2) b g

/-! ## The embedded inputs -/

/-- The shifted token ids: a column of ones joined to the first 127 columns of the ids. -/
def shifted (x3 : (⟨S16x128, .i32⟩ : BufTy).Contents (Elt Ideal)) : (⟨S16x128, .i32⟩ : BufTy).Contents (Elt Ideal) :=
  concatenate S16x128 1
    [⟨S16x1, broadcastInDim S16x1 ![] bcast_S_S16x1 (constantI S_ 32 1#32)⟩,
     ⟨S16x127, extractStridedSlice S16x127 ![0, 0] x3 slices_S16x128_S16x127_0_0⟩]
    concatenates_S16x1_S16x127_S16x128_d1

/-- The embedded inputs: the rows of the embedding table at the shifted token ids (a negative id counted from the
    end of the table), clamped below at zero. -/
def embed (x3 : (⟨S16x128, .i32⟩ : BufTy).Contents (Elt Ideal)) (x4 : (⟨S32000x512, .f32⟩ : BufTy).Contents (Elt Ideal)) :
    (⟨S16x128x512, .f32⟩ : BufTy).Contents (Elt Ideal) :=
  maximumf (F := Ideal)
    (Host.gather gather_S32000x512_S16x128x1_S16x128x512_2_0_n_n_0_2_1512 x4
      (broadcastInDim S16x128x1 ![0, 1] bcast_S16x128_S16x128x1_0_1
        (select
          (cmpi .slt (shifted x3) (broadcastInDim S16x128 ![] bcast_S_S16x128 (constantI S_ 32 0#32)))
          (addi (shifted x3) (broadcastInDim S16x128 ![] bcast_S_S16x128 (constantI S_ 32 32000#32)))
          (shifted x3))))
    (broadcastInDim S16x128x512 ![] bcast_S_S16x128x512 (constant (F := Ideal) S_ .f32 0x00000000#32))

theorem W0_main_arg3 : W0 m ρ c (Proc.devRef .tc main_arg3) = m ((c : Thread nD τ).loc main_arg3) := rfl
theorem W0_main_arg4 : W0 m ρ c (Proc.devRef .tc main_arg4) = m ((c : Thread nD τ).loc main_arg4) := rfl

/-- The embedded inputs as the fused region finds them. -/
theorem V3_v10 : (V3 m ρ c main_v10 : S16x128x512.Idx → EReal)
    = embed (m ((c : Thread nD τ).loc main_arg3)) (m ((c : Thread nD τ).loc main_arg4)) := by
  rw [← W0_main_arg3 m ρ c, ← W0_main_arg4 m ρ c]
  show StableHlo.after hostOps0_2 (StableHlo.after hostOps0_1 (StableHlo.after hostOps0 (W0 m ρ c))) (Proc.devRef .tc main_v10) = _
  generalize W0 m ρ c = X
  dsimp only [hostOps0_2, hostOps0_1, hostOps0]
  after_results
  rfl

end Cert.KernelIdeal.Glue

end
-- ==== Proof.GlueMid.lean ====
/-
  The projection region's three input arrays as it finds them: the fused region's first output reshaped to
  [2048,512], the output matrix as launched, the output bias as launched with a leading unit axis.
-/
import proofs.«123488_j77790447665279_2_alg».proof.Proof.Gen.KernelIdeal.Frame
import Idealize.ShloMosaic.Lib.ValueIdx
import Idealize.ShloMosaic.Lib.Pipeline.Value

set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ) (ρ : Dev nD → PrngReg) (c : Dev nD)

/-- The projection's input rows: row r is time step r % 128 of batch element r / 128 of the fused region's first output. -/
theorem V5_v35 (r : Fin 2048) (h : Fin 512) :
    (V5 m ρ c main_v35 : S2048x512.Idx → EReal) (ix2 r h)
      = ((dat0 (V3 m ρ) c).arrAt 7 cfg0.N : S16x128x512.Idx → EReal)
          (ix3 (⟨r.val / 128, by omega⟩ : Fin 16) (⟨r.val % 128, by omega⟩ : Fin 128) h) := by
  have e : (V5 m ρ c main_v35 : S2048x512.Idx → EReal)
      = shapeCast S2048x512 (W4 m ρ c (Proc.devRef .tc main_v34_0) : S16x128x512.Idx → EReal)
          shapeCasts_S16x128x512_S2048x512 := by
    show StableHlo.after hostOps1 (W4 m ρ c) (Proc.devRef .tc main_v35) = _
    dsimp only [hostOps1]
    after_results
    rfl
  rw [e]
  refine (shapeCast_apply _ _ (ix2 r h)
    (ix3 (⟨r.val / 128, by omega⟩ : Fin 16) (⟨r.val % 128, by omega⟩ : Fin 128) h) ?_).trans ?_
  · rw [Shape.rowMajor_val_two, Shape.rowMajor_val_three]
    show (r.val / 128 * 128 + r.val % 128) * 512 + h.val = r.val * 512 + h.val
    omega
  · exact congrFun (W4_arr m ρ c 7) _

/-- No host operation before the fused region and no window of it writes this argument: at the fused region's exit
    it is as launched. -/
theorem W4_main_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- No host operation before the fused region and no window of it writes this argument: at the fused region's exit
    it is as launched. -/
theorem W4_main_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The output matrix at the projection region's entry is as launched. -/
theorem V5_arg9 : V5 m ρ c main_arg9 = m ((c : Thread nD τ).loc main_arg9) := by
  refine Eq.trans ?_ (W4_main_arg9 m ρ c)
  show StableHlo.after hostOps1 (W4 m ρ c) (Proc.devRef .tc main_arg9) = _
  dsimp only [hostOps1]
  after_results

/-- The output bias at the projection region's entry: the launched vector under a leading unit axis. -/
theorem V5_v36 (q : Fin 32000) :
    (V5 m ρ c main_v36 : S1x32000.Idx → EReal) (ix2 (0 : Fin 1) q)
      = (m ((c : Thread nD τ).loc main_arg10) : S32000.Idx → EReal) (ix1 q) := by
  have e : (V5 m ρ c main_v36 : S1x32000.Idx → EReal)
      = shapeCast S1x32000 (W4 m ρ c (Proc.devRef .tc main_arg10) : S32000.Idx → EReal) shapeCasts_S32000_S1x32000 := by
    show StableHlo.after hostOps1 (W4 m ρ c) (Proc.devRef .tc main_v36) = _
    dsimp only [hostOps1]
    after_results
    rfl
  rw [e]
  refine (shapeCast_apply _ _ (ix2 (0 : Fin 1) q) (ix1 q) ?_).trans ?_
  · rw [Shape.rowMajor_val_one, Shape.rowMajor_val_two]
    show q.val = 0 * 32000 + q.val
    omega
  · exact congrFun (W4_main_arg10 m ρ c) _

end Cert.KernelIdeal.Glue

end
-- ==== Proof.GlueOut.lean ====
/-
  The three results of the kernel program read at an index: each is a reshape, or a reshape, a broadcast and a
  concatenation along the layer axis, of what the two regions leave in their output arrays.
-/
import proofs.«123488_j77790447665279_2_alg».proof.Proof.Gen.KernelIdeal.Frame
import Idealize.ShloMosaic.Lib.ValueIdx
import Idealize.ShloMosaic.Lib.Pipeline.Value

set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ) (ρ : Dev nD → PrngReg) (c : Dev nD)

/-- The logits: row b * 128 + t of the projection region's output. -/
theorem W7_v38 (b : Fin 16) (t : Fin 128) (v : Fin 32000) :
    (W7 m ρ c (Proc.devRef .tc main_v38) : S16x128x32000.Idx → EReal) (ix3 b t v)
      = ((dat1 (V5 m ρ) c).arrAt 3 cfg1.N : S2048x32000.Idx → EReal) (ix2 (⟨b.val * 128 + t.val, by omega⟩ : Fin 2048) v) := by
  have e : (W7 m ρ c (Proc.devRef .tc main_v38) : S16x128x32000.Idx → EReal)
      = shapeCast S16x128x32000 (W6 m ρ c (Proc.devRef .tc main_v37) : S2048x32000.Idx → EReal)
          shapeCasts_S2048x32000_S16x128x32000 := by
    show StableHlo.after hostOps2 (W6 m ρ c) (Proc.devRef .tc main_v38) = _
    dsimp only [hostOps2]
    after_results
    rfl
  rw [e]
  refine (shapeCast_apply _ _ (ix3 b t v) (ix2 (⟨b.val * 128 + t.val, by omega⟩ : Fin 2048) v) ?_).trans ?_
  · rw [Shape.rowMajor_val_two, Shape.rowMajor_val_three]
    show (b.val * 128 + t.val) * 32000 + v.val = (b.val * 128 + t.val) * 32000 + v.val
    rfl
  · exact congrFun (W6_arr m ρ c 3) _

/-- A state row array [16,1,512] reshaped to [16,512] and broadcast to [1,16,512], read at an index. -/
theorem state_row_apply (x : S16x1x512.Idx → EReal) (b : Fin 16) (j : Fin 512) :
    broadcastInDim S1x16x512 ![1, 2] bcast_S16x512_S1x16x512_1_2 (shapeCast S16x512 x shapeCasts_S16x1x512_S16x512)
        (ix3 (0 : Fin 1) b j) = x (ix3 b (0 : Fin 1) j) := by
  refine (broadcastInDim_apply ![1, 2] bcast_S16x512_S1x16x512_1_2 _ (ix3 (0 : Fin 1) b j) (ix2 b j) (fun a => match a with
    | ⟨0, _⟩ => rfl
    | ⟨1, _⟩ => rfl)).trans ?_
  refine shapeCast_apply x shapeCasts_S16x1x512_S16x512 (ix2 b j) (ix3 b (0 : Fin 1) j) ?_
  rw [Shape.rowMajor_val_two, Shape.rowMajor_val_three]
  show (b.val * 1 + 0) * 512 + j.val = b.val * 512 + j.val
  omega

/-! The fused region's four state outputs are not arrays of the projection region and no host operation between the
    regions writes them: at the last boundary but one they hold what the fused region left. -/

theorem W6_v34_1 : (W6 m ρ c (Proc.devRef .tc main_v34_1) : S16x1x512.Idx → EReal) = (dat0 (V3 m ρ) c).arrAt 8 cfg0.N := by
  refine (W6_of_ne m ρ c main_v34_1 (by decide)).trans ?_
  refine Eq.trans ?_ (W4_arr m ρ c 8)
  show StableHlo.after hostOps1 (W4 m ρ c) (Proc.devRef .tc main_v34_1) = _
  dsimp only [hostOps1]
  after_results

theorem W6_v34_2 : (W6 m ρ c (Proc.devRef .tc main_v34_2) : S16x1x512.Idx → EReal) = (dat0 (V3 m ρ) c).arrAt 9 cfg0.N := by
  refine (W6_of_ne m ρ c main_v34_2 (by decide)).trans ?_
  refine Eq.trans ?_ (W4_arr m ρ c 9)
  show StableHlo.after hostOps1 (W4 m ρ c) (Proc.devRef .tc main_v34_2) = _
  dsimp only [hostOps1]
  after_results

theorem W6_v34_3 : (W6 m ρ c (Proc.devRef .tc main_v34_3) : S16x1x512.Idx → EReal) = (dat0 (V3 m ρ) c).arrAt 10 cfg0.N := by
  refine (W6_of_ne m ρ c main_v34_3 (by decide)).trans ?_
  refine Eq.trans ?_ (W4_arr m ρ c 10)
  show StableHlo.after hostOps1 (W4 m ρ c) (Proc.devRef .tc main_v34_3) = _
  dsimp only [hostOps1]
  after_results

theorem W6_v34_4 : (W6 m ρ c (Proc.devRef .tc main_v34_4) : S16x1x512.Idx → EReal) = (dat0 (V3 m ρ) c).arrAt 11 cfg0.N := by
  refine (W6_of_ne m ρ c main_v34_4 (by decide)).trans ?_
  refine Eq.trans ?_ (W4_arr m ρ c 11)
  show StableHlo.after hostOps1 (W4 m ρ c) (Proc.devRef .tc main_v34_4) = _
  dsimp only [hostOps1]
  after_results

/-- The returned hidden states: layer 0 is the fused region's second output, layer 1 its fourth. -/
theorem W7_v43 (l : Fin 2) (b : Fin 16) (j : Fin 512) :
    (W7 m ρ c (Proc.devRef .tc main_v43) : S2x16x512.Idx → EReal) (ix3 l b j)
      = if l.val = 0 then ((dat0 (V3 m ρ) c).arrAt 8 cfg0.N : S16x1x512.Idx → EReal) (ix3 b (0 : Fin 1) j)
        else ((dat0 (V3 m ρ) c).arrAt 10 cfg0.N : S16x1x512.Idx → EReal) (ix3 b (0 : Fin 1) j) := by
  have e : (W7 m ρ c (Proc.devRef .tc main_v43) : S2x16x512.Idx → EReal)
      = concatenate S2x16x512 0
          [⟨S1x16x512, broadcastInDim S1x16x512 ![1, 2] bcast_S16x512_S1x16x512_1_2
              (shapeCast S16x512 (W6 m ρ c (Proc.devRef .tc main_v34_1) : S16x1x512.Idx → EReal) shapeCasts_S16x1x512_S16x512)⟩,
           ⟨S1x16x512, broadcastInDim S1x16x512 ![1, 2] bcast_S16x512_S1x16x512_1_2
              (shapeCast S16x512 (W6 m ρ c (Proc.devRef .tc main_v34_3) : S16x1x512.Idx → EReal) shapeCasts_S16x1x512_S16x512)⟩]
          concatenates_S1x16x512_S1x16x512_S2x16x512_d0 := by
    show StableHlo.after hostOps2 (W6 m ρ c) (Proc.devRef .tc main_v43) = _
    dsimp only [hostOps2]
    after_results
    rfl
  rw [e]
  by_cases hl : l.val = 0
  · rw [if_pos hl]
    refine (concatenate_pair_apply_left (t := S2x16x512) (s₁ := S1x16x512) (s₂ := S1x16x512) (0 : Fin 3) _ _ concatenates_S1x16x512_S1x16x512_S2x16x512_d0 (ix3 l b j) rfl
      (ix3 (0 : Fin 1) b j) (fun a => match a with
        | ⟨0, _⟩ => by show 0 = l.val; omega
        | ⟨1, _⟩ => rfl
        | ⟨2, _⟩ => rfl)).trans ?_
    rw [state_row_apply, W6_v34_1]
  · rw [if_neg hl]
    refine (concatenate_pair_apply_right (t := S2x16x512) (s₁ := S1x16x512) (s₂ := S1x16x512) (0 : Fin 3) _ _ concatenates_S1x16x512_S1x16x512_S2x16x512_d0 (ix3 l b j) rfl rfl
      (ix3 (0 : Fin 1) b j) (fun a ha => match a, ha with
        | ⟨0, _⟩, ha => absurd rfl ha
        | ⟨1, _⟩, _ => rfl
        | ⟨2, _⟩, _ => rfl) (by have := l.isLt; show 0 + 1 = l.val; omega)).trans ?_
    rw [state_row_apply, W6_v34_3]

/-- The returned cell states: layer 0 is the fused region's third output, layer 1 its fifth. -/
theorem W7_v48 (l : Fin 2) (b : Fin 16) (j : Fin 512) :
    (W7 m ρ c (Proc.devRef .tc main_v48) : S2x16x512.Idx → EReal) (ix3 l b j)
      = if l.val = 0 then ((dat0 (V3 m ρ) c).arrAt 9 cfg0.N : S16x1x512.Idx → EReal) (ix3 b (0 : Fin 1) j)
        else ((dat0 (V3 m ρ) c).arrAt 11 cfg0.N : S16x1x512.Idx → EReal) (ix3 b (0 : Fin 1) j) := by
  have e : (W7 m ρ c (Proc.devRef .tc main_v48) : S2x16x512.Idx → EReal)
      = concatenate S2x16x512 0
          [⟨S1x16x512, broadcastInDim S1x16x512 ![1, 2] bcast_S16x512_S1x16x512_1_2
              (shapeCast S16x512 (W6 m ρ c (Proc.devRef .tc main_v34_2) : S16x1x512.Idx → EReal) shapeCasts_S16x1x512_S16x512)⟩,
           ⟨S1x16x512, broadcastInDim S1x16x512 ![1, 2] bcast_S16x512_S1x16x512_1_2
              (shapeCast S16x512 (W6 m ρ c (Proc.devRef .tc main_v34_4) : S16x1x512.Idx → EReal) shapeCasts_S16x1x512_S16x512)⟩]
          concatenates_S1x16x512_S1x16x512_S2x16x512_d0 := by
    show StableHlo.after hostOps2 (W6 m ρ c) (Proc.devRef .tc main_v48) = _
    dsimp only [hostOps2]
    after_results
    rfl
  rw [e]
  by_cases hl : l.val = 0
  · rw [if_pos hl]
    refine (concatenate_pair_apply_left (t := S2x16x512) (s₁ := S1x16x512) (s₂ := S1x16x512) (0 : Fin 3) _ _ concatenates_S1x16x512_S1x16x512_S2x16x512_d0 (ix3 l b j) rfl
      (ix3 (0 : Fin 1) b j) (fun a => match a with
        | ⟨0, _⟩ => by show 0 = l.val; omega
        | ⟨1, _⟩ => rfl
        | ⟨2, _⟩ => rfl)).trans ?_
    rw [state_row_apply, W6_v34_2]
  · rw [if_neg hl]
    refine (concatenate_pair_apply_right (t := S2x16x512) (s₁ := S1x16x512) (s₂ := S1x16x512) (0 : Fin 3) _ _ concatenates_S1x16x512_S1x16x512_S2x16x512_d0 (ix3 l b j) rfl rfl
      (ix3 (0 : Fin 1) b j) (fun a ha => match a, ha with
        | ⟨0, _⟩, ha => absurd rfl ha
        | ⟨1, _⟩, _ => rfl
        | ⟨2, _⟩, _ => rfl) (by have := l.isLt; show 0 + 1 = l.val; omega)).trans ?_
    rw [state_row_apply, W6_v34_4]

end Cert.KernelIdeal.Glue

end
-- ==== Proof.KMatmul.lean ====
/-
  The two matrix products of the kernel program, read entry by entry on the extended reals.

  A product into a zero accumulator of a matrix L (rows r, 512 columns) with the transpose of a matrix R (rows q,
  512 columns) has at (r, q) the plain sum over h < 512 of L r h * R q h: the accumulator's zero word denotes 0,
  and the one contracted axis is re-indexed by its single coordinate.
-/
import proofs.«123488_j77790447665279_2_alg».proof.Proof.Gen.KernelIdeal
import Idealize.ShloMosaic.PureOps.Ideal.Laws
import Idealize.ShloMosaic.Lib.ValueIdx

noncomputable section

namespace Cert.KernelIdeal.Body

open Cert.KernelIdeal Cert.KernelIdeal.Gen Idealize.ShloMosaic Idealize.ShloMosaic.ValueIdx

theorem gdot_lhs0 (i : S128x2048.Idx) (q : dot_S128x512_S2048x512_S128x2048_1_1_0_0_n_n.contr.Idx) : (dot_S128x512_S2048x512_S128x2048_1_1_0_0_n_n.lhsIdx i q 0).val = (i 0).val := by
  unfold DotDims.lhsIdx
  rw [dif_neg (show ¬(0 : Fin S128x512.rank) ∈ dot_S128x512_S2048x512_S128x2048_1_1_0_0_n_n.lhsBatch by decide), dif_pos (show (0 : Fin S128x512.rank) ∈ dot_S128x512_S2048x512_S128x2048_1_1_0_0_n_n.lhsNonContracting by decide)]
  rfl
theorem gdot_lhs1 (i : S128x2048.Idx) (q : dot_S128x512_S2048x512_S128x2048_1_1_0_0_n_n.contr.Idx) : (dot_S128x512_S2048x512_S128x2048_1_1_0_0_n_n.lhsIdx i q 1).val = (q ⟨0, by decide⟩).val :=
  dot_S128x512_S2048x512_S128x2048_1_1_0_0_n_n.lhsIdx_val_of_single rfl i q
theorem gdot_rhs0 (i : S128x2048.Idx) (q : dot_S128x512_S2048x512_S128x2048_1_1_0_0_n_n.contr.Idx) : (dot_S128x512_S2048x512_S128x2048_1_1_0_0_n_n.rhsIdx i q 0).val = (i 1).val := by
  unfold DotDims.rhsIdx
  rw [dif_neg (show ¬(0 : Fin S2048x512.rank) ∈ dot_S128x512_S2048x512_S128x2048_1_1_0_0_n_n.rhsBatch by decide), dif_pos (show (0 : Fin S2048x512.rank) ∈ dot_S128x512_S2048x512_S128x2048_1_1_0_0_n_n.rhsNonContracting by decide)]
  rfl
theorem gdot_rhs1 (i : S128x2048.Idx) (q : dot_S128x512_S2048x512_S128x2048_1_1_0_0_n_n.contr.Idx) : (dot_S128x512_S2048x512_S128x2048_1_1_0_0_n_n.rhsIdx i q 1).val = (q ⟨0, by decide⟩).val :=
  dot_S128x512_S2048x512_S128x2048_1_1_0_0_n_n.rhsIdx_val_of_single rfl i q

/-- The gate product of the recurrent kernel: 128 rows against 2048 gate columns. -/
theorem gate_matmul_apply  (lhs : FVec Ideal S128x512 .f32) (rhs : FVec Ideal S2048x512 .f32) (t : Fin 128) (g : Fin 2048) :
    matmul dot_S128x512_S2048x512_S128x2048_1_1_0_0_n_n none lhs rhs (constant S128x2048 .f32 0x00000000#32) (ix2 t g)
      = ∑ h : Fin 512, lhs (ix2 t h) * rhs (ix2 g h) := by
  refine (Ideal.matmul_constant_zero_apply dot_S128x512_S2048x512_S128x2048_1_1_0_0_n_n none lhs rhs (ix2 t g)).trans ?_
  rw [← Equiv.sum_comp (contrEquiv1 dot_S128x512_S2048x512_S128x2048_1_1_0_0_n_n 512 rfl rfl).symm]
  refine Finset.sum_congr rfl fun k _ => ?_
  have hk := contrEquiv1_symm_val dot_S128x512_S2048x512_S128x2048_1_1_0_0_n_n 512 rfl rfl k
  have el : dot_S128x512_S2048x512_S128x2048_1_1_0_0_n_n.lhsIdx (ix2 t g) ((contrEquiv1 dot_S128x512_S2048x512_S128x2048_1_1_0_0_n_n 512 rfl rfl).symm k) = ix2 t k :=
    funext fun a => Fin.ext (by
      match a with
      | ⟨0, _⟩ => exact gdot_lhs0 _ _
      | ⟨1, _⟩ => exact (gdot_lhs1 _ _).trans hk)
  have er : dot_S128x512_S2048x512_S128x2048_1_1_0_0_n_n.rhsIdx (ix2 t g) ((contrEquiv1 dot_S128x512_S2048x512_S128x2048_1_1_0_0_n_n 512 rfl rfl).symm k) = ix2 g k :=
    funext fun a => Fin.ext (by
      match a with
      | ⟨0, _⟩ => exact gdot_rhs0 _ _
      | ⟨1, _⟩ => exact (gdot_rhs1 _ _).trans hk)
  rw [el, er]

theorem pdot_lhs0 (i : S2048x1280.Idx) (q : dot_S2048x512_S1280x512_S2048x1280_1_1_0_0_n_n.contr.Idx) : (dot_S2048x512_S1280x512_S2048x1280_1_1_0_0_n_n.lhsIdx i q 0).val = (i 0).val := by
  unfold DotDims.lhsIdx
  rw [dif_neg (show ¬(0 : Fin S2048x512.rank) ∈ dot_S2048x512_S1280x512_S2048x1280_1_1_0_0_n_n.lhsBatch by decide), dif_pos (show (0 : Fin S2048x512.rank) ∈ dot_S2048x512_S1280x512_S2048x1280_1_1_0_0_n_n.lhsNonContracting by decide)]
  rfl
theorem pdot_lhs1 (i : S2048x1280.Idx) (q : dot_S2048x512_S1280x512_S2048x1280_1_1_0_0_n_n.contr.Idx) : (dot_S2048x512_S1280x512_S2048x1280_1_1_0_0_n_n.lhsIdx i q 1).val = (q ⟨0, by decide⟩).val :=
  dot_S2048x512_S1280x512_S2048x1280_1_1_0_0_n_n.lhsIdx_val_of_single rfl i q
theorem pdot_rhs0 (i : S2048x1280.Idx) (q : dot_S2048x512_S1280x512_S2048x1280_1_1_0_0_n_n.contr.Idx) : (dot_S2048x512_S1280x512_S2048x1280_1_1_0_0_n_n.rhsIdx i q 0).val = (i 1).val := by
  unfold DotDims.rhsIdx
  rw [dif_neg (show ¬(0 : Fin S1280x512.rank) ∈ dot_S2048x512_S1280x512_S2048x1280_1_1_0_0_n_n.rhsBatch by decide), dif_pos (show (0 : Fin S1280x512.rank) ∈ dot_S2048x512_S1280x512_S2048x1280_1_1_0_0_n_n.rhsNonContracting by decide)]
  rfl
theorem pdot_rhs1 (i : S2048x1280.Idx) (q : dot_S2048x512_S1280x512_S2048x1280_1_1_0_0_n_n.contr.Idx) : (dot_S2048x512_S1280x512_S2048x1280_1_1_0_0_n_n.rhsIdx i q 1).val = (q ⟨0, by decide⟩).val :=
  dot_S2048x512_S1280x512_S2048x1280_1_1_0_0_n_n.rhsIdx_val_of_single rfl i q

/-- The projection product: 2048 rows against one block of 1280 vocabulary columns. -/
theorem proj_matmul_apply {φ₁ φ₂ : FTy} (lhs : FVec Ideal S2048x512 φ₁) (rhs : FVec Ideal S1280x512 φ₂) (r : Fin 2048) (q : Fin 1280) :
    matmul dot_S2048x512_S1280x512_S2048x1280_1_1_0_0_n_n none lhs rhs (constant S2048x1280 .f32 0x00000000#32) (ix2 r q)
      = ∑ h : Fin 512, lhs (ix2 r h) * rhs (ix2 q h) := by
  refine (Ideal.matmul_constant_zero_apply dot_S2048x512_S1280x512_S2048x1280_1_1_0_0_n_n none lhs rhs (ix2 r q)).trans ?_
  rw [← Equiv.sum_comp (contrEquiv1 dot_S2048x512_S1280x512_S2048x1280_1_1_0_0_n_n 512 rfl rfl).symm]
  refine Finset.sum_congr rfl fun k _ => ?_
  have hk := contrEquiv1_symm_val dot_S2048x512_S1280x512_S2048x1280_1_1_0_0_n_n 512 rfl rfl k
  have el : dot_S2048x512_S1280x512_S2048x1280_1_1_0_0_n_n.lhsIdx (ix2 r q) ((contrEquiv1 dot_S2048x512_S1280x512_S2048x1280_1_1_0_0_n_n 512 rfl rfl).symm k) = ix2 r k :=
    funext fun a => Fin.ext (by
      match a with
      | ⟨0, _⟩ => exact pdot_lhs0 _ _
      | ⟨1, _⟩ => exact (pdot_lhs1 _ _).trans hk)
  have er : dot_S2048x512_S1280x512_S2048x1280_1_1_0_0_n_n.rhsIdx (ix2 r q) ((contrEquiv1 dot_S2048x512_S1280x512_S2048x1280_1_1_0_0_n_n 512 rfl rfl).symm k) = ix2 q k :=
    funext fun a => Fin.ext (by
      match a with
      | ⟨0, _⟩ => exact pdot_rhs0 _ _
      | ⟨1, _⟩ => exact (pdot_rhs1 _ _).trans hk)
  rw [el, er]

end Cert.KernelIdeal.Body

end
-- ==== Proof.KBody0.lean ====
/-
  What the recurrent kernel's body computes for one batch element, entry by entry.

  The body loads the element's 128 input rows, both input matrices, the two combined bias rows and the two previous
  cell rows.  Its values are, in the words of the specification: the gates of layer 0, the cell and hidden rows of
  layer 0, the gates of layer 1 (whose input rows are layer 0's hidden rows), the cell and hidden rows of layer 1.
  It stores the hidden rows of layer 1 (all 128) and row 127 of each of the four state matrices.
  A change of float format is the identity on the extended reals; a cast between [1,a,b] and [a,b] keeps the
  entries; a slice of 512 gate columns at offset o reads column o + j.
-/
import proofs.«123488_j77790447665279_2_alg».proof.Proof.Gen.KernelIdeal.Skeleton
import proofs.«123488_j77790447665279_2_alg».proof.Proof.KMatmul
import proofs.«123488_j77790447665279_2_alg».proof.Proof.Spec
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Lstm

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

section Block
variable (v0 : Vec Ideal S1x128x512 .f32) (v2 v4 : Vec Ideal S2048x512 .f32) (v6 v8 : Vec Ideal S1x1x2048 .f32)
  (v10 v12 : Vec Ideal S1x1x512 .f32)

/-- The block's input rows, matrices, bias rows and previous cell rows, by coordinates. -/
abbrev rows : Fin 128 → Fin 512 → EReal := fun t h => v0 (ix3 (0 : Fin 1) t h)
abbrev mat (w : Vec Ideal S2048x512 .f32) : Fin 2048 → Fin 512 → EReal := fun g h => w (ix2 g h)
abbrev brow (b : Vec Ideal S1x1x2048 .f32) : Fin 2048 → EReal := fun g => b (ix3 (0 : Fin 1) (0 : Fin 1) g)
abbrev crow (c : Vec Ideal S1x1x512 .f32) : Fin 512 → EReal := fun j => c (ix3 (0 : Fin 1) (0 : Fin 1) j)

/-- Layer 0's gates. -/
abbrev G0 : Fin 128 → Fin 2048 → EReal := gate (rows v0) (mat v2) (brow v6)
/-- Layer 1's gates. -/
abbrev G1 : Fin 128 → Fin 2048 → EReal := gate (hid (G0 v0 v2 v6) (crow v10)) (mat v4) (brow v8)

theorem pay9_apply (t : Fin 128) (g : Fin 2048) : k0_pay9 v0 v2 v6 (ix2 t g) = G0 v0 v2 v6 t g := by
  unfold k0_pay9
  refine congrArg₂ (fun a b : EReal => a + b) ?_ ?_
  · refine (gate_matmul_apply _ _ t g).trans (Finset.sum_congr rfl fun h _ => ?_)
    refine congrArg₂ (fun a b : EReal => a * b) ?_ ?_
    · exact shapeCast_1ab_ab_apply v0 _ t h
    · exact congrFun (shapeCast_self v2 _) (ix2 g h)
  · exact (broadcastTo_1b_ab_apply _ _ t g).trans (shapeCast_1ab_ab_apply v6 _ (0 : Fin 1) g)

theorem slice_col0 (X : FVec Ideal S128x2048 .f32) (t : Fin 128) (j : Fin 512) :
    extractStridedSlice S128x512 ![0, 0] X slices_S128x2048_o0_0_S128x512 (ix2 t j) = X (ix2 t (col0 j)) :=
  slice2_axis1_apply 0 X _ t j (col0 j) (Nat.zero_add _).symm
theorem slice_col1 (X : FVec Ideal S128x2048 .f32) (t : Fin 128) (j : Fin 512) :
    extractStridedSlice S128x512 ![0, 512] X slices_S128x2048_o0_512_S128x512 (ix2 t j) = X (ix2 t (col1 j)) :=
  slice2_axis1_apply 512 X _ t j (col1 j) (Nat.add_comm _ _)
theorem slice_col2 (X : FVec Ideal S128x2048 .f32) (t : Fin 128) (j : Fin 512) :
    extractStridedSlice S128x512 ![0, 1024] X slices_S128x2048_o0_1024_S128x512 (ix2 t j) = X (ix2 t (col2 j)) :=
  slice2_axis1_apply 1024 X _ t j (col2 j) (Nat.add_comm _ _)
theorem slice_col3 (X : FVec Ideal S128x2048 .f32) (t : Fin 128) (j : Fin 512) :
    extractStridedSlice S128x512 ![0, 1536] X slices_S128x2048_o0_1536_S128x512 (ix2 t j) = X (ix2 t (col3 j)) :=
  slice2_axis1_apply 1536 X _ t j (col3 j) (Nat.add_comm _ _)

/-- A previous-cell row broadcast over the 128 rows. -/
theorem crow_bcast (c : Vec Ideal S1x1x512 .f32) (t : Fin 128) (j : Fin 512) :
    broadcastTo S128x512 (shapeCast S1x512 c shapeCasts_S1x1x512_S1x512) broadcasts_S1x512_S128x512 (ix2 t j) = crow c j :=
  (broadcastTo_1b_ab_apply _ _ t j).trans (shapeCast_1ab_ab_apply c _ (0 : Fin 1) j)

theorem pay10_apply (t : Fin 128) (j : Fin 512) : k0_pay10 v0 v2 v6 v10 (ix2 t j) = cell (G0 v0 v2 v6) (crow v10) t j := by
  unfold k0_pay10 cell
  refine congrArg₂ (fun a b : EReal => a + b) (congrArg₂ (fun a b : EReal => a * b) ?_ ?_) (congrArg₂ (fun a b : EReal => a * b) ?_ ?_)
  · exact congrArg Ideal.logistic ((slice_col1 _ t j).trans (pay9_apply v0 v2 v6 t _))
  · exact crow_bcast v10 t j
  · exact congrArg Ideal.logistic ((slice_col0 _ t j).trans (pay9_apply v0 v2 v6 t _))
  · exact congrArg Ideal.tanh ((slice_col2 _ t j).trans (pay9_apply v0 v2 v6 t _))

theorem pay11_apply (t : Fin 128) (j : Fin 512) : k0_pay11 v0 v2 v6 v10 (ix2 t j) = hid (G0 v0 v2 v6) (crow v10) t j := by
  unfold k0_pay11 hid
  refine congrArg₂ (fun a b : EReal => a * b) ?_ ?_
  · exact congrArg Ideal.logistic ((slice_col3 _ t j).trans (pay9_apply v0 v2 v6 t _))
  · exact congrArg Ideal.tanh (pay10_apply v0 v2 v6 v10 t j)

theorem pay12_apply (t : Fin 128) (g : Fin 2048) : k0_pay12 v0 v2 v4 v6 v8 v10 (ix2 t g) = G1 v0 v2 v4 v6 v8 v10 t g := by
  unfold k0_pay12
  refine congrArg₂ (fun a b : EReal => a + b) ?_ ?_
  · refine (gate_matmul_apply _ _ t g).trans (Finset.sum_congr rfl fun h _ => ?_)
    refine congrArg₂ (fun a b : EReal => a * b) ?_ ?_
    · exact pay11_apply v0 v2 v6 v10 t h
    · exact congrFun (shapeCast_self v4 _) (ix2 g h)
  · exact (broadcastTo_1b_ab_apply _ _ t g).trans (shapeCast_1ab_ab_apply v8 _ (0 : Fin 1) g)

theorem pay13_apply (t : Fin 128) (j : Fin 512) : k0_pay13 v0 v2 v4 v6 v8 v10 (ix2 t j) = G1 v0 v2 v4 v6 v8 v10 t (col0 j) := by
  unfold k0_pay13
  exact (slice_col0 _ t j).trans (pay12_apply v0 v2 v4 v6 v8 v10 t _)
theorem pay14_apply (t : Fin 128) (j : Fin 512) : k0_pay14 v0 v2 v4 v6 v8 v10 (ix2 t j) = G1 v0 v2 v4 v6 v8 v10 t (col1 j) := by
  unfold k0_pay14
  exact (slice_col1 _ t j).trans (pay12_apply v0 v2 v4 v6 v8 v10 t _)
theorem pay15_apply (t : Fin 128) (j : Fin 512) : k0_pay15 v0 v2 v4 v6 v8 v10 (ix2 t j) = G1 v0 v2 v4 v6 v8 v10 t (col2 j) := by
  unfold k0_pay15
  exact (slice_col2 _ t j).trans (pay12_apply v0 v2 v4 v6 v8 v10 t _)
theorem pay16_apply (t : Fin 128) (j : Fin 512) : k0_pay16 v0 v2 v4 v6 v8 v10 (ix2 t j) = G1 v0 v2 v4 v6 v8 v10 t (col3 j) := by
  unfold k0_pay16
  exact (slice_col3 _ t j).trans (pay12_apply v0 v2 v4 v6 v8 v10 t _)

/-- Layer 1's cell rows. -/
theorem cell1_apply (t : Fin 128) (j : Fin 512) :
    k0_pay1 (k0_pay8 v12) (k0_pay13 v0 v2 v4 v6 v8 v10) (k0_pay14 v0 v2 v4 v6 v8 v10) (k0_pay15 v0 v2 v4 v6 v8 v10) (ix2 t j)
      = cell (G1 v0 v2 v4 v6 v8 v10) (crow v12) t j := by
  unfold k0_pay1 k0_pay8 cell
  refine congrArg₂ (fun a b : EReal => a + b) (congrArg₂ (fun a b : EReal => a * b) ?_ ?_) (congrArg₂ (fun a b : EReal => a * b) ?_ ?_)
  · exact congrArg Ideal.logistic (pay14_apply v0 v2 v4 v6 v8 v10 t j)
  · exact crow_bcast v12 t j
  · exact congrArg Ideal.logistic (pay13_apply v0 v2 v4 v6 v8 v10 t j)
  · exact congrArg Ideal.tanh (pay15_apply v0 v2 v4 v6 v8 v10 t j)

/-- Layer 1's hidden rows. -/
theorem hid1_apply (t : Fin 128) (j : Fin 512) :
    k0_pay2 (k0_pay8 v12) (k0_pay13 v0 v2 v4 v6 v8 v10) (k0_pay14 v0 v2 v4 v6 v8 v10) (k0_pay15 v0 v2 v4 v6 v8 v10) (k0_pay16 v0 v2 v4 v6 v8 v10) (ix2 t j)
      = hid (G1 v0 v2 v4 v6 v8 v10) (crow v12) t j := by
  unfold k0_pay2 hid
  refine congrArg₂ (fun a b : EReal => a * b) ?_ ?_
  · exact congrArg Ideal.logistic (pay16_apply v0 v2 v4 v6 v8 v10 t j)
  · exact congrArg Ideal.tanh (cell1_apply v0 v2 v4 v6 v8 v10 v12 t j)

/-- Row 127 of a 128-row matrix, stored as a [1,1,512] block. -/
theorem last_row (X : FVec Ideal S128x512 .f32) (j : Fin 512) :
    shapeCast S1x1x512 (extractStridedSlice S1x512 ![127, 0] X slices_S128x512_o127_0_S1x512) shapeCasts_S1x512_S1x1x512
      (ix3 (0 : Fin 1) (0 : Fin 1) j) = X (ix2 tLast j) :=
  (shapeCast_ab_1ab_apply _ _ (0 : Fin 1) (0 : Fin 1) j).trans (slice2_axis0_apply 127 X _ (0 : Fin 1) j tLast rfl)

/-- The stored hidden rows of layer 1. -/
theorem store7_apply (t : Fin 128) (j : Fin 512) :
    k0_pay3 (k0_pay8 v12) (k0_pay13 v0 v2 v4 v6 v8 v10) (k0_pay14 v0 v2 v4 v6 v8 v10) (k0_pay15 v0 v2 v4 v6 v8 v10) (k0_pay16 v0 v2 v4 v6 v8 v10) (ix3 (0 : Fin 1) t j)
      = hid (G1 v0 v2 v4 v6 v8 v10) (crow v12) t j := by
  unfold k0_pay3
  exact (shapeCast_ab_1ab_apply _ _ (0 : Fin 1) t j).trans (hid1_apply v0 v2 v4 v6 v8 v10 v12 t j)

/-- The stored last hidden row of layer 0. -/
theorem store8_apply (j : Fin 512) :
    k0_pay4 (k0_pay11 v0 v2 v6 v10) (ix3 (0 : Fin 1) (0 : Fin 1) j) = hid (G0 v0 v2 v6) (crow v10) tLast j := by
  unfold k0_pay4
  exact (last_row _ j).trans (pay11_apply v0 v2 v6 v10 tLast j)

/-- The stored last cell row of layer 0. -/
theorem store9_apply (j : Fin 512) :
    k0_pay5 (k0_pay10 v0 v2 v6 v10) (ix3 (0 : Fin 1) (0 : Fin 1) j) = cell (G0 v0 v2 v6) (crow v10) tLast j := by
  unfold k0_pay5
  exact (last_row _ j).trans (pay10_apply v0 v2 v6 v10 tLast j)

/-- The stored last hidden row of layer 1. -/
theorem store10_apply (j : Fin 512) :
    k0_pay6 (k0_pay8 v12) (k0_pay13 v0 v2 v4 v6 v8 v10) (k0_pay14 v0 v2 v4 v6 v8 v10) (k0_pay15 v0 v2 v4 v6 v8 v10) (k0_pay16 v0 v2 v4 v6 v8 v10) (ix3 (0 : Fin 1) (0 : Fin 1) j)
      = hid (G1 v0 v2 v4 v6 v8 v10) (crow v12) tLast j := by
  unfold k0_pay6
  exact (last_row _ j).trans (hid1_apply v0 v2 v4 v6 v8 v10 v12 tLast j)

/-- The stored last cell row of layer 1. -/
theorem store11_apply (j : Fin 512) :
    k0_pay7 (k0_pay8 v12) (k0_pay13 v0 v2 v4 v6 v8 v10) (k0_pay14 v0 v2 v4 v6 v8 v10) (k0_pay15 v0 v2 v4 v6 v8 v10) (ix3 (0 : Fin 1) (0 : Fin 1) j)
      = cell (G1 v0 v2 v4 v6 v8 v10) (crow v12) tLast j := by
  unfold k0_pay7
  exact (last_row _ j).trans (cell1_apply v0 v2 v4 v6 v8 v10 v12 tLast j)

end Block

section Proj
variable (u0 : Vec Ideal S2048x512 .bf16) (u2 : Vec Ideal S1280x512 .f32) (u4 : Vec Ideal S1x1280 .f32)

/-- The projection kernel's body: a row of hidden values against a block of 1280 output rows, plus the bias entry. -/
theorem proj_apply (r : Fin 2048) (q : Fin 1280) :
    k1_pay1 u0 u2 u4 (ix2 r q) = proj (fun h => u0 (ix2 r h)) (fun h => u2 (ix2 q h)) (u4 (ix2 (0 : Fin 1) q)) := by
  unfold k1_pay1 proj
  refine congrArg₂ (fun a b : EReal => a + b) ?_ ?_
  · refine (proj_matmul_apply _ _ r q).trans (Finset.sum_congr rfl fun h _ => ?_)
    refine congrArg₂ (fun a b : EReal => a * b) ?_ ?_
    · exact congrFun (shapeCast_self u0 _) (ix2 r h)
    · rfl
  · exact (broadcastTo_1b_ab_apply _ _ r q).trans (congrFun (shapeCast_self u4 _) (ix2 (0 : Fin 1) q))

end Proj

end Cert.KernelIdeal.Body

end
-- ==== Proof.KRegion0.lean ====
/-
  What the recurrent kernel leaves in its five output arrays.

  Grid point t of 16 works on batch element t: it reads rows t of the embedded inputs, of the two combined biases and
  of the two previous cell states, and both input matrices whole, and writes block t of each output.  The blocks of an
  output are its 16 batch slices, so they cover it, and every block is the same function of the arrays the region
  finds, read at the batch element: the hidden rows of layer 1, and row 127 of the hidden and cell rows of both layers.
-/
import proofs.«123488_j77790447665279_2_alg».proof.Proof.Gen.KernelIdeal.Frame
import proofs.«123488_j77790447665279_2_alg».proof.Proof.KBody0

set_option maxRecDepth 16384

noncomputable section

namespace Cert.KernelIdeal.Region0

open Cert.KernelIdeal Cert.KernelIdeal.Gen Cert.KernelIdeal.Body Idealize.ShloMosaic Idealize.ShloMosaic.TcCoe
open Idealize.ShloMosaic.ValueIdx Idealize.SL.Sem Cert.Lstm
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The batch element a grid point works on. -/
def bOf (t : Fin cfg0.N) : Fin 16 := ⟨t.val, lt_of_lt_of_eq t.isLt N_0⟩

/-! ## The index maps, decided over the 16 points -/
theorem idx0_0 : ∀ t : Fin cfg0.N, (win0_0.index t (0 : Fin 3) = t.val ∧ win0_0.index t (1 : Fin 3) = 0 ∧ win0_0.index t (2 : Fin 3) = 0) :=
  (by decide +kernel : ∀ t : Fin grid0.N, _)
theorem idx0_3 : ∀ t : Fin cfg0.N, (win0_3.index t (0 : Fin 3) = t.val ∧ win0_3.index t (1 : Fin 3) = 0 ∧ win0_3.index t (2 : Fin 3) = 0) :=
  (by decide +kernel : ∀ t : Fin grid0.N, _)
theorem idx0_4 : ∀ t : Fin cfg0.N, (win0_4.index t (0 : Fin 3) = t.val ∧ win0_4.index t (1 : Fin 3) = 0 ∧ win0_4.index t (2 : Fin 3) = 0) :=
  (by decide +kernel : ∀ t : Fin grid0.N, _)
theorem idx0_5 : ∀ t : Fin cfg0.N, (win0_5.index t (0 : Fin 3) = t.val ∧ win0_5.index t (1 : Fin 3) = 0 ∧ win0_5.index t (2 : Fin 3) = 0) :=
  (by decide +kernel : ∀ t : Fin grid0.N, _)
theorem idx0_6 : ∀ t : Fin cfg0.N, (win0_6.index t (0 : Fin 3) = t.val ∧ win0_6.index t (1 : Fin 3) = 0 ∧ win0_6.index t (2 : Fin 3) = 0) :=
  (by decide +kernel : ∀ t : Fin grid0.N, _)
theorem idx0_7 : ∀ t : Fin cfg0.N, (win0_7.index t (0 : Fin 3) = t.val ∧ win0_7.index t (1 : Fin 3) = 0 ∧ win0_7.index t (2 : Fin 3) = 0) :=
  (by decide +kernel : ∀ t : Fin grid0.N, _)
theorem idx0_8 : ∀ t : Fin cfg0.N, (win0_8.index t (0 : Fin 3) = t.val ∧ win0_8.index t (1 : Fin 3) = 0 ∧ win0_8.index t (2 : Fin 3) = 0) :=
  (by decide +kernel : ∀ t : Fin grid0.N, _)
theorem idx0_9 : ∀ t : Fin cfg0.N, (win0_9.index t (0 : Fin 3) = t.val ∧ win0_9.index t (1 : Fin 3) = 0 ∧ win0_9.index t (2 : Fin 3) = 0) :=
  (by decide +kernel : ∀ t : Fin grid0.N, _)
theorem idx0_10 : ∀ t : Fin cfg0.N, (win0_10.index t (0 : Fin 3) = t.val ∧ win0_10.index t (1 : Fin 3) = 0 ∧ win0_10.index t (2 : Fin 3) = 0) :=
  (by decide +kernel : ∀ t : Fin grid0.N, _)
theorem idx0_11 : ∀ t : Fin cfg0.N, (win0_11.index t (0 : Fin 3) = t.val ∧ win0_11.index t (1 : Fin 3) = 0 ∧ win0_11.index t (2 : Fin 3) = 0) :=
  (by decide +kernel : ∀ t : Fin grid0.N, _)
theorem idx0_1 : ∀ t : Fin cfg0.N, (win0_1.index t (0 : Fin 2) = 0 ∧ win0_1.index t (1 : Fin 2) = 0) :=
  (by decide +kernel : ∀ t : Fin grid0.N, _)
theorem idx0_2 : ∀ t : Fin cfg0.N, (win0_2.index t (0 : Fin 2) = 0 ∧ win0_2.index t (1 : Fin 2) = 0) :=
  (by decide +kernel : ∀ t : Fin grid0.N, _)

/-! ## The input blocks, read where they sit in their arrays -/
theorem rd0 (c : Dev nD) (t : Fin cfg0.N) (t' : Fin 128) (h : Fin 512) :
    iblk0 V c 0 t (ix3 (0 : Fin 1) t' h) = V c main_v10 (ix3 (bOf t) t' h) := by
  show V c main_v10 (((cfg0.win 0).blk t).view.emb (ix3 (0 : Fin 1) t' h)) = V c main_v10 (ix3 (bOf t) t' h)
  refine congrArg _ (funext fun a => Fin.ext ?_)
  obtain ⟨e0, e1, e2⟩ := idx0_0 t
  match a with
  | ⟨0, _⟩ => show win0_0.index t (0 : Fin 3) * 1 + 1 * 0 = t.val; omega
  | ⟨1, _⟩ => show win0_0.index t (1 : Fin 3) * 128 + 1 * t'.val = t'.val; omega
  | ⟨2, _⟩ => show win0_0.index t (2 : Fin 3) * 512 + 1 * h.val = h.val; omega
theorem rd1 (c : Dev nD) (t : Fin cfg0.N) (g : Fin 2048) (h : Fin 512) :
    iblk0 V c 1 t (ix2 g h) = V c main_v19 (ix2 g h) := by
  show V c main_v19 (((cfg0.win 1).blk t).view.emb (ix2 g h)) = V c main_v19 (ix2 g h)
  refine congrArg _ (funext fun a => Fin.ext ?_)
  obtain ⟨e0, e1⟩ := idx0_1 t
  match a with
  | ⟨0, _⟩ => show win0_1.index t (0 : Fin 2) * 2048 + 1 * g.val = g.val; omega
  | ⟨1, _⟩ => show win0_1.index t (1 : Fin 2) * 512 + 1 * h.val = h.val; omega
theorem rd2 (c : Dev nD) (t : Fin cfg0.N) (g : Fin 2048) (h : Fin 512) :
    iblk0 V c 2 t (ix2 g h) = V c main_v21 (ix2 g h) := by
  show V c main_v21 (((cfg0.win 2).blk t).view.emb (ix2 g h)) = V c main_v21 (ix2 g h)
  refine congrArg _ (funext fun a => Fin.ext ?_)
  obtain ⟨e0, e1⟩ := idx0_2 t
  match a with
  | ⟨0, _⟩ => show win0_2.index t (0 : Fin 2) * 2048 + 1 * g.val = g.val; omega
  | ⟨1, _⟩ => show win0_2.index t (1 : Fin 2) * 512 + 1 * h.val = h.val; omega
theorem rd3 (c : Dev nD) (t : Fin cfg0.N) (g : Fin 2048) :
    iblk0 V c 3 t (ix3 (0 : Fin 1) (0 : Fin 1) g) = V c main_v24 (ix3 (bOf t) (0 : Fin 1) g) := by
  show V c main_v24 (((cfg0.win 3).blk t).view.emb (ix3 (0 : Fin 1) (0 : Fin 1) g)) = V c main_v24 (ix3 (bOf t) (0 : Fin 1) g)
  refine congrArg _ (funext fun a => Fin.ext ?_)
  obtain ⟨e0, e1, e2⟩ := idx0_3 t
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 2048 + 1 * g.val = g.val; omega
theorem rd4 (c : Dev nD) (t : Fin cfg0.N) (g : Fin 2048) :
    iblk0 V c 4 t (ix3 (0 : Fin 1) (0 : Fin 1) g) = V c main_v27 (ix3 (bOf t) (0 : Fin 1) g) := by
  show V c main_v27 (((cfg0.win 4).blk t).view.emb (ix3 (0 : Fin 1) (0 : Fin 1) g)) = V c main_v27 (ix3 (bOf t) (0 : Fin 1) g)
  refine congrArg _ (funext fun a => Fin.ext ?_)
  obtain ⟨e0, e1, e2⟩ := idx0_4 t
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 2048 + 1 * g.val = g.val; omega
theorem rd5 (c : Dev nD) (t : Fin cfg0.N) (j : Fin 512) :
    iblk0 V c 5 t (ix3 (0 : Fin 1) (0 : Fin 1) j) = V c main_v30 (ix3 (bOf t) (0 : Fin 1) j) := by
  show V c main_v30 (((cfg0.win 5).blk t).view.emb (ix3 (0 : Fin 1) (0 : Fin 1) j)) = V c main_v30 (ix3 (bOf t) (0 : Fin 1) j)
  refine congrArg _ (funext fun a => Fin.ext ?_)
  obtain ⟨e0, e1, e2⟩ := idx0_5 t
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 512 + 1 * j.val = j.val; omega
theorem rd6 (c : Dev nD) (t : Fin cfg0.N) (j : Fin 512) :
    iblk0 V c 6 t (ix3 (0 : Fin 1) (0 : Fin 1) j) = V c main_v33 (ix3 (bOf t) (0 : Fin 1) j) := by
  show V c main_v33 (((cfg0.win 6).blk t).view.emb (ix3 (0 : Fin 1) (0 : Fin 1) j)) = V c main_v33 (ix3 (bOf t) (0 : Fin 1) j)
  refine congrArg _ (funext fun a => Fin.ext ?_)
  obtain ⟨e0, e1, e2⟩ := idx0_6 t
  match a with
  | ⟨0, _⟩ => show win0_6.index t (0 : Fin 3) * 1 + 1 * 0 = t.val; omega
  | ⟨1, _⟩ => show win0_6.index t (1 : Fin 3) * 1 + 1 * 0 = 0; omega
  | ⟨2, _⟩ => show win0_6.index t (2 : Fin 3) * 512 + 1 * j.val = j.val; omega

/-! ## The layers, from the arrays the region finds -/

/-- Layer 0's gates of batch element b. -/
def L0 (c : Dev nD) (b : Fin 16) : Fin 128 → Fin 2048 → EReal :=
  gate (fun t h => V c main_v10 (ix3 b t h)) (fun g h => V c main_v19 (ix2 g h)) (fun g => V c main_v24 (ix3 b (0 : Fin 1) g))
def cp0 (c : Dev nD) (b : Fin 16) : Fin 512 → EReal := fun j => V c main_v30 (ix3 b (0 : Fin 1) j)
/-- Layer 1's gates of batch element b. -/
def L1 (c : Dev nD) (b : Fin 16) : Fin 128 → Fin 2048 → EReal :=
  gate (hid (L0 V c b) (cp0 V c b)) (fun g h => V c main_v21 (ix2 g h)) (fun g => V c main_v27 (ix3 b (0 : Fin 1) g))
def cp1 (c : Dev nD) (b : Fin 16) : Fin 512 → EReal := fun j => V c main_v33 (ix3 b (0 : Fin 1) j)

theorem blkcp0 (c : Dev nD) (t : Fin cfg0.N) : crow (iblk0 V c 5 t) = cp0 V c (bOf t) :=
  funext fun j => rd5 V c t j
theorem blkcp1 (c : Dev nD) (t : Fin cfg0.N) : crow (iblk0 V c 6 t) = cp1 V c (bOf t) :=
  funext fun j => rd6 V c t j
theorem blkL0 (c : Dev nD) (t : Fin cfg0.N) : G0 (iblk0 V c 0 t) (iblk0 V c 1 t) (iblk0 V c 3 t) = L0 V c (bOf t) := by
  have e1 : rows (iblk0 V c 0 t) = fun t' h => V c main_v10 (ix3 (bOf t) t' h) := funext fun t' => funext fun h => rd0 V c t t' h
  have e2 : mat (iblk0 V c 1 t) = fun g h => V c main_v19 (ix2 g h) := funext fun g => funext fun h => rd1 V c t g h
  have e3 : brow (iblk0 V c 3 t) = fun g => V c main_v24 (ix3 (bOf t) (0 : Fin 1) g) := funext fun g => rd3 V c t g
  exact congr (congr (congrArg gate e1) e2) e3
theorem blkL1 (c : Dev nD) (t : Fin cfg0.N) : G1 (iblk0 V c 0 t) (iblk0 V c 1 t) (iblk0 V c 2 t) (iblk0 V c 3 t) (iblk0 V c 4 t) (iblk0 V c 5 t) = L1 V c (bOf t) := by
  have e2 : mat (iblk0 V c 2 t) = fun g h => V c main_v21 (ix2 g h) := funext fun g => funext fun h => rd2 V c t g h
  have e3 : brow (iblk0 V c 4 t) = fun g => V c main_v27 (ix3 (bOf t) (0 : Fin 1) g) := funext fun g => rd4 V c t g
  have e1 : hid (G0 (iblk0 V c 0 t) (iblk0 V c 1 t) (iblk0 V c 3 t)) (crow (iblk0 V c 5 t)) = hid (L0 V c (bOf t)) (cp0 V c (bOf t)) := by
    rw [blkL0 V c t, blkcp0 V c t]
  exact congr (congr (congrArg gate e1) e2) e3

/-! ## The output arrays -/

/-- The array of window 7 after the run, entry by entry. -/
def A7 (c : Dev nD) : S16x128x512.Idx → EReal := fun i => hid (L1 V c (i 0)) (cp1 V c (i 0)) (i 1) (i 2)

theorem emb7 (t : Fin cfg0.N) (t' : Fin 128) (j : Fin 512) :
    ((cfg0.win 7).blk t).view.emb (ix3 (0 : Fin 1) t' j) = ix3 (bOf t) t' j := by
  refine funext fun a => Fin.ext ?_
  obtain ⟨e0, e1, e2⟩ := idx0_7 t
  match a with
  | ⟨0, _⟩ => show win0_7.index t (0 : Fin 3) * 1 + 1 * 0 = t.val; omega
  | ⟨1, _⟩ => show win0_7.index t (1 : Fin 3) * 128 + 1 * t'.val = t'.val; omega
  | ⟨2, _⟩ => show win0_7.index t (2 : Fin 3) * 512 + 1 * j.val = j.val; omega

/-- What grid point t writes back through window 7 is its block of that array. -/
theorem flushed7_eq (c : Dev nD) (t : Fin cfg0.N) :
    (dat0 V c).flushed 7 t = ((cfg0.win 7).blk t).view.read (Elt Ideal) (A7 V c) := by
  show (cfg0.win 7).cut (grid0.coords t) ((dat0 V c).after 7 t) = _
  rw [after0_7]
  unfold out0_7
  rw [View.canon_unit_zero hz3]
  simp only [View.ld_unit_zero (S := S1x128x512) hz3, View.ld_unit_zero (S := S2048x512) hz2, View.ld_unit_zero (S := S1x1x2048) hz3, View.ld_unit_zero (S := S1x1x512) hz3]
  funext y
  obtain ⟨u, t', j, rfl⟩ : ∃ (u : Fin 1) (t' : Fin 128) (j : Fin 512), y = ix3 u t' j := ⟨y 0, y 1, y 2, eq_ix3 y⟩
  have hu : u = 0 := Fin.ext (by omega)
  subst hu

  refine (store7_apply (iblk0 V c 0 t) (iblk0 V c 1 t) (iblk0 V c 2 t) (iblk0 V c 3 t) (iblk0 V c 4 t) (iblk0 V c 5 t) (iblk0 V c 6 t) t' j).trans ?_
  refine Eq.trans ?_ (congrArg (A7 V c) (emb7 t t' j)).symm
  show _ = hid (L1 V c (bOf t)) (cp1 V c (bOf t)) t' j
  rw [blkL1 V c t, blkcp1 V c t]

theorem mem_blk7 (t : Fin cfg0.N) (i : S16x128x512.Idx) :
    i ∈ ((cfg0.win 7).blk t).view.set ↔ ∀ a : Fin 3, win0_7.index t a * S1x128x512.size a ≤ (i a).val ∧ (i a).val < win0_7.index t a * S1x128x512.size a + S1x128x512.size a := by
  show i ∈ ((View.whole main_v34_0).slice (win0_7.rect t)).set ↔ _
  rw [View.set_slice_whole, Rect.mem_set_unit]
  exact Iff.rfl

theorem cover7 (i : S16x128x512.Idx) : ∃ t : Fin cfg0.N, (cfg0.win 7).flush t = true ∧ i ∈ ((cfg0.win 7).blk t).view.set := by
  have hi0 : (i 0).val < 16 := (i 0).isLt
  have hi1 : (i 1).val < 128 := (i 1).isLt
  have hi2 : (i 2).val < 512 := (i 2).isLt
  refine ⟨⟨(i 0).val, lt_of_lt_of_eq hi0 N_0.symm⟩, flush0_7 _, ?_⟩
  rw [mem_blk7]
  obtain ⟨e0, e1, e2⟩ := idx0_7 ⟨(i 0).val, lt_of_lt_of_eq hi0 N_0.symm⟩
  intro a
  match a with
  | ⟨0, _⟩ =>
    show win0_7.index ⟨(i 0).val, lt_of_lt_of_eq hi0 N_0.symm⟩ (0 : Fin 3) * 1 ≤ (i 0).val ∧ (i 0).val < win0_7.index ⟨(i 0).val, lt_of_lt_of_eq hi0 N_0.symm⟩ (0 : Fin 3) * 1 + 1
    rw [e0]; show (i 0).val * 1 ≤ (i 0).val ∧ (i 0).val < (i 0).val * 1 + 1; omega
  | ⟨1, _⟩ =>
    show win0_7.index ⟨(i 0).val, lt_of_lt_of_eq hi0 N_0.symm⟩ (1 : Fin 3) * 128 ≤ (i 1).val ∧ (i 1).val < win0_7.index ⟨(i 0).val, lt_of_lt_of_eq hi0 N_0.symm⟩ (1 : Fin 3) * 128 + 128
    rw [e1]; omega
  | ⟨2, _⟩ =>
    show win0_7.index ⟨(i 0).val, lt_of_lt_of_eq hi0 N_0.symm⟩ (2 : Fin 3) * 512 ≤ (i 2).val ∧ (i 2).val < win0_7.index ⟨(i 0).val, lt_of_lt_of_eq hi0 N_0.symm⟩ (2 : Fin 3) * 512 + 512
    rw [e2]; omega

/-- The array of window 7 after the run. -/
theorem arr7 (c : Dev nD) : (dat0 V c).arrAt 7 cfg0.N = A7 V c :=
  (dat0 V c).arrAt_eq_of_cover 7 (A7 V c) (fun t _ => flushed7_eq V c t) (cover7)

/-- The array of window 8 after the run, entry by entry. -/
def A8 (c : Dev nD) : S16x1x512.Idx → EReal := fun i => hid (L0 V c (i 0)) (cp0 V c (i 0)) tLast (i 2)

theorem emb8 (t : Fin cfg0.N) (t' : Fin 1) (j : Fin 512) :
    ((cfg0.win 8).blk t).view.emb (ix3 (0 : Fin 1) t' j) = ix3 (bOf t) t' j := by
  refine funext fun a => Fin.ext ?_
  obtain ⟨e0, e1, e2⟩ := idx0_8 t
  match a with
  | ⟨0, _⟩ => show win0_8.index t (0 : Fin 3) * 1 + 1 * 0 = t.val; omega
  | ⟨1, _⟩ => show win0_8.index t (1 : Fin 3) * 1 + 1 * t'.val = t'.val; omega
  | ⟨2, _⟩ => show win0_8.index t (2 : Fin 3) * 512 + 1 * j.val = j.val; omega

/-- What grid point t writes back through window 8 is its block of that array. -/
theorem flushed8_eq (c : Dev nD) (t : Fin cfg0.N) :
    (dat0 V c).flushed 8 t = ((cfg0.win 8).blk t).view.read (Elt Ideal) (A8 V c) := by
  show (cfg0.win 8).cut (grid0.coords t) ((dat0 V c).after 8 t) = _
  rw [after0_8]
  unfold out0_8
  rw [View.canon_unit_zero hz3]
  simp only [View.ld_unit_zero (S := S1x128x512) hz3, View.ld_unit_zero (S := S2048x512) hz2, View.ld_unit_zero (S := S1x1x2048) hz3, View.ld_unit_zero (S := S1x1x512) hz3]
  funext y
  obtain ⟨u, t', j, rfl⟩ : ∃ (u : Fin 1) (t' : Fin 1) (j : Fin 512), y = ix3 u t' j := ⟨y 0, y 1, y 2, eq_ix3 y⟩
  have hu : u = 0 := Fin.ext (by omega)
  subst hu
  have ht' : t' = 0 := Fin.ext (by omega)
  subst ht'
  refine (store8_apply (iblk0 V c 0 t) (iblk0 V c 1 t) (iblk0 V c 3 t) (iblk0 V c 5 t) j).trans ?_
  refine Eq.trans ?_ (congrArg (A8 V c) (emb8 t 0 j)).symm
  show _ = hid (L0 V c (bOf t)) (cp0 V c (bOf t)) tLast j
  rw [blkL0 V c t, blkcp0 V c t]

theorem mem_blk8 (t : Fin cfg0.N) (i : S16x1x512.Idx) :
    i ∈ ((cfg0.win 8).blk t).view.set ↔ ∀ a : Fin 3, win0_8.index t a * S1x1x512.size a ≤ (i a).val ∧ (i a).val < win0_8.index t a * S1x1x512.size a + S1x1x512.size a := by
  show i ∈ ((View.whole main_v34_1).slice (win0_8.rect t)).set ↔ _
  rw [View.set_slice_whole, Rect.mem_set_unit]
  exact Iff.rfl

theorem cover8 (i : S16x1x512.Idx) : ∃ t : Fin cfg0.N, (cfg0.win 8).flush t = true ∧ i ∈ ((cfg0.win 8).blk t).view.set := by
  have hi0 : (i 0).val < 16 := (i 0).isLt
  have hi1 : (i 1).val < 1 := (i 1).isLt
  have hi2 : (i 2).val < 512 := (i 2).isLt
  refine ⟨⟨(i 0).val, lt_of_lt_of_eq hi0 N_0.symm⟩, flush0_8 _, ?_⟩
  rw [mem_blk8]
  obtain ⟨e0, e1, e2⟩ := idx0_8 ⟨(i 0).val, lt_of_lt_of_eq hi0 N_0.symm⟩
  intro a
  match a with
  | ⟨0, _⟩ =>
    show win0_8.index ⟨(i 0).val, lt_of_lt_of_eq hi0 N_0.symm⟩ (0 : Fin 3) * 1 ≤ (i 0).val ∧ (i 0).val < win0_8.index ⟨(i 0).val, lt_of_lt_of_eq hi0 N_0.symm⟩ (0 : Fin 3) * 1 + 1
    rw [e0]; show (i 0).val * 1 ≤ (i 0).val ∧ (i 0).val < (i 0).val * 1 + 1; omega
  | ⟨1, _⟩ =>
    show win0_8.index ⟨(i 0).val, lt_of_lt_of_eq hi0 N_0.symm⟩ (1 : Fin 3) * 1 ≤ (i 1).val ∧ (i 1).val < win0_8.index ⟨(i 0).val, lt_of_lt_of_eq hi0 N_0.symm⟩ (1 : Fin 3) * 1 + 1
    rw [e1]; omega
  | ⟨2, _⟩ =>
    show win0_8.index ⟨(i 0).val, lt_of_lt_of_eq hi0 N_0.symm⟩ (2 : Fin 3) * 512 ≤ (i 2).val ∧ (i 2).val < win0_8.index ⟨(i 0).val, lt_of_lt_of_eq hi0 N_0.symm⟩ (2 : Fin 3) * 512 + 512
    rw [e2]; omega

/-- The array of window 8 after the run. -/
theorem arr8 (c : Dev nD) : (dat0 V c).arrAt 8 cfg0.N = A8 V c :=
  (dat0 V c).arrAt_eq_of_cover 8 (A8 V c) (fun t _ => flushed8_eq V c t) (cover8)

/-- The array of window 9 after the run, entry by entry. -/
def A9 (c : Dev nD) : S16x1x512.Idx → EReal := fun i => cell (L0 V c (i 0)) (cp0 V c (i 0)) tLast (i 2)

theorem emb9 (t : Fin cfg0.N) (t' : Fin 1) (j : Fin 512) :
    ((cfg0.win 9).blk t).view.emb (ix3 (0 : Fin 1) t' j) = ix3 (bOf t) t' j := by
  refine funext fun a => Fin.ext ?_
  obtain ⟨e0, e1, e2⟩ := idx0_9 t
  match a with
  | ⟨0, _⟩ => show win0_9.index t (0 : Fin 3) * 1 + 1 * 0 = t.val; omega
  | ⟨1, _⟩ => show win0_9.index t (1 : Fin 3) * 1 + 1 * t'.val = t'.val; omega
  | ⟨2, _⟩ => show win0_9.index t (2 : Fin 3) * 512 + 1 * j.val = j.val; omega

/-- What grid point t writes back through window 9 is its block of that array. -/
theorem flushed9_eq (c : Dev nD) (t : Fin cfg0.N) :
    (dat0 V c).flushed 9 t = ((cfg0.win 9).blk t).view.read (Elt Ideal) (A9 V c) := by
  show (cfg0.win 9).cut (grid0.coords t) ((dat0 V c).after 9 t) = _
  rw [after0_9]
  unfold out0_9
  rw [View.canon_unit_zero hz3]
  simp only [View.ld_unit_zero (S := S1x128x512) hz3, View.ld_unit_zero (S := S2048x512) hz2, View.ld_unit_zero (S := S1x1x2048) hz3, View.ld_unit_zero (S := S1x1x512) hz3]
  funext y
  obtain ⟨u, t', j, rfl⟩ : ∃ (u : Fin 1) (t' : Fin 1) (j : Fin 512), y = ix3 u t' j := ⟨y 0, y 1, y 2, eq_ix3 y⟩
  have hu : u = 0 := Fin.ext (by omega)
  subst hu
  have ht' : t' = 0 := Fin.ext (by omega)
  subst ht'
  refine (store9_apply (iblk0 V c 0 t) (iblk0 V c 1 t) (iblk0 V c 3 t) (iblk0 V c 5 t) j).trans ?_
  refine Eq.trans ?_ (congrArg (A9 V c) (emb9 t 0 j)).symm
  show _ = cell (L0 V c (bOf t)) (cp0 V c (bOf t)) tLast j
  rw [blkL0 V c t, blkcp0 V c t]

theorem mem_blk9 (t : Fin cfg0.N) (i : S16x1x512.Idx) :
    i ∈ ((cfg0.win 9).blk t).view.set ↔ ∀ a : Fin 3, win0_9.index t a * S1x1x512.size a ≤ (i a).val ∧ (i a).val < win0_9.index t a * S1x1x512.size a + S1x1x512.size a := by
  show i ∈ ((View.whole main_v34_2).slice (win0_9.rect t)).set ↔ _
  rw [View.set_slice_whole, Rect.mem_set_unit]
  exact Iff.rfl

theorem cover9 (i : S16x1x512.Idx) : ∃ t : Fin cfg0.N, (cfg0.win 9).flush t = true ∧ i ∈ ((cfg0.win 9).blk t).view.set := by
  have hi0 : (i 0).val < 16 := (i 0).isLt
  have hi1 : (i 1).val < 1 := (i 1).isLt
  have hi2 : (i 2).val < 512 := (i 2).isLt
  refine ⟨⟨(i 0).val, lt_of_lt_of_eq hi0 N_0.symm⟩, flush0_9 _, ?_⟩
  rw [mem_blk9]
  obtain ⟨e0, e1, e2⟩ := idx0_9 ⟨(i 0).val, lt_of_lt_of_eq hi0 N_0.symm⟩
  intro a
  match a with
  | ⟨0, _⟩ =>
    show win0_9.index ⟨(i 0).val, lt_of_lt_of_eq hi0 N_0.symm⟩ (0 : Fin 3) * 1 ≤ (i 0).val ∧ (i 0).val < win0_9.index ⟨(i 0).val, lt_of_lt_of_eq hi0 N_0.symm⟩ (0 : Fin 3) * 1 + 1
    rw [e0]; show (i 0).val * 1 ≤ (i 0).val ∧ (i 0).val < (i 0).val * 1 + 1; omega
  | ⟨1, _⟩ =>
    show win0_9.index ⟨(i 0).val, lt_of_lt_of_eq hi0 N_0.symm⟩ (1 : Fin 3) * 1 ≤ (i 1).val ∧ (i 1).val < win0_9.index ⟨(i 0).val, lt_of_lt_of_eq hi0 N_0.symm⟩ (1 : Fin 3) * 1 + 1
    rw [e1]; omega
  | ⟨2, _⟩ =>
    show win0_9.index ⟨(i 0).val, lt_of_lt_of_eq hi0 N_0.symm⟩ (2 : Fin 3) * 512 ≤ (i 2).val ∧ (i 2).val < win0_9.index ⟨(i 0).val, lt_of_lt_of_eq hi0 N_0.symm⟩ (2 : Fin 3) * 512 + 512
    rw [e2]; omega

/-- The array of window 9 after the run. -/
theorem arr9 (c : Dev nD) : (dat0 V c).arrAt 9 cfg0.N = A9 V c :=
  (dat0 V c).arrAt_eq_of_cover 9 (A9 V c) (fun t _ => flushed9_eq V c t) (cover9)

/-- The array of window 10 after the run, entry by entry. -/
def A10 (c : Dev nD) : S16x1x512.Idx → EReal := fun i => hid (L1 V c (i 0)) (cp1 V c (i 0)) tLast (i 2)

theorem emb10 (t : Fin cfg0.N) (t' : Fin 1) (j : Fin 512) :
    ((cfg0.win 10).blk t).view.emb (ix3 (0 : Fin 1) t' j) = ix3 (bOf t) t' j := by
  refine funext fun a => Fin.ext ?_
  obtain ⟨e0, e1, e2⟩ := idx0_10 t
  match a with
  | ⟨0, _⟩ => show win0_10.index t (0 : Fin 3) * 1 + 1 * 0 = t.val; omega
  | ⟨1, _⟩ => show win0_10.index t (1 : Fin 3) * 1 + 1 * t'.val = t'.val; omega
  | ⟨2, _⟩ => show win0_10.index t (2 : Fin 3) * 512 + 1 * j.val = j.val; omega

/-- What grid point t writes back through window 10 is its block of that array. -/
theorem flushed10_eq (c : Dev nD) (t : Fin cfg0.N) :
    (dat0 V c).flushed 10 t = ((cfg0.win 10).blk t).view.read (Elt Ideal) (A10 V c) := by
  show (cfg0.win 10).cut (grid0.coords t) ((dat0 V c).after 10 t) = _
  rw [after0_10]
  unfold out0_10
  rw [View.canon_unit_zero hz3]
  simp only [View.ld_unit_zero (S := S1x128x512) hz3, View.ld_unit_zero (S := S2048x512) hz2, View.ld_unit_zero (S := S1x1x2048) hz3, View.ld_unit_zero (S := S1x1x512) hz3]
  funext y
  obtain ⟨u, t', j, rfl⟩ : ∃ (u : Fin 1) (t' : Fin 1) (j : Fin 512), y = ix3 u t' j := ⟨y 0, y 1, y 2, eq_ix3 y⟩
  have hu : u = 0 := Fin.ext (by omega)
  subst hu
  have ht' : t' = 0 := Fin.ext (by omega)
  subst ht'
  refine (store10_apply (iblk0 V c 0 t) (iblk0 V c 1 t) (iblk0 V c 2 t) (iblk0 V c 3 t) (iblk0 V c 4 t) (iblk0 V c 5 t) (iblk0 V c 6 t) j).trans ?_
  refine Eq.trans ?_ (congrArg (A10 V c) (emb10 t 0 j)).symm
  show _ = hid (L1 V c (bOf t)) (cp1 V c (bOf t)) tLast j
  rw [blkL1 V c t, blkcp1 V c t]

theorem mem_blk10 (t : Fin cfg0.N) (i : S16x1x512.Idx) :
    i ∈ ((cfg0.win 10).blk t).view.set ↔ ∀ a : Fin 3, win0_10.index t a * S1x1x512.size a ≤ (i a).val ∧ (i a).val < win0_10.index t a * S1x1x512.size a + S1x1x512.size a := by
  show i ∈ ((View.whole main_v34_3).slice (win0_10.rect t)).set ↔ _
  rw [View.set_slice_whole, Rect.mem_set_unit]
  exact Iff.rfl

theorem cover10 (i : S16x1x512.Idx) : ∃ t : Fin cfg0.N, (cfg0.win 10).flush t = true ∧ i ∈ ((cfg0.win 10).blk t).view.set := by
  have hi0 : (i 0).val < 16 := (i 0).isLt
  have hi1 : (i 1).val < 1 := (i 1).isLt
  have hi2 : (i 2).val < 512 := (i 2).isLt
  refine ⟨⟨(i 0).val, lt_of_lt_of_eq hi0 N_0.symm⟩, flush0_10 _, ?_⟩
  rw [mem_blk10]
  obtain ⟨e0, e1, e2⟩ := idx0_10 ⟨(i 0).val, lt_of_lt_of_eq hi0 N_0.symm⟩
  intro a
  match a with
  | ⟨0, _⟩ =>
    show win0_10.index ⟨(i 0).val, lt_of_lt_of_eq hi0 N_0.symm⟩ (0 : Fin 3) * 1 ≤ (i 0).val ∧ (i 0).val < win0_10.index ⟨(i 0).val, lt_of_lt_of_eq hi0 N_0.symm⟩ (0 : Fin 3) * 1 + 1
    rw [e0]; show (i 0).val * 1 ≤ (i 0).val ∧ (i 0).val < (i 0).val * 1 + 1; omega
  | ⟨1, _⟩ =>
    show win0_10.index ⟨(i 0).val, lt_of_lt_of_eq hi0 N_0.symm⟩ (1 : Fin 3) * 1 ≤ (i 1).val ∧ (i 1).val < win0_10.index ⟨(i 0).val, lt_of_lt_of_eq hi0 N_0.symm⟩ (1 : Fin 3) * 1 + 1
    rw [e1]; omega
  | ⟨2, _⟩ =>
    show win0_10.index ⟨(i 0).val, lt_of_lt_of_eq hi0 N_0.symm⟩ (2 : Fin 3) * 512 ≤ (i 2).val ∧ (i 2).val < win0_10.index ⟨(i 0).val, lt_of_lt_of_eq hi0 N_0.symm⟩ (2 : Fin 3) * 512 + 512
    rw [e2]; omega

/-- The array of window 10 after the run. -/
theorem arr10 (c : Dev nD) : (dat0 V c).arrAt 10 cfg0.N = A10 V c :=
  (dat0 V c).arrAt_eq_of_cover 10 (A10 V c) (fun t _ => flushed10_eq V c t) (cover10)

/-- The array of window 11 after the run, entry by entry. -/
def A11 (c : Dev nD) : S16x1x512.Idx → EReal := fun i => cell (L1 V c (i 0)) (cp1 V c (i 0)) tLast (i 2)

theorem emb11 (t : Fin cfg0.N) (t' : Fin 1) (j : Fin 512) :
    ((cfg0.win 11).blk t).view.emb (ix3 (0 : Fin 1) t' j) = ix3 (bOf t) t' j := by
  refine funext fun a => Fin.ext ?_
  obtain ⟨e0, e1, e2⟩ := idx0_11 t
  match a with
  | ⟨0, _⟩ => show win0_11.index t (0 : Fin 3) * 1 + 1 * 0 = t.val; omega
  | ⟨1, _⟩ => show win0_11.index t (1 : Fin 3) * 1 + 1 * t'.val = t'.val; omega
  | ⟨2, _⟩ => show win0_11.index t (2 : Fin 3) * 512 + 1 * j.val = j.val; omega

/-- What grid point t writes back through window 11 is its block of that array. -/
theorem flushed11_eq (c : Dev nD) (t : Fin cfg0.N) :
    (dat0 V c).flushed 11 t = ((cfg0.win 11).blk t).view.read (Elt Ideal) (A11 V c) := by
  show (cfg0.win 11).cut (grid0.coords t) ((dat0 V c).after 11 t) = _
  rw [after0_11]
  unfold out0_11
  rw [View.canon_unit_zero hz3]
  simp only [View.ld_unit_zero (S := S1x128x512) hz3, View.ld_unit_zero (S := S2048x512) hz2, View.ld_unit_zero (S := S1x1x2048) hz3, View.ld_unit_zero (S := S1x1x512) hz3]
  funext y
  obtain ⟨u, t', j, rfl⟩ : ∃ (u : Fin 1) (t' : Fin 1) (j : Fin 512), y = ix3 u t' j := ⟨y 0, y 1, y 2, eq_ix3 y⟩
  have hu : u = 0 := Fin.ext (by omega)
  subst hu
  have ht' : t' = 0 := Fin.ext (by omega)
  subst ht'
  refine (store11_apply (iblk0 V c 0 t) (iblk0 V c 1 t) (iblk0 V c 2 t) (iblk0 V c 3 t) (iblk0 V c 4 t) (iblk0 V c 5 t) (iblk0 V c 6 t) j).trans ?_
  refine Eq.trans ?_ (congrArg (A11 V c) (emb11 t 0 j)).symm
  show _ = cell (L1 V c (bOf t)) (cp1 V c (bOf t)) tLast j
  rw [blkL1 V c t, blkcp1 V c t]

theorem mem_blk11 (t : Fin cfg0.N) (i : S16x1x512.Idx) :
    i ∈ ((cfg0.win 11).blk t).view.set ↔ ∀ a : Fin 3, win0_11.index t a * S1x1x512.size a ≤ (i a).val ∧ (i a).val < win0_11.index t a * S1x1x512.size a + S1x1x512.size a := by
  show i ∈ ((View.whole main_v34_4).slice (win0_11.rect t)).set ↔ _
  rw [View.set_slice_whole, Rect.mem_set_unit]
  exact Iff.rfl

theorem cover11 (i : S16x1x512.Idx) : ∃ t : Fin cfg0.N, (cfg0.win 11).flush t = true ∧ i ∈ ((cfg0.win 11).blk t).view.set := by
  have hi0 : (i 0).val < 16 := (i 0).isLt
  have hi1 : (i 1).val < 1 := (i 1).isLt
  have hi2 : (i 2).val < 512 := (i 2).isLt
  refine ⟨⟨(i 0).val, lt_of_lt_of_eq hi0 N_0.symm⟩, flush0_11 _, ?_⟩
  rw [mem_blk11]
  obtain ⟨e0, e1, e2⟩ := idx0_11 ⟨(i 0).val, lt_of_lt_of_eq hi0 N_0.symm⟩
  intro a
  match a with
  | ⟨0, _⟩ =>
    show win0_11.index ⟨(i 0).val, lt_of_lt_of_eq hi0 N_0.symm⟩ (0 : Fin 3) * 1 ≤ (i 0).val ∧ (i 0).val < win0_11.index ⟨(i 0).val, lt_of_lt_of_eq hi0 N_0.symm⟩ (0 : Fin 3) * 1 + 1
    rw [e0]; show (i 0).val * 1 ≤ (i 0).val ∧ (i 0).val < (i 0).val * 1 + 1; omega
  | ⟨1, _⟩ =>
    show win0_11.index ⟨(i 0).val, lt_of_lt_of_eq hi0 N_0.symm⟩ (1 : Fin 3) * 1 ≤ (i 1).val ∧ (i 1).val < win0_11.index ⟨(i 0).val, lt_of_lt_of_eq hi0 N_0.symm⟩ (1 : Fin 3) * 1 + 1
    rw [e1]; omega
  | ⟨2, _⟩ =>
    show win0_11.index ⟨(i 0).val, lt_of_lt_of_eq hi0 N_0.symm⟩ (2 : Fin 3) * 512 ≤ (i 2).val ∧ (i 2).val < win0_11.index ⟨(i 0).val, lt_of_lt_of_eq hi0 N_0.symm⟩ (2 : Fin 3) * 512 + 512
    rw [e2]; omega

/-- The array of window 11 after the run. -/
theorem arr11 (c : Dev nD) : (dat0 V c).arrAt 11 cfg0.N = A11 V c :=
  (dat0 V c).arrAt_eq_of_cover 11 (A11 V c) (fun t _ => flushed11_eq V c t) (cover11)

end Cert.KernelIdeal.Region0

end
-- ==== Proof.KRegion1.lean ====
/-
  What the projection kernel leaves in its output array.

  Grid point t of 25 works on vocabulary columns 1280 t .. 1280 t + 1279: it reads all 2048 hidden rows, rows
  1280 t .. of the output matrix and the same stretch of the bias row, and writes the [2048, 1280] block of columns.
  The 25 column blocks cover the [2048, 32000] output, and every block is the same function of the arrays the region
  finds: entry (r, v) is hidden row r against output-matrix row v, plus bias entry v.
-/
import proofs.«123488_j77790447665279_2_alg».proof.Proof.Gen.KernelIdeal.Frame
import proofs.«123488_j77790447665279_2_alg».proof.Proof.KBody0

set_option maxRecDepth 16384

noncomputable section

namespace Cert.KernelIdeal.Region1

open Cert.KernelIdeal Cert.KernelIdeal.Gen Cert.KernelIdeal.Body Idealize.ShloMosaic Idealize.ShloMosaic.TcCoe
open Idealize.ShloMosaic.ValueIdx Idealize.SL.Sem Cert.Lstm
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

theorem tlt (t : Fin cfg1.N) : t.val < 25 := lt_of_lt_of_eq t.isLt N_1

/-- The vocabulary column that column q of grid point t's block is. -/
def vOf (t : Fin cfg1.N) (q : Fin 1280) : Fin 32000 := ⟨t.val * 1280 + q.val, by have := tlt t; have := q.isLt; omega⟩

/-! ## The index maps, decided over the 25 points -/
theorem idx1_0 : ∀ t : Fin cfg1.N, (win1_0.index t (0 : Fin 2) = 0 ∧ win1_0.index t (1 : Fin 2) = 0) :=
  (by decide +kernel : ∀ t : Fin grid1.N, _)
theorem idx1_1 : ∀ t : Fin cfg1.N, (win1_1.index t (0 : Fin 2) = t.val ∧ win1_1.index t (1 : Fin 2) = 0) :=
  (by decide +kernel : ∀ t : Fin grid1.N, _)
theorem idx1_2 : ∀ t : Fin cfg1.N, (win1_2.index t (0 : Fin 2) = 0 ∧ win1_2.index t (1 : Fin 2) = t.val) :=
  (by decide +kernel : ∀ t : Fin grid1.N, _)
theorem idx1_3 : ∀ t : Fin cfg1.N, (win1_3.index t (0 : Fin 2) = 0 ∧ win1_3.index t (1 : Fin 2) = t.val) :=
  (by decide +kernel : ∀ t : Fin grid1.N, _)

/-! ## The input blocks, read where they sit in their arrays -/
theorem rd0 (c : Dev nD) (t : Fin cfg1.N) (r : Fin 2048) (h : Fin 512) :
    iblk1 V c 0 t (ix2 r h) = V c main_v35 (ix2 r h) := by
  show V c main_v35 (((cfg1.win 0).blk t).view.emb (ix2 r h)) = V c main_v35 (ix2 r h)
  refine congrArg _ (funext fun a => Fin.ext ?_)
  obtain ⟨e0, e1⟩ := idx1_0 t
  match a with
  | ⟨0, _⟩ => show win1_0.index t (0 : Fin 2) * 2048 + 1 * r.val = r.val; omega
  | ⟨1, _⟩ => show win1_0.index t (1 : Fin 2) * 512 + 1 * h.val = h.val; omega
theorem rd1 (c : Dev nD) (t : Fin cfg1.N) (q : Fin 1280) (h : Fin 512) :
    iblk1 V c 1 t (ix2 q h) = V c main_arg9 (ix2 (vOf t q) h) := by
  show V c main_arg9 (((cfg1.win 1).blk t).view.emb (ix2 q h)) = V c main_arg9 (ix2 (vOf t q) h)
  refine congrArg _ (funext fun a => Fin.ext ?_)
  obtain ⟨e0, e1⟩ := idx1_1 t
  match a with
  | ⟨0, _⟩ => show win1_1.index t (0 : Fin 2) * 1280 + 1 * q.val = t.val * 1280 + q.val; omega
  | ⟨1, _⟩ => show win1_1.index t (1 : Fin 2) * 512 + 1 * h.val = h.val; omega
theorem rd2 (c : Dev nD) (t : Fin cfg1.N) (q : Fin 1280) :
    iblk1 V c 2 t (ix2 (0 : Fin 1) q) = V c main_v36 (ix2 (0 : Fin 1) (vOf t q)) := by
  show V c main_v36 (((cfg1.win 2).blk t).view.emb (ix2 (0 : Fin 1) q)) = V c main_v36 (ix2 (0 : Fin 1) (vOf t q))
  refine congrArg _ (funext fun a => Fin.ext ?_)
  obtain ⟨e0, e1⟩ := idx1_2 t
  match a with
  | ⟨0, _⟩ => show win1_2.index t (0 : Fin 2) * 1 + 1 * 0 = 0; omega
  | ⟨1, _⟩ => show win1_2.index t (1 : Fin 2) * 1280 + 1 * q.val = t.val * 1280 + q.val; omega

/-! ## The output array -/

/-- The array of window 3 after the run, entry by entry. -/
def B3 (c : Dev nD) : S2048x32000.Idx → EReal := fun i =>
  proj (fun h => V c main_v35 (ix2 (i 0) h)) (fun h => V c main_arg9 (ix2 (i 1) h)) (V c main_v36 (ix2 (0 : Fin 1) (i 1)))

theorem emb3 (t : Fin cfg1.N) (r : Fin 2048) (q : Fin 1280) :
    ((cfg1.win 3).blk t).view.emb (ix2 r q) = ix2 r (vOf t q) := by
  refine funext fun a => Fin.ext ?_
  obtain ⟨e0, e1⟩ := idx1_3 t
  match a with
  | ⟨0, _⟩ => show win1_3.index t (0 : Fin 2) * 2048 + 1 * r.val = r.val; omega
  | ⟨1, _⟩ => show win1_3.index t (1 : Fin 2) * 1280 + 1 * q.val = t.val * 1280 + q.val; omega

/-- What grid point t writes back is its block of that array. -/
theorem flushed3_eq (c : Dev nD) (t : Fin cfg1.N) :
    (dat1 V c).flushed 3 t = ((cfg1.win 3).blk t).view.read (Elt Ideal) (B3 V c) := by
  show (cfg1.win 3).cut (grid1.coords t) ((dat1 V c).after 3 t) = _
  rw [after1_3]
  unfold out1_3
  rw [View.canon_unit_zero hz2]
  simp only [View.ld_unit_zero (S := S2048x512) hz2, View.ld_unit_zero (S := S1280x512) hz2, View.ld_unit_zero (S := S1x1280) hz2]
  funext y
  obtain ⟨r, q, rfl⟩ : ∃ (r : Fin 2048) (q : Fin 1280), y = ix2 r q := ⟨y 0, y 1, eq_ix2 y⟩
  refine (proj_apply (iblk1 V c 0 t) (iblk1 V c 1 t) (iblk1 V c 2 t) r q).trans ?_
  refine Eq.trans ?_ (congrArg (B3 V c) (emb3 t r q)).symm
  show _ = proj (fun h => V c main_v35 (ix2 r h)) (fun h => V c main_arg9 (ix2 (vOf t q) h)) (V c main_v36 (ix2 (0 : Fin 1) (vOf t q)))
  have e0 : (fun h => iblk1 V c 0 t (ix2 r h)) = fun h => V c main_v35 (ix2 r h) := funext fun h => rd0 V c t r h
  have e1 : (fun h => iblk1 V c 1 t (ix2 q h)) = fun h => V c main_arg9 (ix2 (vOf t q) h) := funext fun h => rd1 V c t q h
  exact congr (congr (congrArg proj e0) e1) (rd2 V c t q)

theorem mem_blk3 (t : Fin cfg1.N) (i : S2048x32000.Idx) :
    i ∈ ((cfg1.win 3).blk t).view.set ↔ ∀ a : Fin 2, win1_3.index t a * S2048x1280.size a ≤ (i a).val ∧ (i a).val < win1_3.index t a * S2048x1280.size a + S2048x1280.size a := by
  show i ∈ ((View.whole main_v37).slice (win1_3.rect t)).set ↔ _
  rw [View.set_slice_whole, Rect.mem_set_unit]
  exact Iff.rfl

theorem cover3 (i : S2048x32000.Idx) : ∃ t : Fin cfg1.N, (cfg1.win 3).flush t = true ∧ i ∈ ((cfg1.win 3).blk t).view.set := by
  have hi0 : (i 0).val < 2048 := (i 0).isLt
  have hi1 : (i 1).val < 32000 := (i 1).isLt
  have hlt : (i 1).val / 1280 < 25 := by omega
  refine ⟨⟨(i 1).val / 1280, lt_of_lt_of_eq hlt N_1.symm⟩, flush1_3 _, ?_⟩
  rw [mem_blk3]
  obtain ⟨e0, e1⟩ := idx1_3 ⟨(i 1).val / 1280, lt_of_lt_of_eq hlt N_1.symm⟩
  intro a
  match a with
  | ⟨0, _⟩ =>
    show win1_3.index ⟨(i 1).val / 1280, lt_of_lt_of_eq hlt N_1.symm⟩ (0 : Fin 2) * 2048 ≤ (i 0).val ∧ (i 0).val < win1_3.index ⟨(i 1).val / 1280, lt_of_lt_of_eq hlt N_1.symm⟩ (0 : Fin 2) * 2048 + 2048
    rw [e0]; omega
  | ⟨1, _⟩ =>
    show win1_3.index ⟨(i 1).val / 1280, lt_of_lt_of_eq hlt N_1.symm⟩ (1 : Fin 2) * 1280 ≤ (i 1).val ∧ (i 1).val < win1_3.index ⟨(i 1).val / 1280, lt_of_lt_of_eq hlt N_1.symm⟩ (1 : Fin 2) * 1280 + 1280
    rw [e1]; show (i 1).val / 1280 * 1280 ≤ (i 1).val ∧ (i 1).val < (i 1).val / 1280 * 1280 + 1280; omega

/-- The array of window 3 after the run. -/
theorem arr3 (c : Dev nD) : (dat1 V c).arrAt 3 cfg1.N = B3 V c :=
  (dat1 V c).arrAt_eq_of_cover 3 (B3 V c) (fun t _ => flushed3_eq V c t) (cover3)

end Cert.KernelIdeal.Region1

end
-- ==== Proof.KValue.lean ====
/-
  The kernel program's three results as functions of its launched arguments: the value run, the arrays the two
  regions find, what the regions leave and the host operations around them, put together.  The results are the
  logits, the last hidden states and the last cell states of the two-layer decoder of the specification, at the
  launched weights and the embedded inputs.
-/
import proofs.«123488_j77790447665279_2_alg».proof.Proof.GlueRun
import proofs.«123488_j77790447665279_2_alg».proof.Proof.GlueIn
import proofs.«123488_j77790447665279_2_alg».proof.Proof.GlueMid
import proofs.«123488_j77790447665279_2_alg».proof.Proof.GlueOut
import proofs.«123488_j77790447665279_2_alg».proof.Proof.KRegion0
import proofs.«123488_j77790447665279_2_alg».proof.Proof.KRegion1

set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.ValueIdx
open Idealize.SL.Sem Cert.Lstm

variable (m : (ℓ : Loc nD τ sig) → Buf (Elt Ideal) ℓ) (ρ : Dev nD → PrngReg) (c : Dev nD)

/-! ## The layers' gates and previous cell states, at the arrays the fused region finds -/

theorem L0_eq (b : Fin 16) : Region0.L0 (V3 m ρ) c b = g0 (params m c) (embed (m ((c : Thread nD τ).loc main_arg3)) (m ((c : Thread nD τ).loc main_arg4))) b := by
  have e1 : (fun (t : Fin 128) (h : Fin 512) => (V3 m ρ c main_v10 : S16x128x512.Idx → EReal) (ix3 b t h))
      = fun t h => ((embed (m ((c : Thread nD τ).loc main_arg3)) (m ((c : Thread nD τ).loc main_arg4))) : S16x128x512.Idx → EReal) (ix3 b t h) :=
    funext fun t => funext fun h => congrFun (V3_v10 m ρ c) (ix3 b t h)
  have e2 : (fun (g : Fin 2048) (h : Fin 512) => (V3 m ρ c main_v19 : S2048x512.Idx → EReal) (ix2 g h)) = wih (params m c) 0 :=
    funext fun g => funext fun h => V3_v19 m ρ c g h
  have e3 : (fun g : Fin 2048 => (V3 m ρ c main_v24 : S16x1x2048.Idx → EReal) (ix3 b (0 : Fin 1) g)) = cbias (params m c) 0 b :=
    funext fun g => V3_v24 m ρ c b g
  unfold Region0.L0 g0
  exact congr (congr (congrArg gate e1) e2) e3

theorem cp0_eq (b : Fin 16) : Region0.cp0 (V3 m ρ) c b = cprev (params m c) 0 b :=
  funext fun j => V3_v30 m ρ c b j

theorem L1_eq (b : Fin 16) : Region0.L1 (V3 m ρ) c b = g1 (params m c) (embed (m ((c : Thread nD τ).loc main_arg3)) (m ((c : Thread nD τ).loc main_arg4))) b := by
  have e1 : hid (Region0.L0 (V3 m ρ) c b) (Region0.cp0 (V3 m ρ) c b) = h0 (params m c) (embed (m ((c : Thread nD τ).loc main_arg3)) (m ((c : Thread nD τ).loc main_arg4))) b := by
    rw [L0_eq m ρ c b, cp0_eq m ρ c b]; rfl
  have e2 : (fun (g : Fin 2048) (h : Fin 512) => (V3 m ρ c main_v21 : S2048x512.Idx → EReal) (ix2 g h)) = wih (params m c) 1 :=
    funext fun g => funext fun h => V3_v21 m ρ c g h
  have e3 : (fun g : Fin 2048 => (V3 m ρ c main_v27 : S16x1x2048.Idx → EReal) (ix3 b (0 : Fin 1) g)) = cbias (params m c) 1 b :=
    funext fun g => V3_v27 m ρ c b g
  unfold Region0.L1 g1
  exact congr (congr (congrArg gate e1) e2) e3

theorem cp1_eq (b : Fin 16) : Region0.cp1 (V3 m ρ) c b = cprev (params m c) 1 b :=
  funext fun j => V3_v33 m ρ c b j

/-! ## What the fused region leaves, in the specification's terms -/

theorem arr7_apply (b : Fin 16) (t : Fin 128) (j : Fin 512) :
    ((dat0 (V3 m ρ) c).arrAt 7 cfg0.N : S16x128x512.Idx → EReal) (ix3 b t j) = h1 (params m c) (embed (m ((c : Thread nD τ).loc main_arg3)) (m ((c : Thread nD τ).loc main_arg4))) b t j := by
  refine (congrFun (Region0.arr7 (V3 m ρ) c) (ix3 b t j)).trans ?_
  show hid (Region0.L1 (V3 m ρ) c b) (Region0.cp1 (V3 m ρ) c b) t j = _
  rw [L1_eq m ρ c b, cp1_eq m ρ c b]; rfl

theorem arr8_apply (b : Fin 16) (j : Fin 512) :
    ((dat0 (V3 m ρ) c).arrAt 8 cfg0.N : S16x1x512.Idx → EReal) (ix3 b (0 : Fin 1) j) = h0 (params m c) (embed (m ((c : Thread nD τ).loc main_arg3)) (m ((c : Thread nD τ).loc main_arg4))) b tLast j := by
  refine (congrFun (Region0.arr8 (V3 m ρ) c) (ix3 b (0 : Fin 1) j)).trans ?_
  show hid (Region0.L0 (V3 m ρ) c b) (Region0.cp0 (V3 m ρ) c b) tLast j = _
  rw [L0_eq m ρ c b, cp0_eq m ρ c b]; rfl

theorem arr9_apply (b : Fin 16) (j : Fin 512) :
    ((dat0 (V3 m ρ) c).arrAt 9 cfg0.N : S16x1x512.Idx → EReal) (ix3 b (0 : Fin 1) j) = c0 (params m c) (embed (m ((c : Thread nD τ).loc main_arg3)) (m ((c : Thread nD τ).loc main_arg4))) b tLast j := by
  refine (congrFun (Region0.arr9 (V3 m ρ) c) (ix3 b (0 : Fin 1) j)).trans ?_
  show cell (Region0.L0 (V3 m ρ) c b) (Region0.cp0 (V3 m ρ) c b) tLast j = _
  rw [L0_eq m ρ c b, cp0_eq m ρ c b]; rfl

theorem arr10_apply (b : Fin 16) (j : Fin 512) :
    ((dat0 (V3 m ρ) c).arrAt 10 cfg0.N : S16x1x512.Idx → EReal) (ix3 b (0 : Fin 1) j) = h1 (params m c) (embed (m ((c : Thread nD τ).loc main_arg3)) (m ((c : Thread nD τ).loc main_arg4))) b tLast j := by
  refine (congrFun (Region0.arr10 (V3 m ρ) c) (ix3 b (0 : Fin 1) j)).trans ?_
  show hid (Region0.L1 (V3 m ρ) c b) (Region0.cp1 (V3 m ρ) c b) tLast j = _
  rw [L1_eq m ρ c b, cp1_eq m ρ c b]; rfl

theorem arr11_apply (b : Fin 16) (j : Fin 512) :
    ((dat0 (V3 m ρ) c).arrAt 11 cfg0.N : S16x1x512.Idx → EReal) (ix3 b (0 : Fin 1) j) = c1 (params m c) (embed (m ((c : Thread nD τ).loc main_arg3)) (m ((c : Thread nD τ).loc main_arg4))) b tLast j := by
  refine (congrFun (Region0.arr11 (V3 m ρ) c) (ix3 b (0 : Fin 1) j)).trans ?_
  show cell (Region0.L1 (V3 m ρ) c b) (Region0.cp1 (V3 m ρ) c b) tLast j = _
  rw [L1_eq m ρ c b, cp1_eq m ρ c b]; rfl

/-! ## The three results -/

/-- The first result is the logits. -/
theorem out0 : (W7 m ρ c (Proc.devRef .tc main_v38) : S16x128x32000.Idx → EReal)
    = logits (params m c) (embed (m ((c : Thread nD τ).loc main_arg3)) (m ((c : Thread nD τ).loc main_arg4))) (m ((c : Thread nD τ).loc main_arg9)) (m ((c : Thread nD τ).loc main_arg10)) := by
  funext i
  obtain ⟨b, t, v, rfl⟩ : ∃ (b : Fin 16) (t : Fin 128) (v : Fin 32000), i = ix3 b t v := ⟨i 0, i 1, i 2, eq_ix3 i⟩
  refine (W7_v38 m ρ c b t v).trans ?_
  refine (congrFun (Region1.arr3 (V5 m ρ) c) (ix2 (⟨b.val * 128 + t.val, by omega⟩ : Fin 2048) v)).trans ?_
  have hb : (⟨(b.val * 128 + t.val) / 128, by omega⟩ : Fin 16) = b := Fin.ext (by show (b.val * 128 + t.val) / 128 = b.val; omega)
  have ht : (⟨(b.val * 128 + t.val) % 128, by omega⟩ : Fin 128) = t := Fin.ext (by show (b.val * 128 + t.val) % 128 = t.val; omega)
  have p1 : (fun h : Fin 512 => (V5 m ρ c main_v35 : S2048x512.Idx → EReal) (ix2 (⟨b.val * 128 + t.val, by omega⟩ : Fin 2048) h))
      = h1 (params m c) (embed (m ((c : Thread nD τ).loc main_arg3)) (m ((c : Thread nD τ).loc main_arg4))) b t := funext fun h => by
    refine (V5_v35 m ρ c (⟨b.val * 128 + t.val, by omega⟩ : Fin 2048) h).trans ?_
    show ((dat0 (V3 m ρ) c).arrAt 7 cfg0.N : S16x128x512.Idx → EReal)
      (ix3 (⟨(b.val * 128 + t.val) / 128, by omega⟩ : Fin 16) (⟨(b.val * 128 + t.val) % 128, by omega⟩ : Fin 128) h) = _
    rw [hb, ht]
    exact arr7_apply m ρ c b t h
  have p2 : (fun h : Fin 512 => (V5 m ρ c main_arg9 : S32000x512.Idx → EReal) (ix2 v h))
      = fun h => ((m ((c : Thread nD τ).loc main_arg9)) : S32000x512.Idx → EReal) (ix2 v h) :=
    funext fun h => congrFun (V5_arg9 m ρ c) (ix2 v h)
  have p3 : (V5 m ρ c main_v36 : S1x32000.Idx → EReal) (ix2 (0 : Fin 1) v) = ((m ((c : Thread nD τ).loc main_arg10)) : S32000.Idx → EReal) (ix1 v) :=
    V5_v36 m ρ c v
  show proj _ _ _ = proj _ _ _
  exact congr (congr (congrArg proj p1) p2) p3

/-- The second result is the last hidden states. -/
theorem out1 : (W7 m ρ c (Proc.devRef .tc main_v43) : S2x16x512.Idx → EReal) = hLast (params m c) (embed (m ((c : Thread nD τ).loc main_arg3)) (m ((c : Thread nD τ).loc main_arg4))) := by
  funext i
  obtain ⟨l, b, j, rfl⟩ : ∃ (l : Fin 2) (b : Fin 16) (j : Fin 512), i = ix3 l b j := ⟨i 0, i 1, i 2, eq_ix3 i⟩
  refine (W7_v43 m ρ c l b j).trans ?_
  show _ = if l.val = 0 then h0 (params m c) (embed (m ((c : Thread nD τ).loc main_arg3)) (m ((c : Thread nD τ).loc main_arg4))) b tLast j else h1 (params m c) (embed (m ((c : Thread nD τ).loc main_arg3)) (m ((c : Thread nD τ).loc main_arg4))) b tLast j
  by_cases hl : l.val = 0
  · rw [if_pos hl, if_pos hl]; exact arr8_apply m ρ c b j
  · rw [if_neg hl, if_neg hl]; exact arr10_apply m ρ c b j

/-- The third result is the last cell states. -/
theorem out2 : (W7 m ρ c (Proc.devRef .tc main_v48) : S2x16x512.Idx → EReal) = cLast (params m c) (embed (m ((c : Thread nD τ).loc main_arg3)) (m ((c : Thread nD τ).loc main_arg4))) := by
  funext i
  obtain ⟨l, b, j, rfl⟩ : ∃ (l : Fin 2) (b : Fin 16) (j : Fin 512), i = ix3 l b j := ⟨i 0, i 1, i 2, eq_ix3 i⟩
  refine (W7_v48 m ρ c l b j).trans ?_
  show _ = if l.val = 0 then c0 (params m c) (embed (m ((c : Thread nD τ).loc main_arg3)) (m ((c : Thread nD τ).loc main_arg4))) b tLast j else c1 (params m c) (embed (m ((c : Thread nD τ).loc main_arg3)) (m ((c : Thread nD τ).loc main_arg4))) b tLast j
  by_cases hl : l.val = 0
  · rw [if_pos hl, if_pos hl]; exact arr9_apply m ρ c b j
  · rw [if_neg hl, if_neg hl]; exact arr11_apply m ρ c b j

/-- The kernel program's run: it terminates, its three results are the specification's at the launched arguments,
    and the arguments are as launched. -/
theorem kernel_values : θ_run defs (onTc (τ := τ) (main (F := Ideal))) ⟨m, fun _ => 0, ρ⟩ (fun r => ∀ c : Dev nD,
      r.2.mem ((c.tc : Thread nD τ).loc main_v38) = logits (params m c) (embed (m ((c : Thread nD τ).loc main_arg3)) (m ((c : Thread nD τ).loc main_arg4))) (m ((c : Thread nD τ).loc main_arg9)) (m ((c : Thread nD τ).loc main_arg10))
      ∧ r.2.mem ((c.tc : Thread nD τ).loc main_v43) = hLast (params m c) (embed (m ((c : Thread nD τ).loc main_arg3)) (m ((c : Thread nD τ).loc main_arg4)))
      ∧ r.2.mem ((c.tc : Thread nD τ).loc main_v48) = cLast (params m c) (embed (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c).1.trans (out0 m ρ c), (h c).2.1.trans (out1 m ρ c), (h c).2.2.1.trans (out2 m ρ c), (h c).2.2.2⟩)
    (run_values (F := Ideal) m ρ)

end Cert.KernelIdeal.Glue

end
-- ==== Proof.RefLayer0.lean ====
import proofs.«123488_j77790447665279_2_alg».proof.Proof.Spec
import proofs.«123488_j77790447665279_2_alg».proof.Proof.Gen.ReferenceIdeal.Read

/-!
  The reference program's first layer, read at an index.

  Every operation of the reference writes an array; an element of it is an element (or a sum of products of
  elements) of its operands at indices computed from the literal shapes.  This module follows layer 0 from the
  arguments to the gate pre-activations, the new cell state and the new hidden state, and identifies each, element
  by element, with the specification's g0, c0 and h0.  The embedded input (the looked-up and rectified token rows)
  is carried as one opaque array.
-/

noncomputable section

namespace Cert.ReferenceIdeal.RefValue

open Cert.ReferenceIdeal Cert.ReferenceIdeal.Gen Cert.ReferenceIdeal.Read Idealize.ShloMosaic Idealize.ShloMosaic.ValueIdx Cert.Lstm

/-! ## Indices by their coordinates -/

/-- Two rank-3 indices with the same coordinates are equal. -/
theorem idx3_ext {n0 n1 n2 : Nat} (i j : (⟨3, ![n0, n1, n2]⟩ : Shape).Idx)
    (h0 : (i 0).val = (j 0).val) (h1 : (i 1).val = (j 1).val) (h2 : (i 2).val = (j 2).val) : i = j := by
  funext a; refine Fin.ext ?_
  match a with
  | ⟨0, _⟩ => exact h0
  | ⟨1, _⟩ => exact h1
  | ⟨2, _⟩ => exact h2

/-- Two rank-2 indices with the same coordinates are equal. -/
theorem idx2_ext {n0 n1 : Nat} (i j : (⟨2, ![n0, n1]⟩ : Shape).Idx)
    (h0 : (i 0).val = (j 0).val) (h1 : (i 1).val = (j 1).val) : i = j := by
  funext a; refine Fin.ext ?_
  match a with
  | ⟨0, _⟩ => exact h0
  | ⟨1, _⟩ => exact h1

/-- Two rank-1 indices with the same coordinate are equal. -/
theorem idx1_ext {n0 : Nat} (i j : (⟨1, ![n0]⟩ : Shape).Idx) (h0 : (i 0).val = (j 0).val) : i = j := by
  funext a; refine Fin.ext ?_
  match a with
  | ⟨0, _⟩ => exact h0

theorem ix3_v0 {n0 n1 n2 : Nat} (a : Fin n0) (b : Fin n1) (c : Fin n2) : ((ix3 a b c) 0).val = a.val := rfl
theorem ix3_v1 {n0 n1 n2 : Nat} (a : Fin n0) (b : Fin n1) (c : Fin n2) : ((ix3 a b c) 1).val = b.val := rfl
theorem ix3_v2 {n0 n1 n2 : Nat} (a : Fin n0) (b : Fin n1) (c : Fin n2) : ((ix3 a b c) 2).val = c.val := rfl
theorem ix2_v0 {n0 n1 : Nat} (a : Fin n0) (b : Fin n1) : ((ix2 a b) 0).val = a.val := rfl
theorem ix2_v1 {n0 n1 : Nat} (a : Fin n0) (b : Fin n1) : ((ix2 a b) 1).val = b.val := rfl
theorem ix1_v0 {n0 : Nat} (a : Fin n0) : ((ix1 a) 0).val = a.val := rfl

/-- Reduce the coordinates of composed index functions to arithmetic on the coordinates' values and close it. -/
macro "ixs" : tactic =>
  `(tactic| (have h00 : ((0 : Fin 1) : Nat) = 0 := rfl; have h01 : ((0 : Fin 2) : Nat) = 0 := rfl; have h11 : ((1 : Fin 2) : Nat) = 1 := rfl; (try dsimp only [ix3_v0, ix3_v1, ix3_v2, ix2_v0, ix2_v1, ix1_v0, col0, col1, col2, col3, tLast]); (try omega)))

/-- The decoder's parameters, from the program's arguments. -/
def params (x1 x2 : (⟨S2x16x512, .f32⟩ : BufTy).Contents (Elt Ideal)) (x5 x6 : (⟨S2x2048x512, .f32⟩ : BufTy).Contents (Elt Ideal))
    (x7 x8 : (⟨S2x2048, .f32⟩ : BufTy).Contents (Elt Ideal)) : Cert.Lstm.Params :=
  { eh := x1, ec := x2, Wih := x5, Whh := x6, bih := x7, bhh := x8 }

variable (x1 x2 : (⟨S2x16x512, .f32⟩ : BufTy).Contents (Elt Ideal)) (x3 : (⟨S16x128, .i32⟩ : BufTy).Contents (Elt Ideal))
  (x4 : (⟨S32000x512, .f32⟩ : BufTy).Contents (Elt Ideal)) (x5 x6 : (⟨S2x2048x512, .f32⟩ : BufTy).Contents (Elt Ideal))
  (x7 x8 : (⟨S2x2048, .f32⟩ : BufTy).Contents (Elt Ideal))

/-! ## Layer 0: the sliced and reshaped parameters -/

/-- Layer 0's input matrix: slice 0 of the stacked matrices, its leading unit axis dropped. -/
theorem v17_read (g : Fin 2048) (k : Fin 512) : val_main_v17 (F := Ideal) x5 (ix2 g k) = x5 (ix3 (0 : Fin 2) g k) := by
  rw [val_main_v17_apply, val_main_v16_apply]
  have := g.isLt; have := k.isLt
  refine congrArg x5 (idx3_ext _ _ ?_ ?_ ?_) <;> ixs

/-- Layer 0's recurrent matrix. -/
theorem v25_read (g : Fin 2048) (k : Fin 512) : val_main_v25 (F := Ideal) x6 (ix2 g k) = x6 (ix3 (0 : Fin 2) g k) := by
  rw [val_main_v25_apply, val_main_v24_apply]
  have := g.isLt; have := k.isLt
  refine congrArg x6 (idx3_ext _ _ ?_ ?_ ?_) <;> ixs

/-- Layer 0's previous hidden state. -/
theorem v12_read (b : Fin 16) (k : Fin 512) : val_main_v12 (F := Ideal) x1 (ix2 b k) = x1 (ix3 (0 : Fin 2) b k) := by
  rw [val_main_v12_apply, val_main_v11_apply]
  have := b.isLt; have := k.isLt
  refine congrArg x1 (idx3_ext _ _ ?_ ?_ ?_) <;> ixs

/-- Layer 0's input bias, broadcast over batch and time. -/
theorem v22_read (b : Fin 16) (t : Fin 128) (g : Fin 2048) :
    val_main_v22 (F := Ideal) x7 (ix3 b t g) = x7 (ix2 (0 : Fin 2) g) := by
  rw [val_main_v22_apply, val_main_v21_apply, val_main_v20_apply, val_main_v19_apply]
  have := g.isLt
  refine congrArg x7 (idx2_ext _ _ ?_ ?_) <;> ixs

/-- Layer 0's recurrent bias, broadcast over the batch. -/
theorem v30_read (b : Fin 16) (g : Fin 2048) :
    val_main_v30 (F := Ideal) x8 (ix2 b g) = x8 (ix2 (0 : Fin 2) g) := by
  rw [val_main_v30_apply, val_main_v29_apply, val_main_v28_apply, val_main_v27_apply]
  have := g.isLt
  refine congrArg x8 (idx2_ext _ _ ?_ ?_) <;> ixs

/-- Layer 0's previous cell state, broadcast over time. -/
theorem v45_read (b : Fin 16) (t : Fin 128) (j : Fin 512) :
    val_main_v45 (F := Ideal) x2 (ix3 b t j) = x2 (ix3 (0 : Fin 2) b j) := by
  rw [val_main_v45_apply, val_main_v15_apply, val_main_v14_apply, val_main_v13_apply]
  have := b.isLt; have := j.isLt
  refine congrArg x2 (idx3_ext _ _ ?_ ?_ ?_) <;> ixs

/-! ## Layer 0: the two products and the gates -/

/-- The input product: row (b, t) of the layer's input against row g of the input matrix. -/
theorem v18_read (b : Fin 16) (t : Fin 128) (g : Fin 2048) :
    val_main_v18 (F := Ideal) x3 x4 x5 (ix3 b t g)
      = ∑ k : Fin 512, (val_main_v10 (F := Ideal) x3 x4) (ix3 b t k) * x5 (ix3 (0 : Fin 2) g k) := by
  rw [val_main_v18_apply]
  refine Finset.sum_congr rfl fun k _ => ?_
  have el : lidx_main_v18 (ix3 b t g) k = ix3 b t k := by
    refine idx3_ext _ _ ?_ ?_ ?_ <;> ixs
  have er : ridx_main_v18 (ix3 b t g) k = ix2 g k := by
    refine idx2_ext _ _ ?_ ?_ <;> ixs
  rw [el, er, v17_read]

/-- The recurrent product: the previous hidden row of batch element b against row g of the recurrent matrix. -/
theorem v26_read (b : Fin 16) (g : Fin 2048) :
    val_main_v26 (F := Ideal) x1 x6 (ix2 b g) = ∑ k : Fin 512, x1 (ix3 (0 : Fin 2) b k) * x6 (ix3 (0 : Fin 2) g k) := by
  rw [val_main_v26_apply]
  refine Finset.sum_congr rfl fun k _ => ?_
  have el : lidx_main_v26 (ix2 b g) k = ix2 b k := by
    refine idx2_ext _ _ ?_ ?_ <;> ixs
  have er : ridx_main_v26 (ix2 b g) k = ix2 g k := by
    refine idx2_ext _ _ ?_ ?_ <;> ixs
  rw [el, er, v12_read, v25_read]

/-- The recurrent product plus the recurrent bias, broadcast over time. -/
theorem v33_read (b : Fin 16) (t : Fin 128) (g : Fin 2048) :
    val_main_v33 (F := Ideal) x1 x6 x8 (ix3 b t g)
      = (∑ k : Fin 512, x1 (ix3 (0 : Fin 2) b k) * x6 (ix3 (0 : Fin 2) g k)) + x8 (ix2 (0 : Fin 2) g) := by
  rw [val_main_v33_apply, val_main_v32_apply]
  have e : idx_main_v32 (idx_main_v33 (ix3 b t g)) = ix2 b g := by
    refine idx2_ext _ _ ?_ ?_ <;> ixs
  rw [e, val_main_v31_apply, Ideal.addf_def, v26_read, v30_read]

/-- Layer 0's gate pre-activations are the specification's: the program adds (input product + input bias) to
    (recurrent product + recurrent bias), the specification adds the input product to the collected bias. -/
theorem v34_read (b : Fin 16) (t : Fin 128) (g : Fin 2048) :
    val_main_v34 (F := Ideal) x1 x3 x4 x5 x6 x7 x8 (ix3 b t g) = g0 (params x1 x2 x5 x6 x7 x8) (val_main_v10 (F := Ideal) x3 x4) b t g := by
  rw [val_main_v34_apply, val_main_v23_apply, Ideal.addf_def, Ideal.addf_def, v18_read, v22_read, v33_read]
  exact regroup _ _ _ _

/-! ## Layer 0: the four gate groups -/

/-- The input gate's columns. -/
theorem v35_read (b : Fin 16) (t : Fin 128) (j : Fin 512) :
    val_main_v35 (F := Ideal) x1 x3 x4 x5 x6 x7 x8 (ix3 b t j) = g0 (params x1 x2 x5 x6 x7 x8) (val_main_v10 (F := Ideal) x3 x4) b t (col0 j) := by
  rw [val_main_v35_apply]
  have e : idx_main_v35 (ix3 b t j) = ix3 b t (col0 j) := by
    have := j.isLt
    refine idx3_ext _ _ ?_ ?_ ?_ <;> ixs
  rw [e, v34_read x1 x2 x3 x4 x5 x6 x7 x8]

/-- The forget gate's columns. -/
theorem v36_read (b : Fin 16) (t : Fin 128) (j : Fin 512) :
    val_main_v36 (F := Ideal) x1 x3 x4 x5 x6 x7 x8 (ix3 b t j) = g0 (params x1 x2 x5 x6 x7 x8) (val_main_v10 (F := Ideal) x3 x4) b t (col1 j) := by
  rw [val_main_v36_apply]
  have e : idx_main_v36 (ix3 b t j) = ix3 b t (col1 j) := by
    have := j.isLt
    refine idx3_ext _ _ ?_ ?_ ?_ <;> ixs
  rw [e, v34_read x1 x2 x3 x4 x5 x6 x7 x8]

/-- The cell-candidate gate's columns. -/
theorem v37_read (b : Fin 16) (t : Fin 128) (j : Fin 512) :
    val_main_v37 (F := Ideal) x1 x3 x4 x5 x6 x7 x8 (ix3 b t j) = g0 (params x1 x2 x5 x6 x7 x8) (val_main_v10 (F := Ideal) x3 x4) b t (col2 j) := by
  rw [val_main_v37_apply]
  have e : idx_main_v37 (ix3 b t j) = ix3 b t (col2 j) := by
    have := j.isLt
    refine idx3_ext _ _ ?_ ?_ ?_ <;> ixs
  rw [e, v34_read x1 x2 x3 x4 x5 x6 x7 x8]

/-- The output gate's columns. -/
theorem v38_read (b : Fin 16) (t : Fin 128) (j : Fin 512) :
    val_main_v38 (F := Ideal) x1 x3 x4 x5 x6 x7 x8 (ix3 b t j) = g0 (params x1 x2 x5 x6 x7 x8) (val_main_v10 (F := Ideal) x3 x4) b t (col3 j) := by
  rw [val_main_v38_apply]
  have e : idx_main_v38 (ix3 b t j) = ix3 b t (col3 j) := by
    have := j.isLt
    refine idx3_ext _ _ ?_ ?_ ?_ <;> ixs
  rw [e, v34_read x1 x2 x3 x4 x5 x6 x7 x8]

/-! ## Layer 0: the logistic gates, the cell state and the hidden state -/

/-- The forget gate: the program spells the logistic function as 1 / (1 + exp (-x)). -/
theorem v44_read (b : Fin 16) (t : Fin 128) (j : Fin 512) :
    val_main_v44 (F := Ideal) x1 x3 x4 x5 x6 x7 x8 (ix3 b t j) = Ideal.logistic (g0 (params x1 x2 x5 x6 x7 x8) (val_main_v10 (F := Ideal) x3 x4) b t (col1 j)) := by
  rw [val_main_v44_apply, val_main_v43_apply, val_main_cst_2_apply, val_main_v42_apply, val_main_v41_apply, val_main_cst_apply, val_main_v40_apply, val_main_v39_apply, v36_read x1 x2 x3 x4 x5 x6 x7 x8]
  simp only [Ideal.hostDivf_def, Ideal.addf_def, Ideal.hostUnary_exp_def, Ideal.hostNegf_def, Ideal.negf_def, Ideal.ofBits_def]
  exact logistic_spelt _

/-- The input gate. -/
theorem v52_read (b : Fin 16) (t : Fin 128) (j : Fin 512) :
    val_main_v52 (F := Ideal) x1 x3 x4 x5 x6 x7 x8 (ix3 b t j) = Ideal.logistic (g0 (params x1 x2 x5 x6 x7 x8) (val_main_v10 (F := Ideal) x3 x4) b t (col0 j)) := by
  rw [val_main_v52_apply, val_main_v51_apply, val_main_cst_4_apply, val_main_v50_apply, val_main_v49_apply, val_main_cst_3_apply, val_main_v48_apply, val_main_v47_apply, v35_read x1 x2 x3 x4 x5 x6 x7 x8]
  simp only [Ideal.hostDivf_def, Ideal.addf_def, Ideal.hostUnary_exp_def, Ideal.hostNegf_def, Ideal.negf_def, Ideal.ofBits_def]
  exact logistic_spelt _

/-- The output gate. -/
theorem v61_read (b : Fin 16) (t : Fin 128) (j : Fin 512) :
    val_main_v61 (F := Ideal) x1 x3 x4 x5 x6 x7 x8 (ix3 b t j) = Ideal.logistic (g0 (params x1 x2 x5 x6 x7 x8) (val_main_v10 (F := Ideal) x3 x4) b t (col3 j)) := by
  rw [val_main_v61_apply, val_main_v60_apply, val_main_cst_6_apply, val_main_v59_apply, val_main_v58_apply, val_main_cst_5_apply, val_main_v57_apply, val_main_v56_apply, v38_read x1 x2 x3 x4 x5 x6 x7 x8]
  simp only [Ideal.hostDivf_def, Ideal.addf_def, Ideal.hostUnary_exp_def, Ideal.hostNegf_def, Ideal.negf_def, Ideal.ofBits_def]
  exact logistic_spelt _

/-- The new cell state is the specification's. -/
theorem v55_read (b : Fin 16) (t : Fin 128) (j : Fin 512) :
    val_main_v55 (F := Ideal) x1 x2 x3 x4 x5 x6 x7 x8 (ix3 b t j) = c0 (params x1 x2 x5 x6 x7 x8) (val_main_v10 (F := Ideal) x3 x4) b t j := by
  rw [val_main_v55_apply, val_main_v46_apply, val_main_v54_apply, v44_read x1 x2 x3 x4 x5 x6 x7 x8, v45_read, v52_read x1 x2 x3 x4 x5 x6 x7 x8, val_main_v53_apply, v37_read x1 x2 x3 x4 x5 x6 x7 x8]
  simp only [Ideal.addf_def, Ideal.mulf_def, Ideal.hostUnary_tanh_def]
  rfl

/-- The new hidden state is the specification's. -/
theorem v63_read (b : Fin 16) (t : Fin 128) (j : Fin 512) :
    val_main_v63 (F := Ideal) x1 x2 x3 x4 x5 x6 x7 x8 (ix3 b t j) = h0 (params x1 x2 x5 x6 x7 x8) (val_main_v10 (F := Ideal) x3 x4) b t j := by
  rw [val_main_v63_apply, v61_read x1 x2 x3 x4 x5 x6 x7 x8, val_main_v62_apply, v55_read]
  simp only [Ideal.mulf_def, Ideal.hostUnary_tanh_def]
  rfl

end Cert.ReferenceIdeal.RefValue

end
-- ==== Proof.RefLayer1.lean ====
import proofs.«123488_j77790447665279_2_alg».proof.Proof.RefLayer0

/-!
  The reference program's second layer, read at an index: the same operations as the first layer on slice 1 of
  the stacked parameters, its input rows the first layer's hidden rows.
-/

noncomputable section

namespace Cert.ReferenceIdeal.RefValue

open Cert.ReferenceIdeal Cert.ReferenceIdeal.Gen Cert.ReferenceIdeal.Read Idealize.ShloMosaic Idealize.ShloMosaic.ValueIdx Cert.Lstm

variable (x1 x2 : (⟨S2x16x512, .f32⟩ : BufTy).Contents (Elt Ideal)) (x3 : (⟨S16x128, .i32⟩ : BufTy).Contents (Elt Ideal))
  (x4 : (⟨S32000x512, .f32⟩ : BufTy).Contents (Elt Ideal)) (x5 x6 : (⟨S2x2048x512, .f32⟩ : BufTy).Contents (Elt Ideal))
  (x7 x8 : (⟨S2x2048, .f32⟩ : BufTy).Contents (Elt Ideal))

/-! ## Layer 1: the sliced and reshaped parameters -/

/-- Layer 1's input matrix: slice 1 of the stacked matrices, its leading unit axis dropped. -/
theorem v74_read (g : Fin 2048) (k : Fin 512) : val_main_v74 (F := Ideal) x5 (ix2 g k) = x5 (ix3 (1 : Fin 2) g k) := by
  rw [val_main_v74_apply, val_main_v73_apply]
  have := g.isLt; have := k.isLt
  refine congrArg x5 (idx3_ext _ _ ?_ ?_ ?_) <;> ixs

/-- Layer 1's recurrent matrix. -/
theorem v82_read (g : Fin 2048) (k : Fin 512) : val_main_v82 (F := Ideal) x6 (ix2 g k) = x6 (ix3 (1 : Fin 2) g k) := by
  rw [val_main_v82_apply, val_main_v81_apply]
  have := g.isLt; have := k.isLt
  refine congrArg x6 (idx3_ext _ _ ?_ ?_ ?_) <;> ixs

/-- Layer 1's previous hidden state. -/
theorem v69_read (b : Fin 16) (k : Fin 512) : val_main_v69 (F := Ideal) x1 (ix2 b k) = x1 (ix3 (1 : Fin 2) b k) := by
  rw [val_main_v69_apply, val_main_v68_apply]
  have := b.isLt; have := k.isLt
  refine congrArg x1 (idx3_ext _ _ ?_ ?_ ?_) <;> ixs

/-- Layer 1's input bias, broadcast over batch and time. -/
theorem v79_read (b : Fin 16) (t : Fin 128) (g : Fin 2048) :
    val_main_v79 (F := Ideal) x7 (ix3 b t g) = x7 (ix2 (1 : Fin 2) g) := by
  rw [val_main_v79_apply, val_main_v78_apply, val_main_v77_apply, val_main_v76_apply]
  have := g.isLt
  refine congrArg x7 (idx2_ext _ _ ?_ ?_) <;> ixs

/-- Layer 1's recurrent bias, broadcast over the batch. -/
theorem v87_read (b : Fin 16) (g : Fin 2048) :
    val_main_v87 (F := Ideal) x8 (ix2 b g) = x8 (ix2 (1 : Fin 2) g) := by
  rw [val_main_v87_apply, val_main_v86_apply, val_main_v85_apply, val_main_v84_apply]
  have := g.isLt
  refine congrArg x8 (idx2_ext _ _ ?_ ?_) <;> ixs

/-- Layer 1's previous cell state, broadcast over time. -/
theorem v102_read (b : Fin 16) (t : Fin 128) (j : Fin 512) :
    val_main_v102 (F := Ideal) x2 (ix3 b t j) = x2 (ix3 (1 : Fin 2) b j) := by
  rw [val_main_v102_apply, val_main_v72_apply, val_main_v71_apply, val_main_v70_apply]
  have := b.isLt; have := j.isLt
  refine congrArg x2 (idx3_ext _ _ ?_ ?_ ?_) <;> ixs

/-! ## Layer 1: the two products and the gates -/

/-- The input product: row (b, t) of the layer's input against row g of the input matrix. -/
theorem v75_read (b : Fin 16) (t : Fin 128) (g : Fin 2048) :
    val_main_v75 (F := Ideal) x1 x2 x3 x4 x5 x6 x7 x8 (ix3 b t g)
      = ∑ k : Fin 512, h0 (params x1 x2 x5 x6 x7 x8) (val_main_v10 (F := Ideal) x3 x4) b t k * x5 (ix3 (1 : Fin 2) g k) := by
  rw [val_main_v75_apply]
  refine Finset.sum_congr rfl fun k _ => ?_
  have el : lidx_main_v75 (ix3 b t g) k = ix3 b t k := by
    refine idx3_ext _ _ ?_ ?_ ?_ <;> ixs
  have er : ridx_main_v75 (ix3 b t g) k = ix2 g k := by
    refine idx2_ext _ _ ?_ ?_ <;> ixs
  rw [el, er, v74_read, v63_read x1 x2 x3 x4 x5 x6 x7 x8]

/-- The recurrent product: the previous hidden row of batch element b against row g of the recurrent matrix. -/
theorem v83_read (b : Fin 16) (g : Fin 2048) :
    val_main_v83 (F := Ideal) x1 x6 (ix2 b g) = ∑ k : Fin 512, x1 (ix3 (1 : Fin 2) b k) * x6 (ix3 (1 : Fin 2) g k) := by
  rw [val_main_v83_apply]
  refine Finset.sum_congr rfl fun k _ => ?_
  have el : lidx_main_v83 (ix2 b g) k = ix2 b k := by
    refine idx2_ext _ _ ?_ ?_ <;> ixs
  have er : ridx_main_v83 (ix2 b g) k = ix2 g k := by
    refine idx2_ext _ _ ?_ ?_ <;> ixs
  rw [el, er, v69_read, v82_read]

/-- The recurrent product plus the recurrent bias, broadcast over time. -/
theorem v90_read (b : Fin 16) (t : Fin 128) (g : Fin 2048) :
    val_main_v90 (F := Ideal) x1 x6 x8 (ix3 b t g)
      = (∑ k : Fin 512, x1 (ix3 (1 : Fin 2) b k) * x6 (ix3 (1 : Fin 2) g k)) + x8 (ix2 (1 : Fin 2) g) := by
  rw [val_main_v90_apply, val_main_v89_apply]
  have e : idx_main_v89 (idx_main_v90 (ix3 b t g)) = ix2 b g := by
    refine idx2_ext _ _ ?_ ?_ <;> ixs
  rw [e, val_main_v88_apply, Ideal.addf_def, v83_read, v87_read]

/-- Layer 1's gate pre-activations are the specification's: the program adds (input product + input bias) to
    (recurrent product + recurrent bias), the specification adds the input product to the collected bias. -/
theorem v91_read (b : Fin 16) (t : Fin 128) (g : Fin 2048) :
    val_main_v91 (F := Ideal) x1 x2 x3 x4 x5 x6 x7 x8 (ix3 b t g) = g1 (params x1 x2 x5 x6 x7 x8) (val_main_v10 (F := Ideal) x3 x4) b t g := by
  rw [val_main_v91_apply, val_main_v80_apply, Ideal.addf_def, Ideal.addf_def, v75_read, v79_read, v90_read]
  exact regroup _ _ _ _

/-! ## Layer 1: the four gate groups -/

/-- The input gate's columns. -/
theorem v92_read (b : Fin 16) (t : Fin 128) (j : Fin 512) :
    val_main_v92 (F := Ideal) x1 x2 x3 x4 x5 x6 x7 x8 (ix3 b t j) = g1 (params x1 x2 x5 x6 x7 x8) (val_main_v10 (F := Ideal) x3 x4) b t (col0 j) := by
  rw [val_main_v92_apply]
  have e : idx_main_v92 (ix3 b t j) = ix3 b t (col0 j) := by
    have := j.isLt
    refine idx3_ext _ _ ?_ ?_ ?_ <;> ixs
  rw [e, v91_read x1 x2 x3 x4 x5 x6 x7 x8]

/-- The forget gate's columns. -/
theorem v93_read (b : Fin 16) (t : Fin 128) (j : Fin 512) :
    val_main_v93 (F := Ideal) x1 x2 x3 x4 x5 x6 x7 x8 (ix3 b t j) = g1 (params x1 x2 x5 x6 x7 x8) (val_main_v10 (F := Ideal) x3 x4) b t (col1 j) := by
  rw [val_main_v93_apply]
  have e : idx_main_v93 (ix3 b t j) = ix3 b t (col1 j) := by
    have := j.isLt
    refine idx3_ext _ _ ?_ ?_ ?_ <;> ixs
  rw [e, v91_read x1 x2 x3 x4 x5 x6 x7 x8]

/-- The cell-candidate gate's columns. -/
theorem v94_read (b : Fin 16) (t : Fin 128) (j : Fin 512) :
    val_main_v94 (F := Ideal) x1 x2 x3 x4 x5 x6 x7 x8 (ix3 b t j) = g1 (params x1 x2 x5 x6 x7 x8) (val_main_v10 (F := Ideal) x3 x4) b t (col2 j) := by
  rw [val_main_v94_apply]
  have e : idx_main_v94 (ix3 b t j) = ix3 b t (col2 j) := by
    have := j.isLt
    refine idx3_ext _ _ ?_ ?_ ?_ <;> ixs
  rw [e, v91_read x1 x2 x3 x4 x5 x6 x7 x8]

/-- The output gate's columns. -/
theorem v95_read (b : Fin 16) (t : Fin 128) (j : Fin 512) :
    val_main_v95 (F := Ideal) x1 x2 x3 x4 x5 x6 x7 x8 (ix3 b t j) = g1 (params x1 x2 x5 x6 x7 x8) (val_main_v10 (F := Ideal) x3 x4) b t (col3 j) := by
  rw [val_main_v95_apply]
  have e : idx_main_v95 (ix3 b t j) = ix3 b t (col3 j) := by
    have := j.isLt
    refine idx3_ext _ _ ?_ ?_ ?_ <;> ixs
  rw [e, v91_read x1 x2 x3 x4 x5 x6 x7 x8]

/-! ## Layer 1: the logistic gates, the cell state and the hidden state -/

/-- The forget gate: the program spells the logistic function as 1 / (1 + exp (-x)). -/
theorem v101_read (b : Fin 16) (t : Fin 128) (j : Fin 512) :
    val_main_v101 (F := Ideal) x1 x2 x3 x4 x5 x6 x7 x8 (ix3 b t j) = Ideal.logistic (g1 (params x1 x2 x5 x6 x7 x8) (val_main_v10 (F := Ideal) x3 x4) b t (col1 j)) := by
  rw [val_main_v101_apply, val_main_v100_apply, val_main_cst_8_apply, val_main_v99_apply, val_main_v98_apply, val_main_cst_7_apply, val_main_v97_apply, val_main_v96_apply, v93_read x1 x2 x3 x4 x5 x6 x7 x8]
  simp only [Ideal.hostDivf_def, Ideal.addf_def, Ideal.hostUnary_exp_def, Ideal.hostNegf_def, Ideal.negf_def, Ideal.ofBits_def]
  exact logistic_spelt _

/-- The input gate. -/
theorem v109_read (b : Fin 16) (t : Fin 128) (j : Fin 512) :
    val_main_v109 (F := Ideal) x1 x2 x3 x4 x5 x6 x7 x8 (ix3 b t j) = Ideal.logistic (g1 (params x1 x2 x5 x6 x7 x8) (val_main_v10 (F := Ideal) x3 x4) b t (col0 j)) := by
  rw [val_main_v109_apply, val_main_v108_apply, val_main_cst_10_apply, val_main_v107_apply, val_main_v106_apply, val_main_cst_9_apply, val_main_v105_apply, val_main_v104_apply, v92_read x1 x2 x3 x4 x5 x6 x7 x8]
  simp only [Ideal.hostDivf_def, Ideal.addf_def, Ideal.hostUnary_exp_def, Ideal.hostNegf_def, Ideal.negf_def, Ideal.ofBits_def]
  exact logistic_spelt _

/-- The output gate. -/
theorem v118_read (b : Fin 16) (t : Fin 128) (j : Fin 512) :
    val_main_v118 (F := Ideal) x1 x2 x3 x4 x5 x6 x7 x8 (ix3 b t j) = Ideal.logistic (g1 (params x1 x2 x5 x6 x7 x8) (val_main_v10 (F := Ideal) x3 x4) b t (col3 j)) := by
  rw [val_main_v118_apply, val_main_v117_apply, val_main_cst_12_apply, val_main_v116_apply, val_main_v115_apply, val_main_cst_11_apply, val_main_v114_apply, val_main_v113_apply, v95_read x1 x2 x3 x4 x5 x6 x7 x8]
  simp only [Ideal.hostDivf_def, Ideal.addf_def, Ideal.hostUnary_exp_def, Ideal.hostNegf_def, Ideal.negf_def, Ideal.ofBits_def]
  exact logistic_spelt _

/-- The new cell state is the specification's. -/
theorem v112_read (b : Fin 16) (t : Fin 128) (j : Fin 512) :
    val_main_v112 (F := Ideal) x1 x2 x3 x4 x5 x6 x7 x8 (ix3 b t j) = c1 (params x1 x2 x5 x6 x7 x8) (val_main_v10 (F := Ideal) x3 x4) b t j := by
  rw [val_main_v112_apply, val_main_v103_apply, val_main_v111_apply, v101_read x1 x2 x3 x4 x5 x6 x7 x8, v102_read, v109_read x1 x2 x3 x4 x5 x6 x7 x8, val_main_v110_apply, v94_read x1 x2 x3 x4 x5 x6 x7 x8]
  simp only [Ideal.addf_def, Ideal.mulf_def, Ideal.hostUnary_tanh_def]
  rfl

/-- The new hidden state is the specification's. -/
theorem v120_read (b : Fin 16) (t : Fin 128) (j : Fin 512) :
    val_main_v120 (F := Ideal) x1 x2 x3 x4 x5 x6 x7 x8 (ix3 b t j) = h1 (params x1 x2 x5 x6 x7 x8) (val_main_v10 (F := Ideal) x3 x4) b t j := by
  rw [val_main_v120_apply, v118_read x1 x2 x3 x4 x5 x6 x7 x8, val_main_v119_apply, v112_read]
  simp only [Ideal.mulf_def, Ideal.hostUnary_tanh_def]
  rfl

end Cert.ReferenceIdeal.RefValue

end
-- ==== Proof.RefValue.lean ====
import proofs.«123488_j77790447665279_2_alg».proof.Proof.RefLayer1

/-!
  The reference program's three results are the specification's: the logits (the second layer's hidden rows
  against the output matrix, plus the output bias) and the hidden and cell states after the last time step.
-/

noncomputable section

namespace Cert.ReferenceIdeal.RefValue

open Cert.ReferenceIdeal Cert.ReferenceIdeal.Gen Cert.ReferenceIdeal.Read Idealize.ShloMosaic Idealize.ShloMosaic.ValueIdx Cert.Lstm

variable (x1 x2 : (⟨S2x16x512, .f32⟩ : BufTy).Contents (Elt Ideal)) (x3 : (⟨S16x128, .i32⟩ : BufTy).Contents (Elt Ideal))
  (x4 : (⟨S32000x512, .f32⟩ : BufTy).Contents (Elt Ideal)) (x5 x6 : (⟨S2x2048x512, .f32⟩ : BufTy).Contents (Elt Ideal))
  (x7 x8 : (⟨S2x2048, .f32⟩ : BufTy).Contents (Elt Ideal))
  (x9 : (⟨S32000x512, .f32⟩ : BufTy).Contents (Elt Ideal)) (x10 : (⟨S32000, .f32⟩ : BufTy).Contents (Elt Ideal))

/-! ## The logits -/

/-- One logit: the last hidden row (b, t) against row v of the output matrix, plus the output bias. -/
theorem v128_read (b : Fin 16) (t : Fin 128) (v : Fin 32000) :
    val_main_v128 (F := Ideal) x1 x2 x3 x4 x5 x6 x7 x8 x9 x10 (ix3 b t v)
      = proj (h1 (params x1 x2 x5 x6 x7 x8) (val_main_v10 (F := Ideal) x3 x4) b t) (fun h => x9 (ix2 v h)) (x10 (ix1 v)) := by
  rw [val_main_v128_apply, Ideal.addf_def, val_main_v125_apply, val_main_v127_apply, val_main_v126_apply]
  unfold proj
  have eb : idx_main_v126 (idx_main_v127 (ix3 b t v)) = ix1 v := by
    refine idx1_ext _ _ ?_ <;> ixs
  rw [eb]
  refine congrArg (· + x10 (ix1 v)) (Finset.sum_congr rfl fun k _ => ?_)
  have el : lidx_main_v125 (ix3 b t v) k = ix3 b t k := by
    refine idx3_ext _ _ ?_ ?_ ?_ <;> ixs
  have er : ridx_main_v125 (ix3 b t v) k = ix2 v k := by
    refine idx2_ext _ _ ?_ ?_ <;> ixs
  rw [el, er, v120_read x1 x2 x3 x4 x5 x6 x7 x8]

/-- The first result: the logits. -/
theorem out0_eq :
    val_main_v128 (F := Ideal) x1 x2 x3 x4 x5 x6 x7 x8 x9 x10 = logits (params x1 x2 x5 x6 x7 x8) (val_main_v10 (F := Ideal) x3 x4) x9 x10 := by
  funext i
  obtain ⟨b, t, v, rfl⟩ : ∃ (b : Fin 16) (t : Fin 128) (v : Fin 32000), i = ix3 b t v := ⟨_, _, _, eq_ix3 i⟩
  rw [v128_read]
  rfl

/-! ## The returned states: row 127 of each layer, the two layers laid along a new leading axis -/

/-- Layer 0's hidden state after the last step. -/
theorem v129_read (b : Fin 16) (j : Fin 512) :
    val_main_v129 (F := Ideal) x1 x2 x3 x4 x5 x6 x7 x8 (ix3 (0 : Fin 1) b j) = h0 (params x1 x2 x5 x6 x7 x8) (val_main_v10 (F := Ideal) x3 x4) b tLast j := by
  rw [val_main_v129_apply, val_main_v65_apply, val_main_v64_apply]
  have e : idx_main_v64 (idx_main_v65 (idx_main_v129 (ix3 (0 : Fin 1) b j))) = ix3 b tLast j := by
    have := b.isLt; have := j.isLt
    refine idx3_ext _ _ ?_ ?_ ?_ <;> ixs
  rw [e, v63_read x1 x2 x3 x4 x5 x6 x7 x8]

/-- Layer 1's hidden state after the last step. -/
theorem v130_read (b : Fin 16) (j : Fin 512) :
    val_main_v130 (F := Ideal) x1 x2 x3 x4 x5 x6 x7 x8 (ix3 (0 : Fin 1) b j) = h1 (params x1 x2 x5 x6 x7 x8) (val_main_v10 (F := Ideal) x3 x4) b tLast j := by
  rw [val_main_v130_apply, val_main_v122_apply, val_main_v121_apply]
  have e : idx_main_v121 (idx_main_v122 (idx_main_v130 (ix3 (0 : Fin 1) b j))) = ix3 b tLast j := by
    have := b.isLt; have := j.isLt
    refine idx3_ext _ _ ?_ ?_ ?_ <;> ixs
  rw [e, v120_read x1 x2 x3 x4 x5 x6 x7 x8]

/-- Layer 0's cell state after the last step. -/
theorem v132_read (b : Fin 16) (j : Fin 512) :
    val_main_v132 (F := Ideal) x1 x2 x3 x4 x5 x6 x7 x8 (ix3 (0 : Fin 1) b j) = c0 (params x1 x2 x5 x6 x7 x8) (val_main_v10 (F := Ideal) x3 x4) b tLast j := by
  rw [val_main_v132_apply, val_main_v67_apply, val_main_v66_apply]
  have e : idx_main_v66 (idx_main_v67 (idx_main_v132 (ix3 (0 : Fin 1) b j))) = ix3 b tLast j := by
    have := b.isLt; have := j.isLt
    refine idx3_ext _ _ ?_ ?_ ?_ <;> ixs
  rw [e, v55_read x1 x2 x3 x4 x5 x6 x7 x8]

/-- Layer 1's cell state after the last step. -/
theorem v133_read (b : Fin 16) (j : Fin 512) :
    val_main_v133 (F := Ideal) x1 x2 x3 x4 x5 x6 x7 x8 (ix3 (0 : Fin 1) b j) = c1 (params x1 x2 x5 x6 x7 x8) (val_main_v10 (F := Ideal) x3 x4) b tLast j := by
  rw [val_main_v133_apply, val_main_v124_apply, val_main_v123_apply]
  have e : idx_main_v123 (idx_main_v124 (idx_main_v133 (ix3 (0 : Fin 1) b j))) = ix3 b tLast j := by
    have := b.isLt; have := j.isLt
    refine idx3_ext _ _ ?_ ?_ ?_ <;> ixs
  rw [e, v112_read x1 x2 x3 x4 x5 x6 x7 x8]

/-- The second result: the hidden states after the last step. The joined axis has two positions, one per piece. -/
theorem out1_eq :
    val_main_v131 (F := Ideal) x1 x2 x3 x4 x5 x6 x7 x8 = hLast (params x1 x2 x5 x6 x7 x8) (val_main_v10 (F := Ideal) x3 x4) := by
  funext i
  obtain ⟨l, b, j, rfl⟩ : ∃ (l : Fin 2) (b : Fin 16) (j : Fin 512), i = ix3 l b j := ⟨_, _, _, eq_ix3 i⟩
  unfold val_main_v131
  match l with
  | ⟨0, _⟩ =>
    refine (concatenate_pair_apply_left (t := S2x16x512) (s₁ := S1x16x512) (s₂ := S1x16x512) _ _ _ _ _ rfl (ix3 (0 : Fin 1) b j) ?_).trans ?_
    · intro a
      match a with
      | ⟨0, _⟩ => rfl
      | ⟨1, _⟩ => rfl
      | ⟨2, _⟩ => rfl
    · rw [v129_read]
      exact (if_pos rfl).symm
  | ⟨1, _⟩ =>
    refine (concatenate_pair_apply_right (t := S2x16x512) (s₁ := S1x16x512) (s₂ := S1x16x512) _ _ _ _ _ rfl rfl (ix3 (0 : Fin 1) b j) ?_ ?_).trans ?_
    · intro a ha
      match a, ha with
      | ⟨0, _⟩, ha => exact absurd rfl ha
      | ⟨1, _⟩, _ => rfl
      | ⟨2, _⟩, _ => rfl
    · rfl
    · rw [v130_read]
      exact (if_neg Nat.one_ne_zero).symm

/-- The third result: the cell states after the last step. -/
theorem out2_eq :
    val_main_v134 (F := Ideal) x1 x2 x3 x4 x5 x6 x7 x8 = cLast (params x1 x2 x5 x6 x7 x8) (val_main_v10 (F := Ideal) x3 x4) := by
  funext i
  obtain ⟨l, b, j, rfl⟩ : ∃ (l : Fin 2) (b : Fin 16) (j : Fin 512), i = ix3 l b j := ⟨_, _, _, eq_ix3 i⟩
  unfold val_main_v134
  match l with
  | ⟨0, _⟩ =>
    refine (concatenate_pair_apply_left (t := S2x16x512) (s₁ := S1x16x512) (s₂ := S1x16x512) _ _ _ _ _ rfl (ix3 (0 : Fin 1) b j) ?_).trans ?_
    · intro a
      match a with
      | ⟨0, _⟩ => rfl
      | ⟨1, _⟩ => rfl
      | ⟨2, _⟩ => rfl
    · rw [v132_read]
      exact (if_pos rfl).symm
  | ⟨1, _⟩ =>
    refine (concatenate_pair_apply_right (t := S2x16x512) (s₁ := S1x16x512) (s₂ := S1x16x512) _ _ _ _ _ rfl rfl (ix3 (0 : Fin 1) b j) ?_ ?_).trans ?_
    · intro a ha
      match a, ha with
      | ⟨0, _⟩, ha => exact absurd rfl ha
      | ⟨1, _⟩, _ => rfl
      | ⟨2, _⟩, _ => rfl
    · rfl
    · rw [v133_read]
      exact (if_neg Nat.one_ne_zero).symm

end Cert.ReferenceIdeal.RefValue

end
-- ==== Proof.Bridge.lean ====
/-
  The two programs embed the token ids in the same way: a column of ones joined to the first 127 columns of the ids,
  a negative id counted from the end of the table, the table's rows gathered, and the result clamped below at zero.
  Both spell this with the same operations in the same order, so the two terms are one term.
-/
import proofs.«123488_j77790447665279_2_alg».proof.Proof.GlueIn
import proofs.«123488_j77790447665279_2_alg».proof.Proof.Gen.ReferenceIdeal.Read

noncomputable section

namespace Cert.Bridge

open Idealize.ShloMosaic

/-- The kernel program's embedded inputs are the reference's. -/
theorem embed_eq (x3 : (⟨Cert.KernelIdeal.S16x128, .i32⟩ : BufTy).Contents (Elt Ideal))
    (x4 : (⟨Cert.KernelIdeal.S32000x512, .f32⟩ : BufTy).Contents (Elt Ideal)) :
    Cert.KernelIdeal.Glue.embed x3 x4 = Cert.ReferenceIdeal.Read.val_main_v10 (F := Ideal) x3 x4 := by
  unfold Cert.KernelIdeal.Glue.embed Cert.KernelIdeal.Glue.shifted
    Cert.ReferenceIdeal.Read.val_main_v10 Cert.ReferenceIdeal.Read.val_main_v9 Cert.ReferenceIdeal.Read.val_main_call0_v0
    Cert.ReferenceIdeal.Read.val_main_call0_cst Cert.ReferenceIdeal.Read.val_main_v8 Cert.ReferenceIdeal.Read.val_main_v7
    Cert.ReferenceIdeal.Read.val_main_v6 Cert.ReferenceIdeal.Read.val_main_v5 Cert.ReferenceIdeal.Read.val_main_c_1
    Cert.ReferenceIdeal.Read.val_main_v4 Cert.ReferenceIdeal.Read.val_main_v3 Cert.ReferenceIdeal.Read.val_main_c_0
    Cert.ReferenceIdeal.Read.val_main_v2 Cert.ReferenceIdeal.Read.val_main_v1 Cert.ReferenceIdeal.Read.val_main_v0
    Cert.ReferenceIdeal.Read.val_main_c
  rfl

end Cert.Bridge

end
-- ==== Proof.lean ====
/-
  The kernel program and the reference compute one function on the extended reals.

  The reference runs a two-layer LSTM decoder over 128 teacher-forced steps whose state is reset to the encoder's at
  every step, so the steps are independent: per batch element and layer the gates of all rows are one matrix
  product plus biases, the cell and hidden rows follow entry by entry, and the logits are a last product with the
  output matrix.  The kernel program does the same in two kernels (both layers fused per batch element; the
  projection per block of 1280 vocabulary columns) with host operations around them, after folding the recurrent
  product and both bias vectors of a layer into one bias per batch element.

  Both sides are proved equal, index by index, to one specification (Proof/Spec.lean):
  the reference through its run read one operation at a time; the kernel program through the run of its segments,
  each kernel's output blocks read as one function of the arrays it finds, and the host operations around them
  read at an index.  The only algebra between them is the grouping of a gate's three summands, valid in any
  commutative monoid; the logistic function is one function however it is spelt; a change of float format is the
  identity here.  The precondition (finite inputs) is never used: the equality holds for all extended reals.
  The embedded inputs (gather and clamp) are the same term in both programs and are never opened.

  The three frames: the two kernel programs' are the generated frame certificates; the reference's is its generated
  run with the results dropped.  No rewrite was applied by the idealization, so its conjunct is trivial.
-/
import proofs.«123488_j77790447665279_2_alg».proof.Defs
import proofs.«123488_j77790447665279_2_alg».proof.Proof.Gen.Kernel
import proofs.«123488_j77790447665279_2_alg».proof.Proof.Gen.Kernel.Skeleton
import proofs.«123488_j77790447665279_2_alg».proof.Proof.Gen.Kernel.Launch
import proofs.«123488_j77790447665279_2_alg».proof.Proof.Gen.Kernel.Points
import proofs.«123488_j77790447665279_2_alg».proof.Proof.Gen.Kernel.Frame
import proofs.«123488_j77790447665279_2_alg».proof.Proof.Gen.KernelIdeal
import proofs.«123488_j77790447665279_2_alg».proof.Proof.Gen.KernelIdeal.Skeleton
import proofs.«123488_j77790447665279_2_alg».proof.Proof.Gen.KernelIdeal.Launch
import proofs.«123488_j77790447665279_2_alg».proof.Proof.Gen.KernelIdeal.Points
import proofs.«123488_j77790447665279_2_alg».proof.Proof.Gen.KernelIdeal.Frame
import proofs.«123488_j77790447665279_2_alg».proof.Proof.Gen.ReferenceIdeal
import proofs.«123488_j77790447665279_2_alg».proof.Proof.Gen.ReferenceIdeal.Run
import proofs.«123488_j77790447665279_2_alg».proof.Proof.Gen.ReferenceIdeal.Read
import proofs.«123488_j77790447665279_2_alg».proof.Proof.Gen.Pre_finite_inputs
import proofs.«123488_j77790447665279_2_alg».proof.Proof.KValue
import proofs.«123488_j77790447665279_2_alg».proof.Proof.RefValue
import proofs.«123488_j77790447665279_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the specification's logits and final states of the launched arguments. -/
theorem algebraic : Cert.algebraic_KernelIdeal_ReferenceIdeal := by
  intro m ρ m' ρ' _ hagree
  refine ⟨fun c => Cert.Lstm.logits (Cert.KernelIdeal.Glue.params m c) (Cert.KernelIdeal.Glue.embed (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Lstm.hLast (Cert.KernelIdeal.Glue.params m c) (Cert.KernelIdeal.Glue.embed (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    fun c => Cert.Lstm.cLast (Cert.KernelIdeal.Glue.params m c) (Cert.KernelIdeal.Glue.embed (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    Cert.KernelIdeal.Glue.kernel_values m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8, a9, a10⟩ := hagree c
    rw [Cert.ReferenceIdeal.Read.val_main_v128_eq, Cert.ReferenceIdeal.RefValue.out0_eq, a1, a2, a3, a4, a5, a6, a7, a8, a9, a10,
      ← Cert.Bridge.embed_eq]
    rfl
  · obtain ⟨a0, a1, a2, a3, a4, a5, a6, a7, a8, a9, a10⟩ := hagree c
    rw [Cert.ReferenceIdeal.Read.val_main_v131_eq, Cert.ReferenceIdeal.RefValue.out1_eq, a1, a2, a3, a4, a5, a6, a7, a8,
      ← Cert.Bridge.embed_eq]
    rfl
  · obtain ⟨a0, a1, a2, a3, a4, a5, a6, a7, a8, a9, a10⟩ := hagree c
    rw [Cert.ReferenceIdeal.Read.val_main_v134_eq, Cert.ReferenceIdeal.RefValue.out2_eq, a1, a2, a3, a4, a5, a6, a7, a8,
      ← Cert.Bridge.embed_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
